-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64x64 .f32) (main_arg8 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : IVec S2400000 32) (main_arg1 : IVec S2400000 32) (main_arg2 : FVec F S2400000 .f32) (main_arg3 : FVec F S50000x64 .f32) (main_arg4 : FVec F S100000x64 .f32) (main_arg5 : FVec F S3x64x64 .f32) (main_arg6 : FVec F S3x64 .f32) (main_arg7 : FVec F S3x64x64 .f32) (main_arg8 : FVec F S3x64 .f32) : IVec S_ 1 :=
  let main_v0 : FVec F S2400000 .f32 := Host.absf main_arg2
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S2400000 : Shape := ⟨1, ![2400000]⟩
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S150000x256 : Shape := ⟨2, ![150000, 256]⟩
abbrev S50000x256 : Shape := ⟨2, ![50000, 256]⟩
abbrev S100000x256 : Shape := ⟨2, ![100000, 256]⟩

abbrev nBuf : Space → Nat
  | .hbm => 121
  | .vmem => 30
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S50000x64, .f32⟩
  | .hbm, ⟨4, _⟩ => ⟨S100000x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S150000x64, .f32⟩
  | .hbm, ⟨10, _⟩ => ⟨S2400000x1, .f32⟩
  | .hbm, ⟨11, _⟩ => ⟨S_, .i32⟩
  | .hbm, ⟨12, _⟩ => ⟨S2400000, .i32⟩
  | .hbm, ⟨13, _⟩ => ⟨S2400000, .i1⟩
  | .hbm, ⟨14, _⟩ => ⟨S_, .i32⟩
  | .hbm, ⟨15, _⟩ => ⟨S2400000, .i32⟩
  | .hbm, ⟨16, _⟩ => ⟨S2400000, .i32⟩
  | .hbm, ⟨17, _⟩ => ⟨S2400000, .i32⟩
  | .hbm, ⟨18, _⟩ => ⟨S2400000x1, .i32⟩
  | .hbm, ⟨19, _⟩ => ⟨S2400000x64, .f32⟩
  | .hbm, ⟨20, _⟩ => ⟨S2400000x64, .f32⟩
  | .hbm, ⟨21, _⟩ => ⟨S2400000x64, .f32⟩
  | .hbm, ⟨22, _⟩ => ⟨S_, .f32⟩
  | .hbm, ⟨23, _⟩ => ⟨S150000x64, .f32⟩
  | .hbm, ⟨24, _⟩ => ⟨S2400000x1, .i32⟩
  | .hbm, ⟨25, _⟩ => ⟨S150000x64, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S64, .f32⟩
  | .hbm, ⟨30, _⟩ => ⟨S1x64x64, .f32⟩
  | .hbm, ⟨31, _⟩ => ⟨S64x64, .f32⟩
  | .hbm, ⟨32, _⟩ => ⟨S1x64, .f32⟩
  | .hbm, ⟨33, _⟩ => ⟨S64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x128, .f32⟩
  | .hbm, ⟨39, _⟩ => ⟨S64x128, .f32⟩
  | .hbm, ⟨40, _⟩ => ⟨S128x128, .f32⟩
  | .hbm, ⟨41, _⟩ => ⟨S128x128, .bf16⟩
  | .hbm, ⟨42, _⟩ => ⟨S128, .f32⟩
  | .hbm, ⟨43, _⟩ => ⟨S1x128, .f32⟩
  | .hbm, ⟨44, _⟩ => ⟨S150000x64, .f32⟩
  | .hbm, ⟨45, _⟩ => ⟨S150000x64, .f32⟩
  | .hbm, ⟨46, _⟩ => ⟨S2400000x1, .f32⟩
  | .hbm, ⟨47, _⟩ => ⟨S_, .i32⟩
  | .hbm, ⟨48, _⟩ => ⟨S2400000, .i32⟩
  | .hbm, ⟨49, _⟩ => ⟨S2400000, .i1⟩
  | .hbm, ⟨50, _⟩ => ⟨S_, .i32⟩
  | .hbm, ⟨51, _⟩ => ⟨S2400000, .i32⟩
  | .hbm, ⟨52, _⟩ => ⟨S2400000, .i32⟩
  | .hbm, ⟨53, _⟩ => ⟨S2400000, .i32⟩
  | .hbm, ⟨54, _⟩ => ⟨S2400000x1, .i32⟩
  | .hbm, ⟨55, _⟩ => ⟨S2400000x64, .f32⟩
  | .hbm, ⟨56, _⟩ => ⟨S2400000x64, .f32⟩
  | .hbm, ⟨57, _⟩ => ⟨S2400000x64, .f32⟩
  | .hbm, ⟨58, _⟩ => ⟨S_, .f32⟩
  | .hbm, ⟨59, _⟩ => ⟨S150000x64, .f32⟩
  | .hbm, ⟨60, _⟩ => ⟨S2400000x1, .i32⟩
  | .hbm, ⟨61, _⟩ => ⟨S150000x64, .f32⟩
  | .hbm, ⟨62, _⟩ => ⟨S1x64x64, .f32⟩
  | .hbm, ⟨63, _⟩ => ⟨S64x64, .f32⟩
  | .hbm, ⟨64, _⟩ => ⟨S1x64, .f32⟩
  | .hbm, ⟨65, _⟩ => ⟨S64, .f32⟩
  | .hbm, ⟨66, _⟩ => ⟨S1x64x64, .f32⟩
  | .hbm, ⟨67, _⟩ => ⟨S64x64, .f32⟩
  | .hbm, ⟨68, _⟩ => ⟨S1x64, .f32⟩
  | .hbm, ⟨69, _⟩ => ⟨S64, .f32⟩
  | .hbm, ⟨70, _⟩ => ⟨S64x64, .f32⟩
  | .hbm, ⟨71, _⟩ => ⟨S64x64, .f32⟩
  | .hbm, ⟨72, _⟩ => ⟨S_, .f32⟩
  | .hbm, ⟨73, _⟩ => ⟨S64x64, .f32⟩
  | .hbm, ⟨74, _⟩ => ⟨S64x128, .f32⟩
  | .hbm, ⟨75, _⟩ => ⟨S64x128, .f32⟩
  | .hbm, ⟨76, _⟩ => ⟨S128x128, .f32⟩
  | .hbm, ⟨77, _⟩ => ⟨S128x128, .bf16⟩
  | .hbm, ⟨78, _⟩ => ⟨S128, .f32⟩
  | .hbm, ⟨79, _⟩ => ⟨S1x128, .f32⟩
  | .hbm, ⟨80, _⟩ => ⟨S150000x64, .f32⟩
  | .hbm, ⟨81, _⟩ => ⟨S150000x64, .f32⟩
  | .hbm, ⟨82, _⟩ => ⟨S2400000x1, .f32⟩
  | .hbm, ⟨83, _⟩ => ⟨S_, .i32⟩
  | .hbm, ⟨84, _⟩ => ⟨S2400000, .i32⟩
  | .hbm, ⟨85, _⟩ => ⟨S2400000, .i1⟩
  | .hbm, ⟨86, _⟩ => ⟨S_, .i32⟩
  | .hbm, ⟨87, _⟩ => ⟨S2400000, .i32⟩
  | .hbm, ⟨88, _⟩ => ⟨S2400000, .i32⟩
  | .hbm, ⟨89, _⟩ => ⟨S2400000, .i32⟩
  | .hbm, ⟨90, _⟩ => ⟨S2400000x1, .i32⟩
  | .hbm, ⟨91, _⟩ => ⟨S2400000x64, .f32⟩
  | .hbm, ⟨92, _⟩ => ⟨S2400000x64, .f32⟩
  | .hbm, ⟨93, _⟩ => ⟨S2400000x64, .f32⟩
  | .hbm, ⟨94, _⟩ => ⟨S_, .f32⟩
  | .hbm, ⟨95, _⟩ => ⟨S150000x64, .f32⟩
  | .hbm, ⟨96, _⟩ => ⟨S2400000x1, .i32⟩
  | .hbm, ⟨97, _⟩ => ⟨S150000x64, .f32⟩
  | .hbm, ⟨98, _⟩ => ⟨S1x64x64, .f32⟩
  | .hbm, ⟨99, _⟩ => ⟨S64x64, .f32⟩
  | .hbm, ⟨100, _⟩ => ⟨S1x64, .f32⟩
  | .hbm, ⟨101, _⟩ => ⟨S64, .f32⟩
  | .hbm, ⟨102, _⟩ => ⟨S1x64x64, .f32⟩
  | .hbm, ⟨103, _⟩ => ⟨S64x64, .f32⟩
  | .hbm, ⟨104, _⟩ => ⟨S1x64, .f32⟩
  | .hbm, ⟨105, _⟩ => ⟨S64, .f32⟩
  | .hbm, ⟨106, _⟩ => ⟨S64x64, .f32⟩
  | .hbm, ⟨107, _⟩ => ⟨S64x64, .f32⟩
  | .hbm, ⟨108, _⟩ => ⟨S_, .f32⟩
  | .hbm, ⟨109, _⟩ => ⟨S64x64, .f32⟩
  | .hbm, ⟨110, _⟩ => ⟨S64x128, .f32⟩
  | .hbm, ⟨111, _⟩ => ⟨S64x128, .f32⟩
  | .hbm, ⟨112, _⟩ => ⟨S128x128, .f32⟩
  | .hbm, ⟨113, _⟩ => ⟨S128x128, .bf16⟩
  | .hbm, ⟨114, _⟩ => ⟨S128, .f32⟩
  | .hbm, ⟨115, _⟩ => ⟨S1x128, .f32⟩
  | .hbm, ⟨116, _⟩ => ⟨S150000x64, .f32⟩
  | .hbm, ⟨117, _⟩ => ⟨S150000x64, .f32⟩
  | .hbm, ⟨118, _⟩ => ⟨S150000x256, .f32⟩
  | .hbm, ⟨119, _⟩ => ⟨S50000x256, .f32⟩
  | .hbm, ⟨120, _⟩ => ⟨S100000x256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x128, .bf16⟩
  | .local _ .vmem, ⟨5, _⟩ => ⟨S1x128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x128, .bf16⟩
  | .local _ .vmem, ⟨15, _⟩ => ⟨S1x128, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S128x128, .bf16⟩
  | .local _ .vmem, ⟨25, _⟩ => ⟨S1x128, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_c_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62_0 : Ref sig .tc := ⟨.hbm, 80, rfl⟩
abbrev main_v62_1 : Ref sig .tc := ⟨.hbm, 81, rfl⟩
abbrev main_v63 : Ref sig .tc := ⟨.hbm, 82, rfl⟩
abbrev main_c_6 : Ref sig .tc := ⟨.hbm, 83, rfl⟩
abbrev main_v64 : Ref sig .tc := ⟨.hbm, 84, rfl⟩
abbrev main_v65 : Ref sig .tc := ⟨.hbm, 85, rfl⟩
abbrev main_c_7 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93_0 : Ref sig .tc := ⟨.hbm, 116, rfl⟩
abbrev main_v93_1 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S50000x64_S100000x64_S150000x64_d0 : Shape.Concatenates [S50000x64, S100000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bitsLt_bf16_f32 : FTy.bits .bf16 < FTy.bits .f32
  concatenates_S64_S64_S128_d0 : Shape.Concatenates [S64, S64] S128 0
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S150000x64.size a
  hwx0_5 : ∀ i : grid0.Coords, EltTy.bits .f32 = 32 ∨ (Rect.block (s := S150000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S150000x64.size a
  hwx1_5 : ∀ i : grid1.Coords, EltTy.bits .f32 = 32 ∨ (Rect.block (s := S150000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S150000x64.size a
  hwx2_1 : ∀ i : grid2.Coords, EltTy.bits .f32 = 32 ∨ (Rect.block (s := S150000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S150000x64.size a
  hwx2_5 : ∀ i : grid2.Coords, EltTy.bits .f32 = 32 ∨ (Rect.block (s := S150000x64) S5000x64.size (cc2_transform_5 i) (hinb2_5 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v62_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v93_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2400000 : Shape := ⟨1, ![2400000]⟩
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩
abbrev S50000x256 : Shape := ⟨2, ![50000, 256]⟩
abbrev S100000x256 : Shape := ⟨2, ![100000, 256]⟩

abbrev nBuf : Space → Nat
  | .hbm => 193
  | .vmem => 0
  | .smem => 0
  | _ => 0

abbrev hbmTy0_0 (i : Nat) : BufTy := match i % 128 with
  | 0 => ⟨S2400000, .i32⟩
  | 1 => ⟨S2400000, .i32⟩
  | 2 => ⟨S2400000, .f32⟩
  | 3 => ⟨S50000x64, .f32⟩
  | 4 => ⟨S100000x64, .f32⟩
  | 5 => ⟨S3x64x64, .f32⟩
  | 6 => ⟨S3x64, .f32⟩
  | 7 => ⟨S3x64x64, .f32⟩
  | 8 => ⟨S3x64, .f32⟩
  | 9 => ⟨S150000x64, .f32⟩
  | 10 => ⟨S2400000x1, .f32⟩
  | 11 => ⟨S_, .i32⟩
  | 12 => ⟨S2400000, .i32⟩
  | 13 => ⟨S2400000, .i1⟩
  | 14 => ⟨S_, .i32⟩
  | 15 => ⟨S2400000, .i32⟩
  | 16 => ⟨S2400000, .i32⟩
  | 17 => ⟨S2400000, .i32⟩
  | 18 => ⟨S2400000x1, .i32⟩
  | 19 => ⟨S2400000x64, .f32⟩
  | 20 => ⟨S2400000x64, .f32⟩
  | 21 => ⟨S2400000x64, .f32⟩
  | 22 => ⟨S_, .f32⟩
  | 23 => ⟨S150000x64, .f32⟩
  | 24 => ⟨S2400000x1, .i32⟩
  | 25 => ⟨S150000x64, .f32⟩
  | 26 => ⟨S1x64x64, .f32⟩
  | 27 => ⟨S64x64, .f32⟩
  | 28 => ⟨S64x64, .f32⟩
  | 29 => ⟨S150000x64, .f32⟩
  | 30 => ⟨S1x64, .f32⟩
  | 31 => ⟨S64, .f32⟩
  | 32 => ⟨S1x64, .f32⟩
  | 33 => ⟨S150000x64, .f32⟩
  | 34 => ⟨S150000x64, .f32⟩
  | 35 => ⟨S_, .f32⟩
  | 36 => ⟨S150000x64, .f32⟩
  | 37 => ⟨S150000x64, .i1⟩
  | 38 => ⟨S_, .f32⟩
  | 39 => ⟨S150000x64, .f32⟩
  | 40 => ⟨S150000x64, .f32⟩
  | 41 => ⟨S150000x64, .f32⟩
  | 42 => ⟨S150000x64, .f32⟩
  | 43 => ⟨S1x64x64, .f32⟩
  | 44 => ⟨S64x64, .f32⟩
  | 45 => ⟨S64x64, .f32⟩
  | 46 => ⟨S150000x64, .f32⟩
  | 47 => ⟨S1x64, .f32⟩
  | 48 => ⟨S64, .f32⟩
  | 49 => ⟨S1x64, .f32⟩
  | 50 => ⟨S150000x64, .f32⟩
  | 51 => ⟨S150000x64, .f32⟩
  | 52 => ⟨S_, .f32⟩
  | 53 => ⟨S150000x64, .f32⟩
  | 54 => ⟨S150000x64, .i1⟩
  | 55 => ⟨S_, .f32⟩
  | 56 => ⟨S150000x64, .f32⟩
  | 57 => ⟨S150000x64, .f32⟩
  | 58 => ⟨S150000x64, .f32⟩
  | 59 => ⟨S150000x64, .f32⟩
  | 60 => ⟨S150000x64, .f32⟩
  | 61 => ⟨S_, .f32⟩
  | 62 => ⟨S150000, .f32⟩
  | 63 => ⟨S150000x1, .f32⟩
  | 64 => ⟨S150000x1, .f32⟩
  | 65 => ⟨S_, .f32⟩
  | 66 => ⟨S150000x1, .f32⟩
  | 67 => ⟨S150000x1, .f32⟩
  | 68 => ⟨S150000x64, .f32⟩
  | 69 => ⟨S150000x64, .f32⟩
  | 70 => ⟨S2400000x1, .f32⟩
  | 71 => ⟨S_, .i32⟩
  | 72 => ⟨S2400000, .i32⟩
  | 73 => ⟨S2400000, .i1⟩
  | 74 => ⟨S_, .i32⟩
  | 75 => ⟨S2400000, .i32⟩
  | 76 => ⟨S2400000, .i32⟩
  | 77 => ⟨S2400000, .i32⟩
  | 78 => ⟨S2400000x1, .i32⟩
  | 79 => ⟨S2400000x64, .f32⟩
  | 80 => ⟨S2400000x64, .f32⟩
  | 81 => ⟨S2400000x64, .f32⟩
  | 82 => ⟨S_, .f32⟩
  | 83 => ⟨S150000x64, .f32⟩
  | 84 => ⟨S2400000x1, .i32⟩
  | 85 => ⟨S150000x64, .f32⟩
  | 86 => ⟨S1x64x64, .f32⟩
  | 87 => ⟨S64x64, .f32⟩
  | 88 => ⟨S64x64, .f32⟩
  | 89 => ⟨S150000x64, .f32⟩
  | 90 => ⟨S1x64, .f32⟩
  | 91 => ⟨S64, .f32⟩
  | 92 => ⟨S1x64, .f32⟩
  | 93 => ⟨S150000x64, .f32⟩
  | 94 => ⟨S150000x64, .f32⟩
  | 95 => ⟨S_, .f32⟩
  | 96 => ⟨S150000x64, .f32⟩
  | 97 => ⟨S150000x64, .i1⟩
  | 98 => ⟨S_, .f32⟩
  | 99 => ⟨S150000x64, .f32⟩
  | 100 => ⟨S150000x64, .f32⟩
  | 101 => ⟨S150000x64, .f32⟩
  | 102 => ⟨S150000x64, .f32⟩
  | 103 => ⟨S1x64x64, .f32⟩
  | 104 => ⟨S64x64, .f32⟩
  | 105 => ⟨S64x64, .f32⟩
  | 106 => ⟨S150000x64, .f32⟩
  | 107 => ⟨S1x64, .f32⟩
  | 108 => ⟨S64, .f32⟩
  | 109 => ⟨S1x64, .f32⟩
  | 110 => ⟨S150000x64, .f32⟩
  | 111 => ⟨S150000x64, .f32⟩
  | 112 => ⟨S_, .f32⟩
  | 113 => ⟨S150000x64, .f32⟩
  | 114 => ⟨S150000x64, .i1⟩
  | 115 => ⟨S_, .f32⟩
  | 116 => ⟨S150000x64, .f32⟩
  | 117 => ⟨S150000x64, .f32⟩
  | 118 => ⟨S150000x64, .f32⟩
  | 119 => ⟨S150000x64, .f32⟩
  | 120 => ⟨S150000x64, .f32⟩
  | 121 => ⟨S_, .f32⟩
  | 122 => ⟨S150000, .f32⟩
  | 123 => ⟨S150000x1, .f32⟩
  | 124 => ⟨S150000x1, .f32⟩
  | 125 => ⟨S_, .f32⟩
  | 126 => ⟨S150000x1, .f32⟩
  | 127 => ⟨S150000x1, .f32⟩
  | _ => ⟨S2400000, .i32⟩

abbrev hbmTy0_1 (i : Nat) : BufTy := match i % 128 with
  | 0 => ⟨S150000x64, .f32⟩
  | 1 => ⟨S150000x64, .f32⟩
  | 2 => ⟨S2400000x1, .f32⟩
  | 3 => ⟨S_, .i32⟩
  | 4 => ⟨S2400000, .i32⟩
  | 5 => ⟨S2400000, .i1⟩
  | 6 => ⟨S_, .i32⟩
  | 7 => ⟨S2400000, .i32⟩
  | 8 => ⟨S2400000, .i32⟩
  | 9 => ⟨S2400000, .i32⟩
  | 10 => ⟨S2400000x1, .i32⟩
  | 11 => ⟨S2400000x64, .f32⟩
  | 12 => ⟨S2400000x64, .f32⟩
  | 13 => ⟨S2400000x64, .f32⟩
  | 14 => ⟨S_, .f32⟩
  | 15 => ⟨S150000x64, .f32⟩
  | 16 => ⟨S2400000x1, .i32⟩
  | 17 => ⟨S150000x64, .f32⟩
  | 18 => ⟨S1x64x64, .f32⟩
  | 19 => ⟨S64x64, .f32⟩
  | 20 => ⟨S64x64, .f32⟩
  | 21 => ⟨S150000x64, .f32⟩
  | 22 => ⟨S1x64, .f32⟩
  | 23 => ⟨S64, .f32⟩
  | 24 => ⟨S1x64, .f32⟩
  | 25 => ⟨S150000x64, .f32⟩
  | 26 => ⟨S150000x64, .f32⟩
  | 27 => ⟨S_, .f32⟩
  | 28 => ⟨S150000x64, .f32⟩
  | 29 => ⟨S150000x64, .i1⟩
  | 30 => ⟨S_, .f32⟩
  | 31 => ⟨S150000x64, .f32⟩
  | 32 => ⟨S150000x64, .f32⟩
  | 33 => ⟨S150000x64, .f32⟩
  | 34 => ⟨S150000x64, .f32⟩
  | 35 => ⟨S1x64x64, .f32⟩
  | 36 => ⟨S64x64, .f32⟩
  | 37 => ⟨S64x64, .f32⟩
  | 38 => ⟨S150000x64, .f32⟩
  | 39 => ⟨S1x64, .f32⟩
  | 40 => ⟨S64, .f32⟩
  | 41 => ⟨S1x64, .f32⟩
  | 42 => ⟨S150000x64, .f32⟩
  | 43 => ⟨S150000x64, .f32⟩
  | 44 => ⟨S_, .f32⟩
  | 45 => ⟨S150000x64, .f32⟩
  | 46 => ⟨S150000x64, .i1⟩
  | 47 => ⟨S_, .f32⟩
  | 48 => ⟨S150000x64, .f32⟩
  | 49 => ⟨S150000x64, .f32⟩
  | 50 => ⟨S150000x64, .f32⟩
  | 51 => ⟨S150000x64, .f32⟩
  | 52 => ⟨S150000x64, .f32⟩
  | 53 => ⟨S_, .f32⟩
  | 54 => ⟨S150000, .f32⟩
  | 55 => ⟨S150000x1, .f32⟩
  | 56 => ⟨S150000x1, .f32⟩
  | 57 => ⟨S_, .f32⟩
  | 58 => ⟨S150000x1, .f32⟩
  | 59 => ⟨S150000x1, .f32⟩
  | 60 => ⟨S150000x64, .f32⟩
  | 61 => ⟨S150000x64, .f32⟩
  | 62 => ⟨S150000x256, .f32⟩
  | 63 => ⟨S50000x256, .f32⟩
  | 64 => ⟨S100000x256, .f32⟩
  | _ => ⟨S2400000, .i32⟩

abbrev hbmTy (i : Nat) : BufTy := match i / 128 with
  | 0 => hbmTy0_0 i
  | 1 => hbmTy0_1 i
  | _ => ⟨S2400000, .i32⟩

abbrev bufTy : (tb : Table) → Fin (tcTables nBuf tb) → BufTy
  | .hbm, ⟨i, _⟩ => hbmTy i
  | _, _ => ⟨S2400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_3 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_6 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_7 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_8 : Ref sig .tc := ⟨.hbm, 131, rfl⟩
abbrev main_v88 : Ref sig .tc := ⟨.hbm, 132, rfl⟩
abbrev main_v89 : Ref sig .tc := ⟨.hbm, 133, rfl⟩
abbrev main_c_9 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_10 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_call5_cst : Ref sig .tc := ⟨.hbm, 172, rfl⟩
abbrev main_call5_v0 : Ref sig .tc := ⟨.hbm, 173, rfl⟩
abbrev main_call5_v1 : Ref sig .tc := ⟨.hbm, 174, rfl⟩
abbrev main_call5_cst_0 : Ref sig .tc := ⟨.hbm, 175, rfl⟩
abbrev main_call5_v2 : Ref sig .tc := ⟨.hbm, 176, rfl⟩
abbrev main_call5_v3 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_11 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_12 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩

abbrev nD : Nat := 1
abbrev τ : Topo := Topo.v7x

variable {F : FTy → Type} [FloatOps F]

class Facts₀ : Prop where
  concatenates_S50000x64_S100000x64_S150000x64_d0 : Shape.Concatenates [S50000x64, S100000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.KBHalf.lean ====
/-
  One grid point of a layer kernel, and the data a launch of it is proved against.

  A layer kernel is launched over 30 blocks of 5000 rows. At block `t` its body is handed the block of the node
  embeddings `ego`, the block of the neighbourhood sums `side`, the fused 128×128 weight and the fused 1×128 bias, and it
  overwrites two output blocks: the next embeddings `ego'` and their row-normalised copy. It reads nothing else and
  keeps nothing between blocks. So after the body each input buffer still holds its block and each output buffer holds
  a fixed function (the body's stored value) of the four input blocks; this is stated once per layer, for arbitrary
  contents `V` of the arrays when the layer is entered.
-/
import proofs.«182127_j4269197492536_2_alg».proof.Proof.Gen.Kernel.Launch
import proofs.«182127_j4269197492536_2_alg».proof.Proof.Gen.Kernel.Skeleton
import proofs.«182127_j4269197492536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole rectangle of a row block, of the fused weight, of the fused bias. -/
abbrev rRow : Rect S5000x64 := Rect.unit (s := S5000x64) ![0, 0] S5000x64.size inb_S5000x64_S5000x64_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0

/-- One whole-block store covers the block. -/
theorem coverRow (p0 : Vec F S5000x64 .f32) (y : S5000x64.Idx) :
    ∃ pc ∈ ([⟨rRow, p0⟩] : List (View.Piece (Elt F) S5000x64 .f32)), y ∈ pc.1.set :=
  View.cover_of_tiled [⟨rRow, p0⟩] S5000x64.size (by rfl) y

variable (V : (c : Dev nD) → (b : Ref sig .tc) → Buf (Elt F) ((c : Thread nD τ).loc b))

/-! # Layer 1 (pipeline 0) at entry contents `V` -/

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has not
    moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block index has not
    moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block index has not
    moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (unfetched, the block index has not
    moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the two output buffers, from the four input blocks: the next embeddings and their
    row-normalised copy, each one whole-block store of the body's value. -/
def out0_4 (x0 x1 : Vec F S5000x64 .f32) (x2 : Vec F S128x128 .bf16) (x3 : Vec F S1x128 .f32) : Vec F S5000x64 .f32 :=
  View.canon [⟨rRow, k0_pay1 (View.ld x0 rRow) (View.ld x1 rRow) (View.ld x2 rWt) (View.ld x3 rBias)⟩]
def out0_5 (x0 x1 : Vec F S5000x64 .f32) (x2 : Vec F S128x128 .bf16) (x3 : Vec F S1x128 .f32) : Vec F S5000x64 .f32 :=
  View.canon [⟨rRow, k0_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out0_4`, `out0_5` of the inputs'. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 1's pipeline on core `c`: the arrays as the layer finds them; after the body at point `t` each
    input's buffer at its block and each output's at the body's value of the input blocks; nothing owed, full shares, and
    the invariant that lets the scoped rest and the generator register ride along untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

/-! # Layer 2 (pipeline 1) at entry contents `V` -/

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not
    moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block index has not
    moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block index has not
    moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block index has not
    moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the two output buffers, from the four input blocks: the next embeddings and their
    row-normalised copy, each one whole-block store of the body's value. -/
def out1_4 (x0 x1 : Vec F S5000x64 .f32) (x2 : Vec F S128x128 .bf16) (x3 : Vec F S1x128 .f32) : Vec F S5000x64 .f32 :=
  View.canon [⟨rRow, k1_pay1 (View.ld x0 rRow) (View.ld x1 rRow) (View.ld x2 rWt) (View.ld x3 rBias)⟩]
def out1_5 (x0 x1 : Vec F S5000x64 .f32) (x2 : Vec F S128x128 .bf16) (x3 : Vec F S1x128 .f32) : Vec F S5000x64 .f32 :=
  View.canon [⟨rRow, k1_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out1_4`, `out1_5` of the inputs'. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 2's pipeline on core `c`: the arrays as the layer finds them; after the body at point `t` each
    input's buffer at its block and each output's at the body's value of the input blocks; nothing owed, full shares, and
    the invariant that lets the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

/-! # Layer 3 (pipeline 2) at entry contents `V` -/

/-- Window `w`'s block at point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has not
    moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block index has not
    moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block index has not
    moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block index has not
    moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the two output buffers, from the four input blocks: the next embeddings and their
    row-normalised copy, each one whole-block store of the body's value. -/
def out2_4 (x0 x1 : Vec F S5000x64 .f32) (x2 : Vec F S128x128 .bf16) (x3 : Vec F S1x128 .f32) : Vec F S5000x64 .f32 :=
  View.canon [⟨rRow, k2_pay1 (View.ld x0 rRow) (View.ld x1 rRow) (View.ld x2 rWt) (View.ld x3 rBias)⟩]
def out2_5 (x0 x1 : Vec F S5000x64 .f32) (x2 : Vec F S128x128 .bf16) (x3 : Vec F S1x128 .f32) : Vec F S5000x64 .f32 :=
  View.canon [⟨rRow, k2_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out2_4`, `out2_5` of the inputs'. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 3's pipeline on core `c`: the arrays as the layer finds them; after the body at point `t` each
    input's buffer at its block and each output's at the body's value of the input blocks; nothing owed, full shares, and
    the invariant that lets the scoped rest and the generator register ride along untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.KBRun.lean ====
/-
  The whole program as a chain of segments: a stretch of host operations, a layer's launch, a stretch, a launch, a stretch, a
  launch, and the closing stretch. The contents of every array between two segments are named by a fold from the launch memory:
  a host stretch applies its operations in order; a launch leaves its two output arrays at what its thirty write-backs
  leave and everything else as it was. The run theorem says every execution ends, without a fault, with every array at
  the last of these contents; the frame and the results are read off it.
-/
import proofs.«182127_j4269197492536_2_alg».proof.Proof.KBHalf
import proofs.«182127_j4269197492536_2_alg».proof.Proof.Gen.Kernel.Regions

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between segments -/

/-- At launch. -/
abbrev Bd0 : Dev nD → Valuation τ sig (Elt F) := fun c b => m (c, b)

/-- When layer 1 is entered (after the host stretch before it). -/
abbrev Bd1 : Dev nD → Valuation τ sig (Elt F) := fun c => StableHlo.after hostOps0 (Bd0 m c)
abbrev Vb1 : (c : Dev nD) → (b : Ref sig .tc) → Buf (Elt F) ((c : Thread nD τ).loc b) := fun c b => Bd1 m c b
/-- When layer 1 is left: its arrays at what the pipeline's write-backs leave (an input as entered, an output the blocks
    written over it), every other buffer as entered. -/
def Bd2 (c : Dev nD) : Valuation τ sig (Elt F) :=
  Pipeline.withArrays spec0 c (Bd1 m c) fun w => (dat0 (Vb1 m) c).arrAt w cfg0.N
theorem Bd2_arr (c : Dev nD) (w : Fin cfg0.W) :
    Bd2 m c (Proc.devRef .tc (Pipeline.arrRef spec0 w)) = (dat0 (Vb1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Vb2 : (c : Dev nD) → (b : Ref sig .tc) → Buf (Elt F) ((c : Thread nD τ).loc b) := fun c b => Bd2 m c b
theorem exitArr0 (c : Dev nD) (w : Fin cfg0.W) : (dat0 (Vb1 m) c).arrAt w cfg0.N = Vb2 m c (Pipeline.arrRef spec0 w) :=
  (Bd2_arr m c w).symm
theorem exitRest0 (c : Dev nD) : ∀ b, b ∉ Finset.univ.image (Pipeline.arrRef spec0) → Vb2 m c b = Vb1 m c b :=
  fun b hb => Bd2_of_ne m c b fun w e => hb (Finset.mem_image.mpr ⟨w, Finset.mem_univ _, e⟩)

/-- When layer 2 is entered (after the host stretch before it). -/
abbrev Bd3 : Dev nD → Valuation τ sig (Elt F) := fun c => StableHlo.after hostOps1 (Bd2 m c)
abbrev Vb3 : (c : Dev nD) → (b : Ref sig .tc) → Buf (Elt F) ((c : Thread nD τ).loc b) := fun c b => Bd3 m c b
/-- When layer 2 is left: its arrays at what the pipeline's write-backs leave (an input as entered, an output the blocks
    written over it), every other buffer as entered. -/
def Bd4 (c : Dev nD) : Valuation τ sig (Elt F) :=
  Pipeline.withArrays spec1 c (Bd3 m c) fun w => (dat1 (Vb3 m) c).arrAt w cfg1.N
theorem Bd4_arr (c : Dev nD) (w : Fin cfg1.W) :
    Bd4 m c (Proc.devRef .tc (Pipeline.arrRef spec1 w)) = (dat1 (Vb3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Vb4 : (c : Dev nD) → (b : Ref sig .tc) → Buf (Elt F) ((c : Thread nD τ).loc b) := fun c b => Bd4 m c b
theorem exitArr1 (c : Dev nD) (w : Fin cfg1.W) : (dat1 (Vb3 m) c).arrAt w cfg1.N = Vb4 m c (Pipeline.arrRef spec1 w) :=
  (Bd4_arr m c w).symm
theorem exitRest1 (c : Dev nD) : ∀ b, b ∉ Finset.univ.image (Pipeline.arrRef spec1) → Vb4 m c b = Vb3 m c b :=
  fun b hb => Bd4_of_ne m c b fun w e => hb (Finset.mem_image.mpr ⟨w, Finset.mem_univ _, e⟩)

/-- When layer 3 is entered (after the host stretch before it). -/
abbrev Bd5 : Dev nD → Valuation τ sig (Elt F) := fun c => StableHlo.after hostOps2 (Bd4 m c)
abbrev Vb5 : (c : Dev nD) → (b : Ref sig .tc) → Buf (Elt F) ((c : Thread nD τ).loc b) := fun c b => Bd5 m c b
/-- When layer 3 is left: its arrays at what the pipeline's write-backs leave (an input as entered, an output the blocks
    written over it), every other buffer as entered. -/
def Bd6 (c : Dev nD) : Valuation τ sig (Elt F) :=
  Pipeline.withArrays spec2 c (Bd5 m c) fun w => (dat2 (Vb5 m) c).arrAt w cfg2.N
theorem Bd6_arr (c : Dev nD) (w : Fin cfg2.W) :
    Bd6 m c (Proc.devRef .tc (Pipeline.arrRef spec2 w)) = (dat2 (Vb5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Vb6 : (c : Dev nD) → (b : Ref sig .tc) → Buf (Elt F) ((c : Thread nD τ).loc b) := fun c b => Bd6 m c b
theorem exitArr2 (c : Dev nD) (w : Fin cfg2.W) : (dat2 (Vb5 m) c).arrAt w cfg2.N = Vb6 m c (Pipeline.arrRef spec2 w) :=
  (Bd6_arr m c w).symm
theorem exitRest2 (c : Dev nD) : ∀ b, b ∉ Finset.univ.image (Pipeline.arrRef spec2) → Vb6 m c b = Vb5 m c b :=
  fun b hb => Bd6_of_ne m c b fun w e => hb (Finset.mem_image.mpr ⟨w, Finset.mem_univ _, e⟩)

/-- At the end (after the closing host stretch). -/
abbrev Bd7 : Dev nD → Valuation τ sig (Elt F) := fun c => StableHlo.after hostOps3 (Bd6 m c)

/-! ## The proof data family and the thread state -/

/-- Every pipeline's proof data, each at its layer's entry contents. -/
def pdats : (p : Fin 3) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb3 m) c
  | ⟨2, _⟩ => fun c => dat2 (Vb5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tlast (c : Dev nD) : sProp 𝕄 := iprop(StableHlo.held (c : Thread nD τ) (Pipeline.ucRefs τ sig) (Bd7 m c) ∗ ∃ r, prngReg c r)

/-! ## The launches as segments -/

set_option backward.isDefEq.respectTransparency.types false in
/-- Layer 1's launch as a segment: entered with every unscoped buffer at `Bd1`, left with them at `Bd2`. Its arrays are split
    out of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's launch as a segment: entered with every unscoped buffer at `Bd3`, left with them at `Bd4`. Its arrays are split
    out of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (Vb3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb3 m c) (Vb4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's launch as a segment: entered with every unscoped buffer at `Bd5`, left with them at `Bd6`. Its arrays are split
    out of the unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (Vb5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vb5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vb5 m c) (Vb6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)) ]

theorem main_run (c : Dev nD) : main (F := F) c = Pipeline.Seg.run (segs m) := (main_chain c).trans (by chain_rfl)

set_option backward.isDefEq.respectTransparency.types false in
/-- Every weakly fair execution from memory `m` with zero counters terminates, nothing faulting, and every final state has
    every unscoped buffer of every core at the last contents `Bd7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Bd7 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m c b)
    (hfin := fun c s' => by
      iintro ⟨⟨Hh, -⟩, HSI⟩
      unfold StableHlo.held
      imodintro
      iapply (pointsTo_read_all (Pipeline.ucRefs τ sig) (fun b => (((c : Thread nD τ)).1, b)) (Bd7 m c) s')
      isplitl [Hh] <;> iassumption)
    (hQ := fun s h c => h c)

/-! ## What reaches the end unchanged -/

/-- A buffer that no host stretch writes and that is no array of any launch keeps its launch contents to the end. -/
theorem kept (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    Bd7 m c (Proc.devRef .tc b) = m ((c : Thread nD τ).loc b) :=
  calc Bd7 m c (Proc.devRef .tc b)
    _ = Bd6 m c (Proc.devRef .tc b) := StableHlo.after_of_writes_sub hostOps3 _ hostOps3_writes h3
    _ = Bd5 m c (Proc.devRef .tc b) := Bd6_of_ne m c b n2
    _ = Bd4 m c (Proc.devRef .tc b) := StableHlo.after_of_writes_sub hostOps2 _ hostOps2_writes h2
    _ = Bd3 m c (Proc.devRef .tc b) := Bd4_of_ne m c b n1
    _ = Bd2 m c (Proc.devRef .tc b) := StableHlo.after_of_writes_sub hostOps1 _ hostOps1_writes h1
    _ = Bd1 m c (Proc.devRef .tc b) := Bd2_of_ne m c b n0
    _ = Bd0 m c (Proc.devRef .tc b) := StableHlo.after_of_writes_sub hostOps0 _ hostOps0_writes h0
    _ = m ((c : Thread nD τ).loc b) := rfl

theorem kept_arg0 (c : Dev nD) : Bd7 m c (Proc.devRef .tc main_arg0) = m ((c : Thread nD τ).loc main_arg0) :=
  kept m c main_arg0 (by decide) (by decide) (by decide) (by decide) (by decide) (by decide) (by decide)
theorem kept_arg1 (c : Dev nD) : Bd7 m c (Proc.devRef .tc main_arg1) = m ((c : Thread nD τ).loc main_arg1) :=
  kept m c main_arg1 (by decide) (by decide) (by decide) (by decide) (by decide) (by decide) (by decide)
theorem kept_arg2 (c : Dev nD) : Bd7 m c (Proc.devRef .tc main_arg2) = m ((c : Thread nD τ).loc main_arg2) :=
  kept m c main_arg2 (by decide) (by decide) (by decide) (by decide) (by decide) (by decide) (by decide)
theorem kept_arg3 (c : Dev nD) : Bd7 m c (Proc.devRef .tc main_arg3) = m ((c : Thread nD τ).loc main_arg3) :=
  kept m c main_arg3 (by decide) (by decide) (by decide) (by decide) (by decide) (by decide) (by decide)
theorem kept_arg4 (c : Dev nD) : Bd7 m c (Proc.devRef .tc main_arg4) = m ((c : Thread nD τ).loc main_arg4) :=
  kept m c main_arg4 (by decide) (by decide) (by decide) (by decide) (by decide) (by decide) (by decide)
theorem kept_arg5 (c : Dev nD) : Bd7 m c (Proc.devRef .tc main_arg5) = m ((c : Thread nD τ).loc main_arg5) :=
  kept m c main_arg5 (by decide) (by decide) (by decide) (by decide) (by decide) (by decide) (by decide)
theorem kept_arg6 (c : Dev nD) : Bd7 m c (Proc.devRef .tc main_arg6) = m ((c : Thread nD τ).loc main_arg6) :=
  kept m c main_arg6 (by decide) (by decide) (by decide) (by decide) (by decide) (by decide) (by decide)
theorem kept_arg7 (c : Dev nD) : Bd7 m c (Proc.devRef .tc main_arg7) = m ((c : Thread nD τ).loc main_arg7) :=
  kept m c main_arg7 (by decide) (by decide) (by decide) (by decide) (by decide) (by decide) (by decide)
theorem kept_arg8 (c : Dev nD) : Bd7 m c (Proc.devRef .tc main_arg8) = m ((c : Thread nD τ).loc main_arg8) :=
  kept m c main_arg8 (by decide) (by decide) (by decide) (by decide) (by decide) (by decide) (by decide)

/-- The frame: every execution terminates without a fault and the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c)⟩)
    (run_all m ρ)

end Cert.Kernel.Rg

end
-- ==== Proof.KIHalf.lean ====
/-
  One grid point of a layer kernel, and the data a launch of it is proved against.

  A layer kernel is launched over 30 blocks of 5000 rows. At block `t` its body is handed the block of the node
  embeddings `ego`, the block of the neighbourhood sums `side`, the fused 128×128 weight and the fused 1×128 bias, and it
  overwrites two output blocks: the next embeddings `ego'` and their row-normalised copy. It reads nothing else and
  keeps nothing between blocks. So after the body each input buffer still holds its block and each output buffer holds
  a fixed function (the body's stored value) of the four input blocks; this is stated once per layer, for arbitrary
  contents `V` of the arrays when the layer is entered.
-/
import proofs.«182127_j4269197492536_2_alg».proof.Proof.Gen.KernelIdeal.Launch
import proofs.«182127_j4269197492536_2_alg».proof.Proof.Gen.KernelIdeal.Skeleton
import proofs.«182127_j4269197492536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole rectangle of a row block, of the fused weight, of the fused bias. -/
abbrev rRow : Rect S5000x64 := Rect.unit (s := S5000x64) ![0, 0] S5000x64.size inb_S5000x64_S5000x64_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0

/-- One whole-block store covers the block. -/
theorem coverRow (p0 : Vec F S5000x64 .f32) (y : S5000x64.Idx) :
    ∃ pc ∈ ([⟨rRow, p0⟩] : List (View.Piece (Elt F) S5000x64 .f32)), y ∈ pc.1.set :=
  View.cover_of_tiled [⟨rRow, p0⟩] S5000x64.size (by rfl) y

variable (V : (c : Dev nD) → (b : Ref sig .tc) → Buf (Elt F) ((c : Thread nD τ).loc b))

/-! # Layer 1 (pipeline 0) at entry contents `V` -/

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has not
    moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block index has not
    moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block index has not
    moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (unfetched, the block index has not
    moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the two output buffers, from the four input blocks: the next embeddings and their
    row-normalised copy, each one whole-block store of the body's value. -/
def out0_4 (x0 x1 : Vec F S5000x64 .f32) (x2 : Vec F S128x128 .bf16) (x3 : Vec F S1x128 .f32) : Vec F S5000x64 .f32 :=
  View.canon [⟨rRow, k0_pay1 (View.ld x0 rRow) (View.ld x1 rRow) (View.ld x2 rWt) (View.ld x3 rBias)⟩]
def out0_5 (x0 x1 : Vec F S5000x64 .f32) (x2 : Vec F S128x128 .bf16) (x3 : Vec F S1x128 .f32) : Vec F S5000x64 .f32 :=
  View.canon [⟨rRow, k0_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out0_4`, `out0_5` of the inputs'. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 1's pipeline on core `c`: the arrays as the layer finds them; after the body at point `t` each
    input's buffer at its block and each output's at the body's value of the input blocks; nothing owed, full shares, and
    the invariant that lets the scoped rest and the generator register ride along untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

/-! # Layer 2 (pipeline 1) at entry contents `V` -/

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not
    moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block index has not
    moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block index has not
    moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block index has not
    moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the two output buffers, from the four input blocks: the next embeddings and their
    row-normalised copy, each one whole-block store of the body's value. -/
def out1_4 (x0 x1 : Vec F S5000x64 .f32) (x2 : Vec F S128x128 .bf16) (x3 : Vec F S1x128 .f32) : Vec F S5000x64 .f32 :=
  View.canon [⟨rRow, k1_pay1 (View.ld x0 rRow) (View.ld x1 rRow) (View.ld x2 rWt) (View.ld x3 rBias)⟩]
def out1_5 (x0 x1 : Vec F S5000x64 .f32) (x2 : Vec F S128x128 .bf16) (x3 : Vec F S1x128 .f32) : Vec F S5000x64 .f32 :=
  View.canon [⟨rRow, k1_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out1_4`, `out1_5` of the inputs'. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 2's pipeline on core `c`: the arrays as the layer finds them; after the body at point `t` each
    input's buffer at its block and each output's at the body's value of the input blocks; nothing owed, full shares, and
    the invariant that lets the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

/-! # Layer 3 (pipeline 2) at entry contents `V` -/

/-- Window `w`'s block at point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has not
    moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block index has not
    moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block index has not
    moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block index has not
    moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the two output buffers, from the four input blocks: the next embeddings and their
    row-normalised copy, each one whole-block store of the body's value. -/
def out2_4 (x0 x1 : Vec F S5000x64 .f32) (x2 : Vec F S128x128 .bf16) (x3 : Vec F S1x128 .f32) : Vec F S5000x64 .f32 :=
  View.canon [⟨rRow, k2_pay1 (View.ld x0 rRow) (View.ld x1 rRow) (View.ld x2 rWt) (View.ld x3 rBias)⟩]
def out2_5 (x0 x1 : Vec F S5000x64 .f32) (x2 : Vec F S128x128 .bf16) (x3 : Vec F S1x128 .f32) : Vec F S5000x64 .f32 :=
  View.canon [⟨rRow, k2_pay2 (View.ld x0 rRow) (View.ld x1 rRow) (View.ld x2 rWt) (View.ld x3 rBias)⟩]

set_option maxHeartbeats 4000000 in
/-- The body on whole staging buffers, the inputs' at contents `x0 … x3` and the outputs' at anything, runs to the end
    with the inputs' as they were and the outputs' at `out2_4`, `out2_5` of the inputs'. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S128x128 .bf16) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverRow _)
  iexists _; isplitr
  swap; · iexact H5
  ipureintro
  exact View.read_writes_eq_canon _ _ _ (coverRow _)

/-- The proof data of layer 3's pipeline on core `c`: the arrays as the layer finds them; after the body at point `t` each
    input's buffer at its block and each output's at the body's value of the input blocks; nothing owed, full shares, and
    the invariant that lets the scoped rest and the generator register ride along untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KIRun.lean ====
/-
  The whole program as a chain of segments: a stretch of host operations, a layer's launch, a stretch, a launch, a stretch, a
  launch, and the closing stretch. The contents of every array between two segments are named by a fold from the launch memory:
  a host stretch applies its operations in order; a launch leaves its two output arrays at what its thirty write-backs
  leave and everything else as it was. The run theorem says every execution ends, without a fault, with every array at
  the last of these contents; the frame and the results are read off it.
-/
import proofs.«182127_j4269197492536_2_alg».proof.Proof.KIHalf
import proofs.«182127_j4269197492536_2_alg».proof.Proof.Gen.KernelIdeal.Regions

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between segments -/

/-- At launch. -/
abbrev Bd0 : Dev nD → Valuation τ sig (Elt F) := fun c b => m (c, b)

/-- When layer 1 is entered (after the host stretch before it). -/
abbrev Bd1 : Dev nD → Valuation τ sig (Elt F) := fun c => StableHlo.after hostOps0 (Bd0 m c)
abbrev Vb1 : (c : Dev nD) → (b : Ref sig .tc) → Buf (Elt F) ((c : Thread nD τ).loc b) := fun c b => Bd1 m c b
/-- When layer 1 is left: its arrays at what the pipeline's write-backs leave (an input as entered, an output the blocks
    written over it), every other buffer as entered. -/
def Bd2 (c : Dev nD) : Valuation τ sig (Elt F) :=
  Pipeline.withArrays spec0 c (Bd1 m c) fun w => (dat0 (Vb1 m) c).arrAt w cfg0.N
theorem Bd2_arr (c : Dev nD) (w : Fin cfg0.W) :
    Bd2 m c (Proc.devRef .tc (Pipeline.arrRef spec0 w)) = (dat0 (Vb1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Vb2 : (c : Dev nD) → (b : Ref sig .tc) → Buf (Elt F) ((c : Thread nD τ).loc b) := fun c b => Bd2 m c b
theorem exitArr0 (c : Dev nD) (w : Fin cfg0.W) : (dat0 (Vb1 m) c).arrAt w cfg0.N = Vb2 m c (Pipeline.arrRef spec0 w) :=
  (Bd2_arr m c w).symm
theorem exitRest0 (c : Dev nD) : ∀ b, b ∉ Finset.univ.image (Pipeline.arrRef spec0) → Vb2 m c b = Vb1 m c b :=
  fun b hb => Bd2_of_ne m c b fun w e => hb (Finset.mem_image.mpr ⟨w, Finset.mem_univ _, e⟩)

/-- When layer 2 is entered (after the host stretch before it). -/
abbrev Bd3 : Dev nD → Valuation τ sig (Elt F) := fun c => StableHlo.after hostOps1 (Bd2 m c)
abbrev Vb3 : (c : Dev nD) → (b : Ref sig .tc) → Buf (Elt F) ((c : Thread nD τ).loc b) := fun c b => Bd3 m c b
/-- When layer 2 is left: its arrays at what the pipeline's write-backs leave (an input as entered, an output the blocks
    written over it), every other buffer as entered. -/
def Bd4 (c : Dev nD) : Valuation τ sig (Elt F) :=
  Pipeline.withArrays spec1 c (Bd3 m c) fun w => (dat1 (Vb3 m) c).arrAt w cfg1.N
theorem Bd4_arr (c : Dev nD) (w : Fin cfg1.W) :
    Bd4 m c (Proc.devRef .tc (Pipeline.arrRef spec1 w)) = (dat1 (Vb3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Vb4 : (c : Dev nD) → (b : Ref sig .tc) → Buf (Elt F) ((c : Thread nD τ).loc b) := fun c b => Bd4 m c b
theorem exitArr1 (c : Dev nD) (w : Fin cfg1.W) : (dat1 (Vb3 m) c).arrAt w cfg1.N = Vb4 m c (Pipeline.arrRef spec1 w) :=
  (Bd4_arr m c w).symm
theorem exitRest1 (c : Dev nD) : ∀ b, b ∉ Finset.univ.image (Pipeline.arrRef spec1) → Vb4 m c b = Vb3 m c b :=
  fun b hb => Bd4_of_ne m c b fun w e => hb (Finset.mem_image.mpr ⟨w, Finset.mem_univ _, e⟩)

/-- When layer 3 is entered (after the host stretch before it). -/
abbrev Bd5 : Dev nD → Valuation τ sig (Elt F) := fun c => StableHlo.after hostOps2 (Bd4 m c)
abbrev Vb5 : (c : Dev nD) → (b : Ref sig .tc) → Buf (Elt F) ((c : Thread nD τ).loc b) := fun c b => Bd5 m c b
/-- When layer 3 is left: its arrays at what the pipeline's write-backs leave (an input as entered, an output the blocks
    written over it), every other buffer as entered. -/
def Bd6 (c : Dev nD) : Valuation τ sig (Elt F) :=
  Pipeline.withArrays spec2 c (Bd5 m c) fun w => (dat2 (Vb5 m) c).arrAt w cfg2.N
theorem Bd6_arr (c : Dev nD) (w : Fin cfg2.W) :
    Bd6 m c (Proc.devRef .tc (Pipeline.arrRef spec2 w)) = (dat2 (Vb5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Vb6 : (c : Dev nD) → (b : Ref sig .tc) → Buf (Elt F) ((c : Thread nD τ).loc b) := fun c b => Bd6 m c b
theorem exitArr2 (c : Dev nD) (w : Fin cfg2.W) : (dat2 (Vb5 m) c).arrAt w cfg2.N = Vb6 m c (Pipeline.arrRef spec2 w) :=
  (Bd6_arr m c w).symm
theorem exitRest2 (c : Dev nD) : ∀ b, b ∉ Finset.univ.image (Pipeline.arrRef spec2) → Vb6 m c b = Vb5 m c b :=
  fun b hb => Bd6_of_ne m c b fun w e => hb (Finset.mem_image.mpr ⟨w, Finset.mem_univ _, e⟩)

/-- At the end (after the closing host stretch). -/
abbrev Bd7 : Dev nD → Valuation τ sig (Elt F) := fun c => StableHlo.after hostOps3 (Bd6 m c)

/-! ## The proof data family and the thread state -/

/-- Every pipeline's proof data, each at its layer's entry contents. -/
def pdats : (p : Fin 3) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb3 m) c
  | ⟨2, _⟩ => fun c => dat2 (Vb5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tlast (c : Dev nD) : sProp 𝕄 := iprop(StableHlo.held (c : Thread nD τ) (Pipeline.ucRefs τ sig) (Bd7 m c) ∗ ∃ r, prngReg c r)

/-! ## The launches as segments -/

set_option backward.isDefEq.respectTransparency.types false in
/-- Layer 1's launch as a segment: entered with every unscoped buffer at `Bd1`, left with them at `Bd2`. Its arrays are split
    out of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's launch as a segment: entered with every unscoped buffer at `Bd3`, left with them at `Bd4`. Its arrays are split
    out of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (Vb3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb3 m c) (Vb4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's launch as a segment: entered with every unscoped buffer at `Bd5`, left with them at `Bd6`. Its arrays are split
    out of the unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (Vb5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vb5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vb5 m c) (Vb6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)) ]

theorem main_run (c : Dev nD) : main (F := F) c = Pipeline.Seg.run (segs m) := (main_chain c).trans (by chain_rfl)

set_option backward.isDefEq.respectTransparency.types false in
/-- Every weakly fair execution from memory `m` with zero counters terminates, nothing faulting, and every final state has
    every unscoped buffer of every core at the last contents `Bd7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Bd7 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m c b)
    (hfin := fun c s' => by
      iintro ⟨⟨Hh, -⟩, HSI⟩
      unfold StableHlo.held
      imodintro
      iapply (pointsTo_read_all (Pipeline.ucRefs τ sig) (fun b => (((c : Thread nD τ)).1, b)) (Bd7 m c) s')
      isplitl [Hh] <;> iassumption)
    (hQ := fun s h c => h c)

/-! ## What reaches the end unchanged -/

/-- A buffer that no host stretch writes and that is no array of any launch keeps its launch contents to the end. -/
theorem kept (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    Bd7 m c (Proc.devRef .tc b) = m ((c : Thread nD τ).loc b) :=
  calc Bd7 m c (Proc.devRef .tc b)
    _ = Bd6 m c (Proc.devRef .tc b) := StableHlo.after_of_writes_sub hostOps3 _ hostOps3_writes h3
    _ = Bd5 m c (Proc.devRef .tc b) := Bd6_of_ne m c b n2
    _ = Bd4 m c (Proc.devRef .tc b) := StableHlo.after_of_writes_sub hostOps2 _ hostOps2_writes h2
    _ = Bd3 m c (Proc.devRef .tc b) := Bd4_of_ne m c b n1
    _ = Bd2 m c (Proc.devRef .tc b) := StableHlo.after_of_writes_sub hostOps1 _ hostOps1_writes h1
    _ = Bd1 m c (Proc.devRef .tc b) := Bd2_of_ne m c b n0
    _ = Bd0 m c (Proc.devRef .tc b) := StableHlo.after_of_writes_sub hostOps0 _ hostOps0_writes h0
    _ = m ((c : Thread nD τ).loc b) := rfl

theorem kept_arg0 (c : Dev nD) : Bd7 m c (Proc.devRef .tc main_arg0) = m ((c : Thread nD τ).loc main_arg0) :=
  kept m c main_arg0 (by decide) (by decide) (by decide) (by decide) (by decide) (by decide) (by decide)
theorem kept_arg1 (c : Dev nD) : Bd7 m c (Proc.devRef .tc main_arg1) = m ((c : Thread nD τ).loc main_arg1) :=
  kept m c main_arg1 (by decide) (by decide) (by decide) (by decide) (by decide) (by decide) (by decide)
theorem kept_arg2 (c : Dev nD) : Bd7 m c (Proc.devRef .tc main_arg2) = m ((c : Thread nD τ).loc main_arg2) :=
  kept m c main_arg2 (by decide) (by decide) (by decide) (by decide) (by decide) (by decide) (by decide)
theorem kept_arg3 (c : Dev nD) : Bd7 m c (Proc.devRef .tc main_arg3) = m ((c : Thread nD τ).loc main_arg3) :=
  kept m c main_arg3 (by decide) (by decide) (by decide) (by decide) (by decide) (by decide) (by decide)
theorem kept_arg4 (c : Dev nD) : Bd7 m c (Proc.devRef .tc main_arg4) = m ((c : Thread nD τ).loc main_arg4) :=
  kept m c main_arg4 (by decide) (by decide) (by decide) (by decide) (by decide) (by decide) (by decide)
theorem kept_arg5 (c : Dev nD) : Bd7 m c (Proc.devRef .tc main_arg5) = m ((c : Thread nD τ).loc main_arg5) :=
  kept m c main_arg5 (by decide) (by decide) (by decide) (by decide) (by decide) (by decide) (by decide)
theorem kept_arg6 (c : Dev nD) : Bd7 m c (Proc.devRef .tc main_arg6) = m ((c : Thread nD τ).loc main_arg6) :=
  kept m c main_arg6 (by decide) (by decide) (by decide) (by decide) (by decide) (by decide) (by decide)
theorem kept_arg7 (c : Dev nD) : Bd7 m c (Proc.devRef .tc main_arg7) = m ((c : Thread nD τ).loc main_arg7) :=
  kept m c main_arg7 (by decide) (by decide) (by decide) (by decide) (by decide) (by decide) (by decide)
theorem kept_arg8 (c : Dev nD) : Bd7 m c (Proc.devRef .tc main_arg8) = m ((c : Thread nD τ).loc main_arg8) :=
  kept m c main_arg8 (by decide) (by decide) (by decide) (by decide) (by decide) (by decide) (by decide)

/-- The frame: every execution terminates without a fault and the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c)⟩)
    (run_all m ρ)

end Cert.KernelIdeal.Rg

end
-- ==== Proof.KIBlocks.lean ====
/-
  From the thirty blocks a layer's launch writes back to the layer's two output arrays as whole-array functions.

  Block `t` of an input or output window of 5000×64 rows sits at rows 5000·t … 5000·t + 4999 of its array; the fused
  weight and bias windows are their whole arrays at every point. So if the body's stored value at block `t`, entry
  (p, q), equals `G` at row 5000·t + p, column q, for a function `G` of the array index, then the thirty write-backs
  together leave the array at `G`: every row lies in exactly the block ⌊row / 5000⌋.
-/
import proofs.«182127_j4269197492536_2_alg».proof.Proof.KIHalf
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Rg

variable {F : FTy → Type} [FloatOps F]

theorem hz : (![0, 0] : Fin 2 → Nat) = fun _ => 0 := funext fun a => by fin_cases a <;> rfl

/-- Row `5000·t + p` of a 150000-row array, for a block number `t < 30` and a row `p < 5000` inside the block. -/
def rowOf (t : Fin 30) (p : Fin 5000) : Fin 150000 := ⟨5000 * t.val + p.val, by have := t.isLt; have := p.isLt; omega⟩

variable (V : (c : Dev nD) → (b : Ref sig .tc) → Buf (Elt F) ((c : Thread nD τ).loc b))

/-! # Layer 1 -/

/-- The printed index maps over the grid: the four row windows are at block (t, 0), the weight and bias windows at (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem tlt0 (t : Fin cfg0.N) : t.val < 30 := lt_of_lt_of_eq t.isLt N_0
/-- A grid point as a block number. -/
def blkNo0 (t : Fin cfg0.N) : Fin 30 := ⟨t.val, tlt0 t⟩

/-- The two row inputs' blocks at an entry are the arrays at the block's row; the weight and bias blocks are the arrays. -/
theorem rowBlk0_0 (c : Dev nD) (t : Fin cfg0.N) (p : Fin 5000) (k : Fin 64) :
    iblk0 V c 0 t (ix2 p k) = V c (Pipeline.arrRef spec0 0) (ix2 (rowOf (blkNo0 t) p) k) := by
  obtain ⟨e0, e1, -⟩ := idx0 t
  show V c (Pipeline.arrRef spec0 0) (((cfg0.win 0).blk t).view.emb (ix2 p k)) = _
  refine congrArg _ ?_
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega
theorem rowBlk0_1 (c : Dev nD) (t : Fin cfg0.N) (p : Fin 5000) (k : Fin 64) :
    iblk0 V c 1 t (ix2 p k) = V c (Pipeline.arrRef spec0 1) (ix2 (rowOf (blkNo0 t) p) k) := by
  obtain ⟨-, -, e0, e1, -⟩ := idx0 t
  show V c (Pipeline.arrRef spec0 1) (((cfg0.win 1).blk t).view.emb (ix2 p k)) = _
  refine congrArg _ ?_
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega
theorem wtBlk0 (c : Dev nD) (t : Fin cfg0.N) : iblk0 V c 2 t = V c (Pipeline.arrRef spec0 2) := by
  obtain ⟨-, -, -, -, e0, e1, -⟩ := idx0 t
  funext j
  show V c (Pipeline.arrRef spec0 2) (((cfg0.win 2).blk t).view.emb j) = _
  refine congrArg _ ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem biasBlk0 (c : Dev nD) (t : Fin cfg0.N) : iblk0 V c 3 t = V c (Pipeline.arrRef spec0 3) := by
  obtain ⟨-, -, -, -, -, -, e0, e1, -⟩ := idx0 t
  funext j
  show V c (Pipeline.arrRef spec0 3) (((cfg0.win 3).blk t).view.emb j) = _
  refine congrArg _ ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- An array index is in point `t`'s block of output window 4 iff each coordinate is in the block's range. -/
theorem mem_blk0_4 (t : Fin cfg0.N) (i : S150000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v31_0).slice (win0_4.rect t)).set ↔ _
  rw [View.set_slice_whole, Rect.mem_set_unit]
  exact Iff.rfl

/-- Every row is in the block ⌊row / 5000⌋, which is written back. -/
theorem cover0_4 (i : S150000x64.Idx) : ∃ t : Fin cfg0.N, (cfg0.win 4).flush t = true ∧ i ∈ ((cfg0.win 4).blk t).view.set := by
  have hi0 : (i 0).val < 150000 := (i 0).isLt
  have hi1 : (i 1).val < 64 := (i 1).isLt
  have hN : cfg0.N = 30 := N_0
  let t : Fin cfg0.N := ⟨(i 0).val / 5000, by rw [hN]; omega⟩
  obtain ⟨-, -, -, -, -, -, -, -, e40, e41, e50, e51⟩ := idx0 t
  refine ⟨t, flush0_4 t, ?_⟩
  rw [mem_blk0_4]
  intro a
  have ht : t.val = (i 0).val / 5000 := rfl
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- If the body's stored value at block `t`, entry (p, q), is `G` at row 5000·t + p, column q, the launch leaves output
    array 0 at `G`. -/
theorem final0_4 (c : Dev nD) (G : S150000x64.Idx → F .f32)
    (hG : ∀ (t : Fin cfg0.N) (p : Fin 5000) (q : Fin 64),
      out0_4 (iblk0 V c 0 t) (iblk0 V c 1 t) (iblk0 V c 2 t) (iblk0 V c 3 t) (ix2 p q) = G (ix2 (rowOf (blkNo0 t) p) q)) :
    (dat0 V c).arrAt 4 cfg0.N = G := by
  refine (dat0 V c).arrAt_eq_of_cover 4 G (fun t _ => ?_) (cover0_4)
  show (cfg0.win 4).cut (grid0.coords t) ((dat0 V c).after 4 t) = _
  rw [after0_4]
  funext j
  obtain ⟨p, q, rfl⟩ : ∃ (p : Fin 5000) (q : Fin 64), j = ix2 p q := ⟨j 0, j 1, eq_ix2 j⟩
  refine (hG t p q).trans ?_
  show G _ = G (((cfg0.win 4).blk t).view.emb (ix2 p q))
  refine congrArg G ?_
  obtain ⟨-, -, -, -, -, -, -, -, e40, e41, e50, e51⟩ := idx0 t
  funext a; apply Fin.ext
  match a with
  | ⟨0, _⟩ => show 5000 * t.val + p.val = win0_4.index t (0 : Fin 2) * 5000 + 1 * p.val; omega
  | ⟨1, _⟩ => show q.val = win0_4.index t (1 : Fin 2) * 64 + 1 * q.val; omega

/-- An array index is in point `t`'s block of output window 5 iff each coordinate is in the block's range. -/
theorem mem_blk0_5 (t : Fin cfg0.N) (i : S150000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v31_1).slice (win0_5.rect t)).set ↔ _
  rw [View.set_slice_whole, Rect.mem_set_unit]
  exact Iff.rfl

/-- Every row is in the block ⌊row / 5000⌋, which is written back. -/
theorem cover0_5 (i : S150000x64.Idx) : ∃ t : Fin cfg0.N, (cfg0.win 5).flush t = true ∧ i ∈ ((cfg0.win 5).blk t).view.set := by
  have hi0 : (i 0).val < 150000 := (i 0).isLt
  have hi1 : (i 1).val < 64 := (i 1).isLt
  have hN : cfg0.N = 30 := N_0
  let t : Fin cfg0.N := ⟨(i 0).val / 5000, by rw [hN]; omega⟩
  obtain ⟨-, -, -, -, -, -, -, -, e40, e41, e50, e51⟩ := idx0 t
  refine ⟨t, flush0_5 t, ?_⟩
  rw [mem_blk0_5]
  intro a
  have ht : t.val = (i 0).val / 5000 := rfl
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- If the body's stored value at block `t`, entry (p, q), is `G` at row 5000·t + p, column q, the launch leaves output
    array 1 at `G`. -/
theorem final0_5 (c : Dev nD) (G : S150000x64.Idx → F .f32)
    (hG : ∀ (t : Fin cfg0.N) (p : Fin 5000) (q : Fin 64),
      out0_5 (iblk0 V c 0 t) (iblk0 V c 1 t) (iblk0 V c 2 t) (iblk0 V c 3 t) (ix2 p q) = G (ix2 (rowOf (blkNo0 t) p) q)) :
    (dat0 V c).arrAt 5 cfg0.N = G := by
  refine (dat0 V c).arrAt_eq_of_cover 5 G (fun t _ => ?_) (cover0_5)
  show (cfg0.win 5).cut (grid0.coords t) ((dat0 V c).after 5 t) = _
  rw [after0_5]
  funext j
  obtain ⟨p, q, rfl⟩ : ∃ (p : Fin 5000) (q : Fin 64), j = ix2 p q := ⟨j 0, j 1, eq_ix2 j⟩
  refine (hG t p q).trans ?_
  show G _ = G (((cfg0.win 5).blk t).view.emb (ix2 p q))
  refine congrArg G ?_
  obtain ⟨-, -, -, -, -, -, -, -, e40, e41, e50, e51⟩ := idx0 t
  funext a; apply Fin.ext
  match a with
  | ⟨0, _⟩ => show 5000 * t.val + p.val = win0_5.index t (0 : Fin 2) * 5000 + 1 * p.val; omega
  | ⟨1, _⟩ => show q.val = win0_5.index t (1 : Fin 2) * 64 + 1 * q.val; omega

/-! # Layer 2 -/

/-- The printed index maps over the grid: the four row windows are at block (t, 0), the weight and bias windows at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem tlt1 (t : Fin cfg1.N) : t.val < 30 := lt_of_lt_of_eq t.isLt N_1
/-- A grid point as a block number. -/
def blkNo1 (t : Fin cfg1.N) : Fin 30 := ⟨t.val, tlt1 t⟩

/-- The two row inputs' blocks at an entry are the arrays at the block's row; the weight and bias blocks are the arrays. -/
theorem rowBlk1_0 (c : Dev nD) (t : Fin cfg1.N) (p : Fin 5000) (k : Fin 64) :
    iblk1 V c 0 t (ix2 p k) = V c (Pipeline.arrRef spec1 0) (ix2 (rowOf (blkNo1 t) p) k) := by
  obtain ⟨e0, e1, -⟩ := idx1 t
  show V c (Pipeline.arrRef spec1 0) (((cfg1.win 0).blk t).view.emb (ix2 p k)) = _
  refine congrArg _ ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega
theorem rowBlk1_1 (c : Dev nD) (t : Fin cfg1.N) (p : Fin 5000) (k : Fin 64) :
    iblk1 V c 1 t (ix2 p k) = V c (Pipeline.arrRef spec1 1) (ix2 (rowOf (blkNo1 t) p) k) := by
  obtain ⟨-, -, e0, e1, -⟩ := idx1 t
  show V c (Pipeline.arrRef spec1 1) (((cfg1.win 1).blk t).view.emb (ix2 p k)) = _
  refine congrArg _ ?_
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega
theorem wtBlk1 (c : Dev nD) (t : Fin cfg1.N) : iblk1 V c 2 t = V c (Pipeline.arrRef spec1 2) := by
  obtain ⟨-, -, -, -, e0, e1, -⟩ := idx1 t
  funext j
  show V c (Pipeline.arrRef spec1 2) (((cfg1.win 2).blk t).view.emb j) = _
  refine congrArg _ ?_
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega
theorem biasBlk1 (c : Dev nD) (t : Fin cfg1.N) : iblk1 V c 3 t = V c (Pipeline.arrRef spec1 3) := by
  obtain ⟨-, -, -, -, -, -, e0, e1, -⟩ := idx1 t
  funext j
  show V c (Pipeline.arrRef spec1 3) (((cfg1.win 3).blk t).view.emb j) = _
  refine congrArg _ ?_
  funext a; apply Fin.ext
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- An array index is in point `t`'s block of output window 4 iff each coordinate is in the block's range. -/
theorem mem_blk1_4 (t : Fin cfg1.N) (i : S150000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v62_0).slice (win1_4.rect t)).set ↔ _
  rw [View.set_slice_whole, Rect.mem_set_unit]
  exact Iff.rfl

/-- Every row is in the block ⌊row / 5000⌋, which is written back. -/
theorem cover1_4 (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  have hN : cfg1.N = 30 := N_1
  let t : Fin cfg1.N := ⟨(i 0).val / 5000, by rw [hN]; omega⟩
  obtain ⟨-, -, -, -, -, -, -, -, e40, e41, e50, e51⟩ := idx1 t
  refine ⟨t, flush1_4 t, ?_⟩
  rw [mem_blk1_4]
  intro a
  have ht : t.val = (i 0).val / 5000 := rfl
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- If the body's stored value at block `t`, entry (p, q), is `G` at row 5000·t + p, column q, the launch leaves output
    array 0 at `G`. -/
theorem final1_4 (c : Dev nD) (G : S150000x64.Idx → F .f32)
    (hG : ∀ (t : Fin cfg1.N) (p : Fin 5000) (q : Fin 64),
      out1_4 (iblk1 V c 0 t) (iblk1 V c 1 t) (iblk1 V c 2 t) (iblk1 V c 3 t) (ix2 p q) = G (ix2 (rowOf (blkNo1 t) p) q)) :
    (dat1 V c).arrAt 4 cfg1.N = G := by
  refine (dat1 V c).arrAt_eq_of_cover 4 G (fun t _ => ?_) (cover1_4)
  show (cfg1.win 4).cut (grid1.coords t) ((dat1 V c).after 4 t) = _
  rw [after1_4]
  funext j
  obtain ⟨p, q, rfl⟩ : ∃ (p : Fin 5000) (q : Fin 64), j = ix2 p q := ⟨j 0, j 1, eq_ix2 j⟩
  refine (hG t p q).trans ?_
  show G _ = G (((cfg1.win 4).blk t).view.emb (ix2 p q))
  refine congrArg G ?_
  obtain ⟨-, -, -, -, -, -, -, -, e40, e41, e50, e51⟩ := idx1 t
  funext a; apply Fin.ext
  match a with
  | ⟨0, _⟩ => show 5000 * t.val + p.val = win1_4.index t (0 : Fin 2) * 5000 + 1 * p.val; omega
  | ⟨1, _⟩ => show q.val = win1_4.index t (1 : Fin 2) * 64 + 1 * q.val; omega

/-- An array index is in point `t`'s block of output window 5 iff each coordinate is in the block's range. -/
theorem mem_blk1_5 (t : Fin cfg1.N) (i : S150000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v62_1).slice (win1_5.rect t)).set ↔ _
  rw [View.set_slice_whole, Rect.mem_set_unit]
  exact Iff.rfl

/-- Every row is in the block ⌊row / 5000⌋, which is written back. -/
theorem cover1_5 (i : S150000x64.Idx) : ∃ t : Fin cfg1.N, (cfg1.win 5).flush t = true ∧ i ∈ ((cfg1.win 5).blk t).view.set := by
  have hi0 : (i 0).val < 150000 := (i 0).isLt
  have hi1 : (i 1).val < 64 := (i 1).isLt
  have hN : cfg1.N = 30 := N_1
  let t : Fin cfg1.N := ⟨(i 0).val / 5000, by rw [hN]; omega⟩
  obtain ⟨-, -, -, -, -, -, -, -, e40, e41, e50, e51⟩ := idx1 t
  refine ⟨t, flush1_5 t, ?_⟩
  rw [mem_blk1_5]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- If the body's stored value at block `t`, entry (p, q), is `G` at row 5000·t + p, column q, the launch leaves output
    array 1 at `G`. -/
theorem final1_5 (c : Dev nD) (G : S150000x64.Idx → F .f32)
    (hG : ∀ (t : Fin cfg1.N) (p : Fin 5000) (q : Fin 64),
      out1_5 (iblk1 V c 0 t) (iblk1 V c 1 t) (iblk1 V c 2 t) (iblk1 V c 3 t) (ix2 p q) = G (ix2 (rowOf (blkNo1 t) p) q)) :
    (dat1 V c).arrAt 5 cfg1.N = G := by
  refine (dat1 V c).arrAt_eq_of_cover 5 G (fun t _ => ?_) (cover1_5)
  show (cfg1.win 5).cut (grid1.coords t) ((dat1 V c).after 5 t) = _
  rw [after1_5]
  funext j
  obtain ⟨p, q, rfl⟩ : ∃ (p : Fin 5000) (q : Fin 64), j = ix2 p q := ⟨j 0, j 1, eq_ix2 j⟩
  refine (hG t p q).trans ?_
  show G _ = G (((cfg1.win 5).blk t).view.emb (ix2 p q))
  refine congrArg G ?_
  obtain ⟨-, -, -, -, -, -, -, -, e40, e41, e50, e51⟩ := idx1 t
  funext a; apply Fin.ext
  match a with
  | ⟨0, _⟩ => show 5000 * t.val + p.val = win1_5.index t (0 : Fin 2) * 5000 + 1 * p.val; omega
  | ⟨1, _⟩ => show q.val = win1_5.index t (1 : Fin 2) * 64 + 1 * q.val; omega

/-! # Layer 3 -/

/-- The printed index maps over the grid: the four row windows are at block (t, 0), the weight and bias windows at (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem tlt2 (t : Fin cfg2.N) : t.val < 30 := lt_of_lt_of_eq t.isLt N_2
/-- A grid point as a block number. -/
def blkNo2 (t : Fin cfg2.N) : Fin 30 := ⟨t.val, tlt2 t⟩

/-- The two row inputs' blocks at an entry are the arrays at the block's row; the weight and bias blocks are the arrays. -/
theorem rowBlk2_0 (c : Dev nD) (t : Fin cfg2.N) (p : Fin 5000) (k : Fin 64) :
    iblk2 V c 0 t (ix2 p k) = V c (Pipeline.arrRef spec2 0) (ix2 (rowOf (blkNo2 t) p) k) := by
  obtain ⟨e0, e1, -⟩ := idx2 t
  show V c (Pipeline.arrRef spec2 0) (((cfg2.win 0).blk t).view.emb (ix2 p k)) = _
  refine congrArg _ ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega
theorem rowBlk2_1 (c : Dev nD) (t : Fin cfg2.N) (p : Fin 5000) (k : Fin 64) :
    iblk2 V c 1 t (ix2 p k) = V c (Pipeline.arrRef spec2 1) (ix2 (rowOf (blkNo2 t) p) k) := by
  obtain ⟨-, -, e0, e1, -⟩ := idx2 t
  show V c (Pipeline.arrRef spec2 1) (((cfg2.win 1).blk t).view.emb (ix2 p k)) = _
  refine congrArg _ ?_
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega
theorem wtBlk2 (c : Dev nD) (t : Fin cfg2.N) : iblk2 V c 2 t = V c (Pipeline.arrRef spec2 2) := by
  obtain ⟨-, -, -, -, e0, e1, -⟩ := idx2 t
  funext j
  show V c (Pipeline.arrRef spec2 2) (((cfg2.win 2).blk t).view.emb j) = _
  refine congrArg _ ?_
  funext a; apply Fin.ext
  match a with
  | ⟨0, _⟩ => show win2_2.index t (0 : Fin 2) * 128 + 1 * (j 0).val = (j 0).val; omega
  | ⟨1, _⟩ => show win2_2.index t (1 : Fin 2) * 128 + 1 * (j 1).val = (j 1).val; omega
theorem biasBlk2 (c : Dev nD) (t : Fin cfg2.N) : iblk2 V c 3 t = V c (Pipeline.arrRef spec2 3) := by
  obtain ⟨-, -, -, -, -, -, e0, e1, -⟩ := idx2 t
  funext j
  show V c (Pipeline.arrRef spec2 3) (((cfg2.win 3).blk t).view.emb j) = _
  refine congrArg _ ?_
  funext a; apply Fin.ext
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- An array index is in point `t`'s block of output window 4 iff each coordinate is in the block's range. -/
theorem mem_blk2_4 (t : Fin cfg2.N) (i : S150000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v93_0).slice (win2_4.rect t)).set ↔ _
  rw [View.set_slice_whole, Rect.mem_set_unit]
  exact Iff.rfl

/-- Every row is in the block ⌊row / 5000⌋, which is written back. -/
theorem cover2_4 (i : S150000x64.Idx) : ∃ t : Fin cfg2.N, (cfg2.win 4).flush t = true ∧ i ∈ ((cfg2.win 4).blk t).view.set := by
  have hi0 : (i 0).val < 150000 := (i 0).isLt
  have hi1 : (i 1).val < 64 := (i 1).isLt
  have hN : cfg2.N = 30 := N_2
  let t : Fin cfg2.N := ⟨(i 0).val / 5000, by rw [hN]; omega⟩
  obtain ⟨-, -, -, -, -, -, -, -, e40, e41, e50, e51⟩ := idx2 t
  refine ⟨t, flush2_4 t, ?_⟩
  rw [mem_blk2_4]
  intro a
  have ht : t.val = (i 0).val / 5000 := rfl
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- If the body's stored value at block `t`, entry (p, q), is `G` at row 5000·t + p, column q, the launch leaves output
    array 0 at `G`. -/
theorem final2_4 (c : Dev nD) (G : S150000x64.Idx → F .f32)
    (hG : ∀ (t : Fin cfg2.N) (p : Fin 5000) (q : Fin 64),
      out2_4 (iblk2 V c 0 t) (iblk2 V c 1 t) (iblk2 V c 2 t) (iblk2 V c 3 t) (ix2 p q) = G (ix2 (rowOf (blkNo2 t) p) q)) :
    (dat2 V c).arrAt 4 cfg2.N = G := by
  refine (dat2 V c).arrAt_eq_of_cover 4 G (fun t _ => ?_) (cover2_4)
  show (cfg2.win 4).cut (grid2.coords t) ((dat2 V c).after 4 t) = _
  rw [after2_4]
  funext j
  obtain ⟨p, q, rfl⟩ : ∃ (p : Fin 5000) (q : Fin 64), j = ix2 p q := ⟨j 0, j 1, eq_ix2 j⟩
  refine (hG t p q).trans ?_
  show G _ = G (((cfg2.win 4).blk t).view.emb (ix2 p q))
  refine congrArg G ?_
  obtain ⟨-, -, -, -, -, -, -, -, e40, e41, e50, e51⟩ := idx2 t
  funext a; apply Fin.ext
  match a with
  | ⟨0, _⟩ => show 5000 * t.val + p.val = win2_4.index t (0 : Fin 2) * 5000 + 1 * p.val; omega
  | ⟨1, _⟩ => show q.val = win2_4.index t (1 : Fin 2) * 64 + 1 * q.val; omega

/-- An array index is in point `t`'s block of output window 5 iff each coordinate is in the block's range. -/
theorem mem_blk2_5 (t : Fin cfg2.N) (i : S150000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v93_1).slice (win2_5.rect t)).set ↔ _
  rw [View.set_slice_whole, Rect.mem_set_unit]
  exact Iff.rfl

/-- Every row is in the block ⌊row / 5000⌋, which is written back. -/
theorem cover2_5 (i : S150000x64.Idx) : ∃ t : Fin cfg2.N, (cfg2.win 5).flush t = true ∧ i ∈ ((cfg2.win 5).blk t).view.set := by
  have hi0 : (i 0).val < 150000 := (i 0).isLt
  have hi1 : (i 1).val < 64 := (i 1).isLt
  have hN : cfg2.N = 30 := N_2
  let t : Fin cfg2.N := ⟨(i 0).val / 5000, by rw [hN]; omega⟩
  obtain ⟨-, -, -, -, -, -, -, -, e40, e41, e50, e51⟩ := idx2 t
  refine ⟨t, flush2_5 t, ?_⟩
  rw [mem_blk2_5]
  intro a
  have ht : t.val = (i 0).val / 5000 := rfl
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- If the body's stored value at block `t`, entry (p, q), is `G` at row 5000·t + p, column q, the launch leaves output
    array 1 at `G`. -/
theorem final2_5 (c : Dev nD) (G : S150000x64.Idx → F .f32)
    (hG : ∀ (t : Fin cfg2.N) (p : Fin 5000) (q : Fin 64),
      out2_5 (iblk2 V c 0 t) (iblk2 V c 1 t) (iblk2 V c 2 t) (iblk2 V c 3 t) (ix2 p q) = G (ix2 (rowOf (blkNo2 t) p) q)) :
    (dat2 V c).arrAt 5 cfg2.N = G := by
  refine (dat2 V c).arrAt_eq_of_cover 5 G (fun t _ => ?_) (cover2_5)
  show (cfg2.win 5).cut (grid2.coords t) ((dat2 V c).after 5 t) = _
  rw [after2_5]
  funext j
  obtain ⟨p, q, rfl⟩ : ∃ (p : Fin 5000) (q : Fin 64), j = ix2 p q := ⟨j 0, j 1, eq_ix2 j⟩
  refine (hG t p q).trans ?_
  show G _ = G (((cfg2.win 5).blk t).view.emb (ix2 p q))
  refine congrArg G ?_
  obtain ⟨-, -, -, -, -, -, -, -, e40, e41, e50, e51⟩ := idx2 t
  funext a; apply Fin.ext
  match a with
  | ⟨0, _⟩ => show 5000 * t.val + p.val = win2_5.index t (0 : Fin 2) * 5000 + 1 * p.val; omega
  | ⟨1, _⟩ => show q.val = win2_5.index t (1 : Fin 2) * 64 + 1 * q.val; omega

end Cert.KernelIdeal.Val

end
-- ==== Proof.RefSpec.lean ====
/-
  The reference network as functions of arrays.

  One propagation layer takes the node embeddings `ego` and their neighbourhood sums `side = A · ego` (A the weighted
  adjacency, given as an edge list) and returns
      ego' = lrelu (side · Wgcᵀ + bgc) + lrelu ((ego ⊙ side) · Wbiᵀ + bbi),
  and the layer's output embedding is ego' with every row scaled to unit Euclidean length (the length floored at 1e-12).
  The network stacks three layers on the concatenated user and item tables, concatenates the initial table with the three
  normalised outputs along the feature axis and splits the rows back into users and items.
  Every function below is the composition of the reference program's own operations, in the program's order.
-/
import proofs.«182127_j4269197492536_2_alg».proof.ReferenceIdeal

noncomputable section

namespace Cert.ReferenceIdeal.Spec

open Idealize.ShloMosaic Cert.ReferenceIdeal

variable {F : FTy → Type} [FloatOps F] [Facts]
open Facts₀ Facts

/-- The contents of an array of shape `S` and element type `e`. -/
abbrev Arr (F : FTy → Type) (S : Shape) (e : EltTy) : Type := (⟨S, e⟩ : BufTy).Contents (Elt F)

/-- An edge's node number as a one-column index: a negative number counts from the end (it is shifted up by the number of nodes). -/
def nodeCol (a : Arr F S2400000 .i32) : Arr F S2400000x1 .i32 :=
  broadcastInDim S2400000x1 ![0] bcast_S2400000_S2400000x1_0
    (select (cmpi .slt a (broadcastInDim S2400000 ![] bcast_S_S2400000 (constantI S_ 32 0#32) : Arr F S2400000 .i32))
      (addi a (broadcastInDim S2400000 ![] bcast_S_S2400000 (constantI S_ 32 150000#32) : Arr F S2400000 .i32)) a : Arr F S2400000 .i32)

/-- The neighbourhood sums `A · x`: row `d` is the sum over the edges `e` into `d` of `val e · x[src e]`. -/
def spmm (src dst : Arr F S2400000 .i32) (val : Arr F S2400000 .f32) (x : Arr F S150000x64 .f32) : Arr F S150000x64 .f32 :=
  Host.scatterAdd scatter_S150000x64_S2400000x1_S2400000x64_1_0_0_1
    (broadcastInDim S150000x64 ![] bcast_S_S150000x64 (constant S_ .f32 0x00000000#32) : Arr F S150000x64 .f32)
    (broadcastInDim S2400000x1 ![0] bcast_S2400000_S2400000x1_0 dst : Arr F S2400000x1 .i32)
    (mulf (broadcastInDim S2400000x64 ![0, 1] bcast_S2400000x1_S2400000x64_0_1
            (broadcastInDim S2400000x1 ![0] bcast_S2400000_S2400000x1_0 val : Arr F S2400000x1 .f32) : Arr F S2400000x64 .f32)
      (Host.gather gather_S150000x64_S2400000x1_S2400000x64_1_0_n_n_0_1_164 x (nodeCol src)))

/-- `x` where `x ≥ 0`, one hundredth of `x` elsewhere. -/
def lrelu (x : Arr F S150000x64 .f32) : Arr F S150000x64 .f32 :=
  select (cmpf .oge x (broadcastInDim S150000x64 ![] bcast_S_S150000x64 (constant S_ .f32 0x00000000#32) : Arr F S150000x64 .f32)) x
    (mulf (broadcastInDim S150000x64 ![] bcast_S_S150000x64 (constant S_ .f32 0x3C23D70A#32) : Arr F S150000x64 .f32) x)

/-- Layer `k`'s square weight matrix out of a stack of three. -/
def mat0 (w : Arr F S3x64x64 .f32) : Arr F S64x64 .f32 := fun i => shapeCast S64x64 (extractStridedSlice S1x64x64 ![0, 0, 0] w slices_S3x64x64_S1x64x64_0_0_0) shapeCasts_S1x64x64_S64x64 i
def mat1 (w : Arr F S3x64x64 .f32) : Arr F S64x64 .f32 := fun i => shapeCast S64x64 (extractStridedSlice S1x64x64 ![1, 0, 0] w slices_S3x64x64_S1x64x64_1_0_0) shapeCasts_S1x64x64_S64x64 i
def mat2 (w : Arr F S3x64x64 .f32) : Arr F S64x64 .f32 := fun i => shapeCast S64x64 (extractStridedSlice S1x64x64 ![2, 0, 0] w slices_S3x64x64_S1x64x64_2_0_0) shapeCasts_S1x64x64_S64x64 i
/-- Layer `k`'s bias vector out of a stack of three. -/
def vec0 (b : Arr F S3x64 .f32) : Arr F S64 .f32 := fun i => shapeCast S64 (extractStridedSlice S1x64 ![0, 0] b slices_S3x64_S1x64_0_0) shapeCasts_S1x64_S64 i
def vec1 (b : Arr F S3x64 .f32) : Arr F S64 .f32 := fun i => shapeCast S64 (extractStridedSlice S1x64 ![1, 0] b slices_S3x64_S1x64_1_0) shapeCasts_S1x64_S64 i
def vec2 (b : Arr F S3x64 .f32) : Arr F S64 .f32 := fun i => shapeCast S64 (extractStridedSlice S1x64 ![2, 0] b slices_S3x64_S1x64_2_0) shapeCasts_S1x64_S64 i

/-- `x · wᵀ + b`, the bias added to every row. -/
def proj (x : Arr F S150000x64 .f32) (w : Arr F S64x64 .f32) (b : Arr F S64 .f32) : Arr F S150000x64 .f32 :=
  addf (Host.dotGeneral dot_S150000x64_S64x64_S150000x64_1_0_0_1_n_n none x (transpose S64x64 [1, 0] w transposes_S64x64_S64x64_1_0))
    (broadcastInDim S150000x64 ![0, 1] bcast_S1x64_S150000x64_0_1 (broadcastInDim S1x64 ![1] bcast_S64_S1x64_1 b : Arr F S1x64 .f32))

/-- One layer: the next node embeddings. -/
def egoNext (ego side : Arr F S150000x64 .f32) (wgc wbi : Arr F S64x64 .f32) (bgc bbi : Arr F S64 .f32) : Arr F S150000x64 .f32 :=
  addf (lrelu (proj side wgc bgc)) (lrelu (proj (mulf ego side) wbi bbi))

/-- Every row scaled to unit Euclidean length, the length floored at 1e-12. -/
def unitRows (e : Arr F S150000x64 .f32) : Arr F S150000x64 .f32 :=
  Host.divf e (broadcastInDim S150000x64 ![0, 1] bcast_S150000x1_S150000x64_0_1
    (maximumf (Host.sqrt (broadcastInDim S150000x1 ![0] bcast_S150000_S150000x1_0
        (Host.reduceAdd (mulf e e) (constant S_ .f32 0x00000000#32) reducesTo_S150000x64_S150000_d1 h_S_ : Arr F S150000 .f32) : Arr F S150000x1 .f32))
      (broadcastInDim S150000x1 ![] bcast_S_S150000x1 (constant S_ .f32 0x2B8CBCCC#32) : Arr F S150000x1 .f32)))

/-- The user table stacked on the item table. -/
def ego0 (u : Arr F S50000x64 .f32) (it : Arr F S100000x64 .f32) : Arr F S150000x64 .f32 :=
  concatenate S150000x64 0 [⟨S50000x64, u⟩, ⟨S100000x64, it⟩] concatenates_S50000x64_S100000x64_S150000x64_d0

/-- The initial table and the three layers' normalised outputs side by side. -/
def allEmb (e0 e1 e2 e3 : Arr F S150000x64 .f32) : Arr F S150000x256 .f32 :=
  concatenate S150000x256 1 [⟨S150000x64, e0⟩, ⟨S150000x64, unitRows e1⟩, ⟨S150000x64, unitRows e2⟩, ⟨S150000x64, unitRows e3⟩]
    concatenates_S150000x64_S150000x64_S150000x64_S150000x64_S150000x256_d1

section Net
variable (src dst : Arr F S2400000 .i32) (val : Arr F S2400000 .f32) (u : Arr F S50000x64 .f32) (it : Arr F S100000x64 .f32)
  (wgc : Arr F S3x64x64 .f32) (bgc : Arr F S3x64 .f32) (wbi : Arr F S3x64x64 .f32) (bbi : Arr F S3x64 .f32)

/-- The node embeddings after one, two and three layers. -/
def ego1 : Arr F S150000x64 .f32 := egoNext (ego0 u it) (spmm src dst val (ego0 u it)) (mat0 wgc) (mat0 wbi) (vec0 bgc) (vec0 bbi)
def ego2 : Arr F S150000x64 .f32 :=
  egoNext (ego1 src dst val u it wgc bgc wbi bbi) (spmm src dst val (ego1 src dst val u it wgc bgc wbi bbi)) (mat1 wgc) (mat1 wbi) (vec1 bgc) (vec1 bbi)
def ego3 : Arr F S150000x64 .f32 :=
  egoNext (ego2 src dst val u it wgc bgc wbi bbi) (spmm src dst val (ego2 src dst val u it wgc bgc wbi bbi)) (mat2 wgc) (mat2 wbi) (vec2 bgc) (vec2 bbi)

/-- All node embeddings, and their user rows and item rows: the network's two results. -/
def net : Arr F S150000x256 .f32 :=
  allEmb (ego0 u it) (ego1 src dst val u it wgc bgc wbi bbi) (ego2 src dst val u it wgc bgc wbi bbi) (ego3 src dst val u it wgc bgc wbi bbi)
def userOut : Arr F S50000x256 .f32 := extractStridedSlice S50000x256 ![0, 0] (net src dst val u it wgc bgc wbi bbi) slices_S150000x256_S50000x256_0_0
def itemOut : Arr F S100000x256 .f32 := extractStridedSlice S100000x256 ![50000, 0] (net src dst val u it wgc bgc wbi bbi) slices_S150000x256_S100000x256_50000_0
end Net

end Cert.ReferenceIdeal.Spec

end
-- ==== Proof.LibFold.lean ====
/-
  Reading a fold of host operations in one pass.

  The contents of a buffer after a straight line of host operations is a fold: each operation rewrites the buffer it writes
  and leaves every other buffer as it was. The tactic below unfolds such a fold — also through a concatenation of lines and
  through nested folds — down to the operations' functions applied to the contents the fold starts from, visiting each
  shared intermediate once.
-/
import Idealize.ShloMosaic.Lib.StableHlo.Run
import Idealize.ShloMosaic.Lib.Pipeline.Frame

namespace Cert.LibFold

open Idealize.ShloMosaic Idealize.ShloMosaic.StableHlo

/-- Rewrites every `after ops V b` in the goal, for literal lines `ops` over literal references, to the operations' functions of
    `V` at the buffers read: one simplifier pass per round, and between rounds one rewrite at a time for a reshape's result and frame and
    for whatever occurrence the pass left. -/
macro "after_all" : tactic =>
  `(tactic| (try simp only [StableHlo.after_append, after_cons, after_nil]
             repeat (first
               | rw [reshape_result]
               | (rw [reshape_result_ne]; rotate_left; decide)
               | simp (disch := decide) only [StableHlo.after_append, after_cons, after_nil,
                   nullary_result', unary_result', binary_result', ternary_result', quaternary_result', nary4_result', nary_result',
                   unaryIndexed_result', binaryIndexed_result',
                   nullary_result_ne', unary_result_ne', binary_result_ne', ternary_result_ne', quaternary_result_ne',
                   nary_result_ne', unaryIndexed_result_ne', binaryIndexed_result_ne']
               | rw [nullary_result] | rw [unary_result] | rw [binary_result] | rw [ternary_result] | rw [quaternary_result]
               | rw [binaryIndexed_result] | rw [nary4_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [binaryIndexed_result_ne]; rotate_left; decide)
               | (rw [nary_result_ne]; rotate_left; decide)
               | (rw [unaryIndexed_result_ne]; rotate_left; decide))))

end Cert.LibFold
-- ==== Proof.KIHost.lean ====
/-
  What the host stretches of the kernel's program compute, in the vocabulary of the reference network.

  Before each layer's launch the host builds, from the argument arrays and the previous layer's embeddings, the
  neighbourhood sums (the same gather, scale and scatter-add as the reference), the fused weight
  [[Wgcᵀ, 0], [0, Wbiᵀ]] and the fused bias [bgc | bbi]. After the third launch it concatenates the initial table and the
  three normalised outputs and splits the rows into users and items.
-/
import proofs.«182127_j4269197492536_2_alg».proof.Proof.KIRun
import proofs.«182127_j4269197492536_2_alg».proof.Proof.RefSpec
import proofs.«182127_j4269197492536_2_alg».proof.Proof.Gen.ReferenceIdeal
import proofs.«182127_j4269197492536_2_alg».proof.Proof.LibFold

set_option maxRecDepth 16384

noncomputable section

namespace Cert.KernelIdeal.Val

open Idealize.ShloMosaic Idealize.ShloMosaic.TcCoe
open Idealize.SL.Sem
open Idealize.ShloMosaic.Pipeline (Dat)
open Cert.KernelIdeal Cert.KernelIdeal.Gen Cert.KernelIdeal.Rg
open Cert.LibFold
open Cert.ReferenceIdeal (Spec.Arr Spec.ego0 Spec.spmm Spec.mat0 Spec.mat1 Spec.mat2 Spec.vec0 Spec.vec1 Spec.vec2 Spec.nodeCol)

variable {F : FTy → Type} [FloatOps F]

/-- The fused weight [[wgcᵀ, 0], [0, wbiᵀ]] and the fused bias [bgc | bbi] as the host builds them. -/
def fusedW (wgc wbi : FVec F S64x64 .f32) : FVec F S128x128 .bf16 :=
  truncf .bf16 (concatenate S128x128 0
    [⟨S64x128, concatenate S64x128 1 [⟨S64x64, transpose S64x64 [1, 0] wgc transposes_S64x64_S64x64_1_0⟩,
        ⟨S64x64, broadcastInDim S64x64 ![] bcast_S_S64x64 (constant S_ .f32 0x00000000#32)⟩] concatenates_S64x64_S64x64_S64x128_d1⟩,
     ⟨S64x128, concatenate S64x128 1 [⟨S64x64, broadcastInDim S64x64 ![] bcast_S_S64x64 (constant S_ .f32 0x00000000#32)⟩,
        ⟨S64x64, transpose S64x64 [1, 0] wbi transposes_S64x64_S64x64_1_0⟩] concatenates_S64x64_S64x64_S64x128_d1⟩]
    concatenates_S64x128_S64x128_S128x128_d0) bitsLt_bf16_f32
def fusedB (bgc bbi : FVec F S64 .f32) : FVec F S1x128 .f32 :=
  fun i => shapeCast S1x128 (concatenate S128 0 [⟨S64, bgc⟩, ⟨S64, bbi⟩] concatenates_S64_S64_S128_d0) shapeCasts_S128_S1x128 i

variable (m : (ℓ : Loc nD τ sig) → Buf (Elt F) ℓ) (c : Dev nD)

/-- The nine argument arrays of core `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-! ## The arguments are still as launched when a later stretch reads them -/

theorem keptTo2 (b : Ref sig .tc) (h0 : b ∉ hostOps0_W) (n0 : ∀ w, Pipeline.arrRef spec0 w ≠ b) :
    Bd2 m c (Proc.devRef .tc b) = m ((c : Thread nD τ).loc b) :=
  (Bd2_of_ne m c b n0).trans ((StableHlo.after_of_writes_sub hostOps0 _ hostOps0_writes h0).trans rfl)
theorem keptTo4 (b : Ref sig .tc) (h0 : b ∉ hostOps0_W) (h1 : b ∉ hostOps1_W) (n0 : ∀ w, Pipeline.arrRef spec0 w ≠ b) (n1 : ∀ w, Pipeline.arrRef spec1 w ≠ b) :
    Bd4 m c (Proc.devRef .tc b) = m ((c : Thread nD τ).loc b) :=
  (Bd4_of_ne m c b n1).trans ((StableHlo.after_of_writes_sub hostOps1 _ hostOps1_writes h1).trans (keptTo2 m c b h0 n0))
theorem arg0_at2 : Bd2 m c (Proc.devRef .tc main_arg0) = a0 m c := keptTo2 m c main_arg0 (by decide) (by decide)
theorem arg0_at4 : Bd4 m c (Proc.devRef .tc main_arg0) = a0 m c := keptTo4 m c main_arg0 (by decide) (by decide) (by decide) (by decide)
theorem arg1_at2 : Bd2 m c (Proc.devRef .tc main_arg1) = a1 m c := keptTo2 m c main_arg1 (by decide) (by decide)
theorem arg1_at4 : Bd4 m c (Proc.devRef .tc main_arg1) = a1 m c := keptTo4 m c main_arg1 (by decide) (by decide) (by decide) (by decide)
theorem arg2_at2 : Bd2 m c (Proc.devRef .tc main_arg2) = a2 m c := keptTo2 m c main_arg2 (by decide) (by decide)
theorem arg2_at4 : Bd4 m c (Proc.devRef .tc main_arg2) = a2 m c := keptTo4 m c main_arg2 (by decide) (by decide) (by decide) (by decide)
theorem arg5_at2 : Bd2 m c (Proc.devRef .tc main_arg5) = a5 m c := keptTo2 m c main_arg5 (by decide) (by decide)
theorem arg5_at4 : Bd4 m c (Proc.devRef .tc main_arg5) = a5 m c := keptTo4 m c main_arg5 (by decide) (by decide) (by decide) (by decide)
theorem arg6_at2 : Bd2 m c (Proc.devRef .tc main_arg6) = a6 m c := keptTo2 m c main_arg6 (by decide) (by decide)
theorem arg6_at4 : Bd4 m c (Proc.devRef .tc main_arg6) = a6 m c := keptTo4 m c main_arg6 (by decide) (by decide) (by decide) (by decide)
theorem arg7_at2 : Bd2 m c (Proc.devRef .tc main_arg7) = a7 m c := keptTo2 m c main_arg7 (by decide) (by decide)
theorem arg7_at4 : Bd4 m c (Proc.devRef .tc main_arg7) = a7 m c := keptTo4 m c main_arg7 (by decide) (by decide) (by decide) (by decide)
theorem arg8_at2 : Bd2 m c (Proc.devRef .tc main_arg8) = a8 m c := keptTo2 m c main_arg8 (by decide) (by decide)
theorem arg8_at4 : Bd4 m c (Proc.devRef .tc main_arg8) = a8 m c := keptTo4 m c main_arg8 (by decide) (by decide) (by decide) (by decide)

/-! ## Before the first launch -/

set_option maxHeartbeats 4000000 in
theorem ego_1 : Bd1 m c (Proc.devRef .tc main_v0) = Spec.ego0 (a3 m c) (a4 m c) := by
  after_all
  try simp only [Spec.ego0]
  try rfl
set_option maxHeartbeats 4000000 in
theorem side_1 : Bd1 m c (Proc.devRef .tc main_v13) = Spec.spmm (a0 m c) (a1 m c) (a2 m c) (Spec.ego0 (a3 m c) (a4 m c)) := by
  after_all
  try simp only [Spec.ego0, Spec.spmm, Spec.nodeCol]
  try rfl
set_option maxHeartbeats 4000000 in
theorem wt_1 : Bd1 m c (Proc.devRef .tc main_v28) = fusedW (Spec.mat0 (a5 m c)) (Spec.mat0 (a7 m c)) := by
  after_all
  try simp only [fusedW, Spec.mat0]
  try rfl
set_option maxHeartbeats 4000000 in
theorem bias_1 : Bd1 m c (Proc.devRef .tc main_v30) = fusedB (Spec.vec0 (a6 m c)) (Spec.vec0 (a8 m c)) := by
  after_all
  try simp only [fusedB, Spec.vec0]
  try rfl

/-! ## Before launch 2 -/

/-- The embeddings layer 2 starts from are what layer 1 left: the stretch between does not write them. -/
theorem ego_2 : Bd3 m c (Proc.devRef .tc main_v31_0) = Bd2 m c (Proc.devRef .tc main_v31_0) :=
  StableHlo.after_of_writes_sub hostOps1 _ hostOps1_writes (by decide)
set_option maxHeartbeats 4000000 in
theorem side_2 : Bd3 m c (Proc.devRef .tc main_v44) = Spec.spmm (a0 m c) (a1 m c) (a2 m c) (Bd2 m c (Proc.devRef .tc main_v31_0)) := by
  after_all
  try simp only [arg0_at2, arg1_at2, arg2_at2, Spec.spmm, Spec.nodeCol]
  try rfl
set_option maxHeartbeats 4000000 in
theorem wt_2 : Bd3 m c (Proc.devRef .tc main_v59) = fusedW (Spec.mat1 (a5 m c)) (Spec.mat1 (a7 m c)) := by
  after_all
  try simp only [arg5_at2, arg7_at2, fusedW, Spec.mat1]
  try rfl
set_option maxHeartbeats 4000000 in
theorem bias_2 : Bd3 m c (Proc.devRef .tc main_v61) = fusedB (Spec.vec1 (a6 m c)) (Spec.vec1 (a8 m c)) := by
  after_all
  try simp only [arg6_at2, arg8_at2, fusedB, Spec.vec1]
  try rfl

/-! ## Before launch 3 -/

/-- The embeddings layer 3 starts from are what layer 2 left: the stretch between does not write them. -/
theorem ego_3 : Bd5 m c (Proc.devRef .tc main_v62_0) = Bd4 m c (Proc.devRef .tc main_v62_0) :=
  StableHlo.after_of_writes_sub hostOps2 _ hostOps2_writes (by decide)
set_option maxHeartbeats 4000000 in
theorem side_3 : Bd5 m c (Proc.devRef .tc main_v75) = Spec.spmm (a0 m c) (a1 m c) (a2 m c) (Bd4 m c (Proc.devRef .tc main_v62_0)) := by
  after_all
  try simp only [arg0_at4, arg1_at4, arg2_at4, Spec.spmm, Spec.nodeCol]
  try rfl
set_option maxHeartbeats 4000000 in
theorem wt_3 : Bd5 m c (Proc.devRef .tc main_v90) = fusedW (Spec.mat2 (a5 m c)) (Spec.mat2 (a7 m c)) := by
  after_all
  try simp only [arg5_at4, arg7_at4, fusedW, Spec.mat2]
  try rfl
set_option maxHeartbeats 4000000 in
theorem bias_3 : Bd5 m c (Proc.devRef .tc main_v92) = fusedB (Spec.vec2 (a6 m c)) (Spec.vec2 (a8 m c)) := by
  after_all
  try simp only [arg6_at4, arg8_at4, fusedB, Spec.vec2]
  try rfl

/-! ## After the last launch -/

/-- The arrays the closing stretch reads, traced back to where they were written. -/
theorem tab_at6 : Bd6 m c (Proc.devRef .tc main_v0) = Bd1 m c (Proc.devRef .tc main_v0) :=
  (Bd6_of_ne m c main_v0 (by decide)).trans <| (StableHlo.after_of_writes_sub hostOps2 _ hostOps2_writes (by decide)).trans <|
    (Bd4_of_ne m c main_v0 (by decide)).trans <| (StableHlo.after_of_writes_sub hostOps1 _ hostOps1_writes (by decide)).trans <|
    (Bd2_arr m c 0).trans (((dat0 (Vb1 m) c).arrAt_in 0 rfl _).trans (A_eq0 (Vb1 m) c 0))
theorem emb1_at6 : Bd6 m c (Proc.devRef .tc main_v31_1) = Bd2 m c (Proc.devRef .tc main_v31_1) :=
  (Bd6_of_ne m c main_v31_1 (by decide)).trans <| (StableHlo.after_of_writes_sub hostOps2 _ hostOps2_writes (by decide)).trans <|
    (Bd4_of_ne m c main_v31_1 (by decide)).trans <| (StableHlo.after_of_writes_sub hostOps1 _ hostOps1_writes (by decide))
theorem emb2_at6 : Bd6 m c (Proc.devRef .tc main_v62_1) = Bd4 m c (Proc.devRef .tc main_v62_1) :=
  (Bd6_of_ne m c main_v62_1 (by decide)).trans <| (StableHlo.after_of_writes_sub hostOps2 _ hostOps2_writes (by decide))

set_option maxHeartbeats 4000000 in
theorem users_7 : Bd7 m c (Proc.devRef .tc main_v95)
    = extractStridedSlice S50000x256 ![0, 0] (concatenate S150000x256 1 [⟨S150000x64, Bd6 m c (Proc.devRef .tc main_v0)⟩, ⟨S150000x64, Bd6 m c (Proc.devRef .tc main_v31_1)⟩,
        ⟨S150000x64, Bd6 m c (Proc.devRef .tc main_v62_1)⟩, ⟨S150000x64, Bd6 m c (Proc.devRef .tc main_v93_1)⟩]
        concatenates_S150000x64_S150000x64_S150000x64_S150000x64_S150000x256_d1) slices_S150000x256_S50000x256_0_0 := by
  after_all
  rfl
set_option maxHeartbeats 4000000 in
theorem items_7 : Bd7 m c (Proc.devRef .tc main_v96)
    = extractStridedSlice S100000x256 ![50000, 0] (concatenate S150000x256 1 [⟨S150000x64, Bd6 m c (Proc.devRef .tc main_v0)⟩, ⟨S150000x64, Bd6 m c (Proc.devRef .tc main_v31_1)⟩,
        ⟨S150000x64, Bd6 m c (Proc.devRef .tc main_v62_1)⟩, ⟨S150000x64, Bd6 m c (Proc.devRef .tc main_v93_1)⟩]
        concatenates_S150000x64_S150000x64_S150000x64_S150000x64_S150000x256_d1) slices_S150000x256_S100000x256_50000_0 := by
  after_all
  rfl

end Cert.KernelIdeal.Val

end
-- ==== Proof.LayerRow.lean ====
/-
  One row of a propagation layer, as plain formulas over the extended reals.

  With `s` a row of the neighbourhood sums, `e` the same row of the node embeddings, `A`, `B` the two weight matrices
  (already transposed: `A k q` multiplies input feature `k` into output feature `q`) and `a`, `b` the two biases, the next
  embedding's feature `q` is
      lr (∑ k, s k · A k q + a q) + lr (∑ k, (e k · s k) · B k q + b q),
  `lr` the leaky rectifier, and the layer's output row is that row divided by its Euclidean length floored at a small
  constant. The second half of the file is the one algebraic fact behind computing both products at once: a row
  `[s | e ⊙ s]` of width 128 times the block-diagonal matrix `[[A, 0], [0, B]]` has the first product in its low 64
  columns and the second in its high 64 columns. No finiteness is needed: on the extended reals `x · 0 = 0` for every `x`
  and addition is a commutative monoid.
-/
import Idealize.ShloMosaic.PureOps.Ideal.Laws
import Idealize.ShloMosaic.Lib.ValueIdx

noncomputable section

open scoped BigOperators

namespace Cert.Layer

open Idealize.ShloMosaic

/-- The rectifier's slope on the negative side, as the program's constant word (about one hundredth); never evaluated. -/
def slope : EReal := Ideal.ofBits .f32 0x3C23D70A#32

/-- The floor under a row's length, as the program's constant word (about 1e-12); never evaluated. -/
def floor : EReal := Ideal.ofBits .f32 0x2B8CBCCC#32

/-- The leaky rectifier: `x` where `0 ≤ x`, `slope · x` elsewhere. -/
def lr (x : EReal) : EReal := if 0 ≤ x then x else slope * x

/-- Both programs write the rectifier as a select on the comparison `x ≥ 0` between `x` and the constant times `x`. -/
theorem select_oge_eq_lr (x : Ideal .f32) :
    Scalar.select (FloatOps.cmpf .oge x (FloatOps.ofBits (F := Ideal) .f32 0x00000000#32)) x
      (FloatOps.mulf (FloatOps.ofBits (F := Ideal) .f32 0x3C23D70A#32) x) = lr x := by
  show (if BitVec.ofBool (decide (Ideal.ofBits .f32 0x00000000#32 ≤ x)) = 1 then x else Ideal.ofBits .f32 0x3C23D70A#32 * x) = lr x
  rw [Ideal.ofBits_zero_f32]
  unfold lr slope
  by_cases h : (0 : EReal) ≤ x
  · simp [h]
  · simp [h]

/-- Feature `q` of the next embedding's row. -/
def rowEgo (e s : Fin 64 → EReal) (A B : Fin 64 → Fin 64 → EReal) (a b : Fin 64 → EReal) (q : Fin 64) : EReal :=
  lr ((∑ k, s k * A k q) + a q) + lr ((∑ k, (e k * s k) * B k q) + b q)

/-- Feature `q` of a row scaled to unit Euclidean length, the length floored. -/
def rowUnit (v : Fin 64 → EReal) (q : Fin 64) : EReal :=
  Ideal.div (v q) (max (Ideal.sqrt (∑ k, v k * v k)) floor)

/-! ## The two products at once -/

/-- Column `k` of the low half of a 128-wide row. -/
def lo (k : Fin 64) : Fin 128 := ⟨k.val, by omega⟩
/-- Column `64 + k`, in the high half. -/
def hi (k : Fin 64) : Fin 128 := ⟨64 + k.val, by omega⟩

/-- A sum over 128 columns is the sum over the low half plus the sum over the high half. -/
theorem sum_halves (f : Fin 128 → EReal) : ∑ k, f k = ∑ k : Fin 64, f (lo k) + ∑ k : Fin 64, f (hi k) :=
  Fin.sum_univ_add (M := EReal) (a := 64) (b := 64) f

section Fused
variable (s e : Fin 64 → EReal) (A B : Fin 64 → Fin 64 → EReal) (x : Fin 128 → EReal) (W : Fin 128 → Fin 128 → EReal)
  (hxlo : ∀ k, x (lo k) = s k) (hxhi : ∀ k, x (hi k) = e k * s k)
  (hW00 : ∀ k q, W (lo k) (lo q) = A k q) (hW01 : ∀ k q, W (lo k) (hi q) = 0)
  (hW10 : ∀ k q, W (hi k) (lo q) = 0) (hW11 : ∀ k q, W (hi k) (hi q) = B k q)
include hxlo hxhi hW00 hW10 in
/-- The row `[s | e ⊙ s]` times `[[A, 0], [0, B]]`, low column `q`: `s · A`. -/
theorem fused_lo (q : Fin 64) : ∑ k, x k * W k (lo q) = ∑ k, s k * A k q := by
  rw [sum_halves]
  simp only [hxlo, hxhi, hW00, hW10, mul_zero, Finset.sum_const_zero, add_zero]

include hxlo hxhi hW01 hW11 in
/-- High column `64 + q`: `(e ⊙ s) · B`. -/
theorem fused_hi (q : Fin 64) : ∑ k, x k * W k (hi q) = ∑ k, (e k * s k) * B k q := by
  rw [sum_halves]
  simp only [hxlo, hxhi, hW01, hW11, mul_zero, Finset.sum_const_zero, zero_add]
end Fused

end Cert.Layer

end
-- ==== Proof.LayerKer.lean ====
/-
  One row of the kernel body's two stored values, as the row formulas of `Cert.Layer`.

  The body takes a block of 5000 rows of the node embeddings (`x0`) and of the neighbourhood sums (`x1`), a fused
  128 × 128 weight matrix `w` and a fused 1 × 128 bias `b`. It forms the 128-wide rows `[x1 | x0 ⊙ x1]`, multiplies them
  by `w`, adds `b`, applies the leaky rectifier and adds the low 64 columns to the high 64 columns; its second value is
  that sum with every row scaled to unit length. When `w` is the block-diagonal matrix `[[Wgcᵀ, 0], [0, Wbiᵀ]]` and `b` is
  `[bgc | bbi]`, the first value's row is `Cert.Layer.rowEgo` of the block's rows and the second is `Cert.Layer.rowUnit`
  of the first value's row. Everything is read at an index `(p, q)`; nothing is computed.
-/
import proofs.«182127_j4269197492536_2_alg».proof.Proof.Gen.KernelIdeal.Skeleton
import proofs.«182127_j4269197492536_2_alg».proof.Proof.LayerRow
import Idealize.ShloMosaic.Lib.ValueLayout
import Idealize.ShloMosaic.Lib.StackMember

noncomputable section

open scoped BigOperators

namespace Cert.KernelIdeal.LayerKer

open Idealize.ShloMosaic Idealize.ShloMosaic.ValueIdx Cert.KernelIdeal Cert.KernelIdeal.Gen Cert.Layer

/-! ## Layout operations at the two halves of a 128-wide axis -/

section Halves
variable {α : Type}

/-- Two `n × 64` arrays side by side: a low column reads the first. -/
theorem concat_cols_lo {n : ℕ} (x₁ x₂ : (⟨2, ![n, 64]⟩ : Shape).Idx → α)
    (h : Shape.Concatenates [⟨2, ![n, 64]⟩, ⟨2, ![n, 64]⟩] ⟨2, ![n, 128]⟩ 1) (p : Fin n) (k : Fin 64) :
    concatenate ⟨2, ![n, 128]⟩ 1 [⟨⟨2, ![n, 64]⟩, x₁⟩, ⟨⟨2, ![n, 64]⟩, x₂⟩] h (ix2 p (lo k)) = x₁ (ix2 p k) :=
  concatenate_pair_apply_left 1 x₁ x₂ h (ix2 p (lo k)) rfl (ix2 p k)
    fun b => match b with | ⟨0, _⟩ => rfl | ⟨1, _⟩ => rfl

/-- Two `n × 64` arrays side by side: a high column reads the second. -/
theorem concat_cols_hi {n : ℕ} (x₁ x₂ : (⟨2, ![n, 64]⟩ : Shape).Idx → α)
    (h : Shape.Concatenates [⟨2, ![n, 64]⟩, ⟨2, ![n, 64]⟩] ⟨2, ![n, 128]⟩ 1) (p : Fin n) (k : Fin 64) :
    concatenate ⟨2, ![n, 128]⟩ 1 [⟨⟨2, ![n, 64]⟩, x₁⟩, ⟨⟨2, ![n, 64]⟩, x₂⟩] h (ix2 p (hi k)) = x₂ (ix2 p k) :=
  concatenate_pair_apply_right 1 x₁ x₂ h (ix2 p (hi k)) rfl rfl (ix2 p k)
    (fun b hb => match b, hb with | ⟨0, _⟩, _ => rfl | ⟨1, _⟩, hb => absurd rfl hb)
    (Nat.add_comm _ _)

/-- Two `64 × m` arrays one above the other: a low row reads the first. -/
theorem concat_rows_lo {m : ℕ} (x₁ x₂ : (⟨2, ![64, m]⟩ : Shape).Idx → α)
    (h : Shape.Concatenates [⟨2, ![64, m]⟩, ⟨2, ![64, m]⟩] ⟨2, ![128, m]⟩ 0) (k : Fin 64) (c : Fin m) :
    concatenate ⟨2, ![128, m]⟩ 0 [⟨⟨2, ![64, m]⟩, x₁⟩, ⟨⟨2, ![64, m]⟩, x₂⟩] h (ix2 (lo k) c) = x₁ (ix2 k c) :=
  concatenate_pair_apply_left 0 x₁ x₂ h (ix2 (lo k) c) rfl (ix2 k c)
    fun b => match b with | ⟨0, _⟩ => rfl | ⟨1, _⟩ => rfl

/-- Two `64 × m` arrays one above the other: a high row reads the second. -/
theorem concat_rows_hi {m : ℕ} (x₁ x₂ : (⟨2, ![64, m]⟩ : Shape).Idx → α)
    (h : Shape.Concatenates [⟨2, ![64, m]⟩, ⟨2, ![64, m]⟩] ⟨2, ![128, m]⟩ 0) (k : Fin 64) (c : Fin m) :
    concatenate ⟨2, ![128, m]⟩ 0 [⟨⟨2, ![64, m]⟩, x₁⟩, ⟨⟨2, ![64, m]⟩, x₂⟩] h (ix2 (hi k) c) = x₂ (ix2 k c) :=
  concatenate_pair_apply_right 0 x₁ x₂ h (ix2 (hi k) c) rfl rfl (ix2 k c)
    (fun b hb => match b, hb with | ⟨0, _⟩, hb => absurd rfl hb | ⟨1, _⟩, _ => rfl)
    (Nat.add_comm _ _)

/-- Two vectors of length 64 end to end: a low position reads the first. -/
theorem concat_vec_lo (x₁ x₂ : (⟨1, ![64]⟩ : Shape).Idx → α)
    (h : Shape.Concatenates [⟨1, ![64]⟩, ⟨1, ![64]⟩] ⟨1, ![128]⟩ 0) (k : Fin 64) :
    concatenate ⟨1, ![128]⟩ 0 [⟨⟨1, ![64]⟩, x₁⟩, ⟨⟨1, ![64]⟩, x₂⟩] h (ix1 (lo k)) = x₁ (ix1 k) :=
  concatenate_pair_apply_left 0 x₁ x₂ h (ix1 (lo k)) rfl (ix1 k)
    fun b => match b with | ⟨0, _⟩ => rfl

/-- Two vectors of length 64 end to end: a high position reads the second. -/
theorem concat_vec_hi (x₁ x₂ : (⟨1, ![64]⟩ : Shape).Idx → α)
    (h : Shape.Concatenates [⟨1, ![64]⟩, ⟨1, ![64]⟩] ⟨1, ![128]⟩ 0) (k : Fin 64) :
    concatenate ⟨1, ![128]⟩ 0 [⟨⟨1, ![64]⟩, x₁⟩, ⟨⟨1, ![64]⟩, x₂⟩] h (ix1 (hi k)) = x₂ (ix1 k) :=
  concatenate_pair_apply_right 0 x₁ x₂ h (ix1 (hi k)) rfl rfl (ix1 k)
    (fun b hb => match b, hb with | ⟨0, _⟩, hb => absurd rfl hb)
    (Nat.add_comm _ _)

/-- The low 64 columns of an `n × 128` array. -/
theorem slice_cols_lo {n : ℕ} (X : (⟨2, ![n, 128]⟩ : Shape).Idx → α)
    (h : (⟨2, ![n, 128]⟩ : Shape).Slices ![0, 0] ⟨2, ![n, 64]⟩) (p : Fin n) (q : Fin 64) :
    extractStridedSlice ⟨2, ![n, 64]⟩ ![0, 0] X h (ix2 p q) = X (ix2 p (lo q)) :=
  slice2_axis1_apply 0 X h p q (lo q) (Nat.zero_add _).symm

/-- The high 64 columns of an `n × 128` array. -/
theorem slice_cols_hi {n : ℕ} (X : (⟨2, ![n, 128]⟩ : Shape).Idx → α)
    (h : (⟨2, ![n, 128]⟩ : Shape).Slices ![0, 64] ⟨2, ![n, 64]⟩) (p : Fin n) (q : Fin 64) :
    extractStridedSlice ⟨2, ![n, 64]⟩ ![0, 64] X h (ix2 p q) = X (ix2 p (hi q)) :=
  slice2_axis1_apply 64 X h p q (hi q) rfl

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Halves

/-! ## The product and the row sum at an index -/

/-- The body's product into the zero accumulator, at `(p, c)`: the sum over the 128 contracted positions. -/
theorem matmul_zero_apply (A : FVec Ideal S5000x128 .bf16) (B : FVec Ideal S128x128 .bf16) (p : Fin 5000) (c : Fin 128) :
    matmul dot_S5000x128_S128x128_S5000x128_1_0_0_1_n_n none A B (constant (F := Ideal) S5000x128 .f32 0x00000000#32) (ix2 p c)
      = ∑ k : Fin 128, A (ix2 p k) * B (ix2 k c) :=
  (Ideal.matmul_constant_zero_apply _ none A B (ix2 p c)).trans
    ((Ideal.dotGeneral_apply _ none .single A B (ix2 p c)).symm.trans
      (StackMember.dotGeneral_plain_apply (m := 5000) (n := 128) (k := 128) none A B p c))

/-- A sum along the rows of a `5000 × 64` block, at row `p`: the sum over the 64 columns. -/
theorem rowSum_apply (src : FVec Ideal S5000x64 .f32) (h : S5000x64.Reduces [1] S5000) (hφ : FKind.Formats .f32)
    (hacc : (0x00000000#32 : BitVec FTy.f32.bits) = FKind.add.neutral .f32 hφ) (p : Fin 5000) :
    multiReduction .add [1] S5000 src 0x00000000#32 h hφ hacc (ix1 p) = ∑ k : Fin 64, src (ix2 p k) :=
  (Ideal.multiReduction_add_single src _ h hφ hacc (ix1 p)).trans
    (Finset.sum_congr rfl fun k _ => congrArg src (funext fun a => Fin.ext (by
      match a with
      | ⟨0, _⟩ => rfl
      | ⟨1, _⟩ => rfl)))

/-! ## The body's values, piece by piece -/

section Body
variable (x0 x1 : Vec Ideal S5000x64 .f32) (w : Vec Ideal S128x128 .bf16) (b : Vec Ideal S1x128 .f32)

/-- The 128-wide rows `[x1 | x0 ⊙ x1]` (each block first cast to its own shape, as the body does). -/
def xcat : FVec Ideal S5000x128 .f32 :=
  concatenate S5000x128 1 [⟨S5000x64, shapeCast S5000x64 x1 shapeCasts_S5000x64_S5000x64⟩,
    ⟨S5000x64, mulf (shapeCast S5000x64 x0 shapeCasts_S5000x64_S5000x64) (shapeCast S5000x64 x1 shapeCasts_S5000x64_S5000x64)⟩]
    concatenates_S5000x64_S5000x64_S5000x128_d1

/-- The rows times `w`, plus `b` on every row. -/
def pre : FVec Ideal S5000x128 .f32 :=
  addf (matmul (φ₂ := .bf16) dot_S5000x128_S128x128_S5000x128_1_0_0_1_n_n none (truncf .bf16 (xcat x0 x1) bitsLt_bf16_f32)
      (shapeCast S128x128 w shapeCasts_S128x128_S128x128) (constant S5000x128 .f32 0x00000000#32))
    (broadcastTo S5000x128 (shapeCast S1x128 b shapeCasts_S1x128_S1x128) broadcasts_S1x128_S5000x128)

/-- The leaky rectifier as the body writes it. -/
def act (z : FVec Ideal S5000x128 .f32) : FVec Ideal S5000x128 .f32 :=
  select (cmpf .oge z (broadcast S5000x128 (Scalar.ofBits .f32 0x00000000#32))) z
    (mulf (broadcast S5000x128 (Scalar.ofBits .f32 0x3C23D70A#32)) z)

/-- The first stored value is the rectified low half plus the rectified high half. -/
theorem k0_pay1_eq : k0_pay1 x0 x1 w b =
    addf (extractStridedSlice S5000x64 ![0, 0] (act (pre x0 x1 w b)) slices_S5000x128_o0_0_S5000x64)
      (extractStridedSlice S5000x64 ![0, 64] (act (pre x0 x1 w b)) slices_S5000x128_o0_64_S5000x64) := rfl

theorem xcat_lo (p : Fin 5000) (k : Fin 64) : xcat x0 x1 (ix2 p (lo k)) = x1 (ix2 p k) :=
  (concat_cols_lo _ _ _ p k).trans (congrFun (shapeCast_self x1 _) _)

theorem xcat_hi (p : Fin 5000) (k : Fin 64) : xcat x0 x1 (ix2 p (hi k)) = x0 (ix2 p k) * x1 (ix2 p k) :=
  (concat_cols_hi _ _ _ p k).trans
    (congrArg₂ (· * ·) (congrFun (shapeCast_self x0 _) _) (congrFun (shapeCast_self x1 _) _))

theorem pre_apply (p : Fin 5000) (c : Fin 128) :
    pre x0 x1 w b (ix2 p c) = (∑ k : Fin 128, xcat x0 x1 (ix2 p k) * w (ix2 k c)) + b (ix2 (0 : Fin 1) c) := by
  unfold pre
  rw [shapeCast_self w, shapeCast_self b]
  exact congrArg₂ (· + ·) (matmul_zero_apply _ w p c) (broadcastTo_1b_ab_apply b _ p c)

theorem act_apply (z : FVec Ideal S5000x128 .f32) (i : S5000x128.Idx) : act z i = lr (z i) :=
  select_oge_eq_lr (z i)

theorem k0_pay1_apply (p : Fin 5000) (q : Fin 64) :
    k0_pay1 x0 x1 w b (ix2 p q) = lr (pre x0 x1 w b (ix2 p (lo q))) + lr (pre x0 x1 w b (ix2 p (hi q))) := by
  rw [k0_pay1_eq]
  exact congrArg₂ (· + ·) ((slice_cols_lo _ _ p q).trans (act_apply _ _)) ((slice_cols_hi _ _ p q).trans (act_apply _ _))

end Body

/-! ## The fused weight and bias the host builds -/

section Fused
variable (wgc wbi : FVec Ideal S64x64 .f32) (bgc bbi : FVec Ideal S64 .f32)

/-- A `64 × 64` block of zeros. -/
def zeros : FVec Ideal S64x64 .f32 :=
  broadcastInDim S64x64 ![] bcast_S_S64x64 (constant (F := Ideal) S_ .f32 0x00000000#32)

theorem zeros_apply (i : S64x64.Idx) : zeros i = 0 := Ideal.ofBits_zero_f32

/-- The upper half `[wgcᵀ | 0]` and the lower half `[0 | wbiᵀ]` of the fused weight. -/
def wtop : FVec Ideal S64x128 .f32 :=
  concatenate S64x128 1 [⟨S64x64, transpose S64x64 [1, 0] wgc transposes_S64x64_S64x64_1_0⟩, ⟨S64x64, zeros⟩]
    concatenates_S64x64_S64x64_S64x128_d1
def wbot : FVec Ideal S64x128 .f32 :=
  concatenate S64x128 1 [⟨S64x64, zeros⟩, ⟨S64x64, transpose S64x64 [1, 0] wbi transposes_S64x64_S64x64_1_0⟩]
    concatenates_S64x64_S64x64_S64x128_d1

/-- The fused weight `[[wgcᵀ, 0], [0, wbiᵀ]]`, narrowed to the product's input format (the identity on extended reals). -/
def wfused : Vec Ideal S128x128 .bf16 :=
  truncf .bf16 (concatenate S128x128 0 [⟨S64x128, wtop wgc⟩, ⟨S64x128, wbot wbi⟩] concatenates_S64x128_S64x128_S128x128_d0
    : FVec Ideal S128x128 .f32) bitsLt_bf16_f32

/-- The fused bias `[bgc | bbi]` as one row. -/
def bfused : Vec Ideal S1x128 .f32 :=
  fun i => shapeCast S1x128 (concatenate S128 0 [⟨S64, bgc⟩, ⟨S64, bbi⟩] concatenates_S64_S64_S128_d0) shapeCasts_S128_S1x128 i

theorem wfused_00 (k q : Fin 64) : wfused wgc wbi (ix2 (lo k) (lo q)) = wgc (ix2 q k) := by
  unfold wfused; rw [truncf_apply]
  exact (concat_rows_lo (wtop wgc) (wbot wbi) concatenates_S64x128_S64x128_S128x128_d0 k (lo q)).trans
    ((concat_cols_lo _ _ _ k q).trans (transpose_ix2_apply wgc _ k q))
theorem wfused_01 (k q : Fin 64) : wfused wgc wbi (ix2 (lo k) (hi q)) = 0 := by
  unfold wfused; rw [truncf_apply]
  exact (concat_rows_lo (wtop wgc) (wbot wbi) concatenates_S64x128_S64x128_S128x128_d0 k (hi q)).trans
    ((concat_cols_hi _ _ _ k q).trans (zeros_apply _))
theorem wfused_10 (k q : Fin 64) : wfused wgc wbi (ix2 (hi k) (lo q)) = 0 := by
  unfold wfused; rw [truncf_apply]
  exact (concat_rows_hi (wtop wgc) (wbot wbi) concatenates_S64x128_S64x128_S128x128_d0 k (lo q)).trans
    ((concat_cols_lo _ _ _ k q).trans (zeros_apply _))
theorem wfused_11 (k q : Fin 64) : wfused wgc wbi (ix2 (hi k) (hi q)) = wbi (ix2 q k) := by
  unfold wfused; rw [truncf_apply]
  exact (concat_rows_hi (wtop wgc) (wbot wbi) concatenates_S64x128_S64x128_S128x128_d0 k (hi q)).trans
    ((concat_cols_hi _ _ _ k q).trans (transpose_ix2_apply wbi _ k q))

theorem bfused_lo (q : Fin 64) : bfused bgc bbi (ix2 (0 : Fin 1) (lo q)) = bgc (ix1 q) :=
  (shapeCast_a_1a_apply _ _ 0 (lo q)).trans (concat_vec_lo _ _ _ q)
theorem bfused_hi (q : Fin 64) : bfused bgc bbi (ix2 (0 : Fin 1) (hi q)) = bbi (ix1 q) :=
  (shapeCast_a_1a_apply _ _ 0 (hi q)).trans (concat_vec_hi _ _ _ q)

/-! ## The two stored values, row by row -/

variable (x0 x1 : Vec Ideal S5000x64 .f32) (w : Vec Ideal S128x128 .bf16) (b : Vec Ideal S1x128 .f32)

/-- With the fused weight and bias, row `p` of the first stored value is the layer's next-embedding row of rows `p` of
    the two input blocks. -/
theorem k0_pay1_row (hw : w = wfused wgc wbi) (hb : b = bfused bgc bbi) (p : Fin 5000) (q : Fin 64) :
    k0_pay1 x0 x1 w b (ix2 p q)
      = rowEgo (fun k => x0 (ix2 p k)) (fun k => x1 (ix2 p k)) (fun k j => wgc (ix2 j k)) (fun k j => wbi (ix2 j k))
          (fun j => bgc (ix1 j)) (fun j => bbi (ix1 j)) q := by
  subst hw hb
  rw [k0_pay1_apply, pre_apply, pre_apply]
  unfold rowEgo
  refine congrArg₂ (· + ·) (congrArg lr (congrArg₂ (· + ·) ?_ (bfused_lo bgc bbi q)))
    (congrArg lr (congrArg₂ (· + ·) ?_ (bfused_hi bgc bbi q)))
  · exact fused_lo (s := fun k => x1 (ix2 p k)) (e := fun k => x0 (ix2 p k)) (A := fun k j => wgc (ix2 j k))
      (x := fun k => xcat x0 x1 (ix2 p k)) (W := fun k c => wfused wgc wbi (ix2 k c))
      (xcat_lo x0 x1 p) (xcat_hi x0 x1 p) (wfused_00 wgc wbi) (wfused_10 wgc wbi) q
  · exact fused_hi (s := fun k => x1 (ix2 p k)) (e := fun k => x0 (ix2 p k)) (B := fun k j => wbi (ix2 j k))
      (x := fun k => xcat x0 x1 (ix2 p k)) (W := fun k c => wfused wgc wbi (ix2 k c))
      (xcat_lo x0 x1 p) (xcat_hi x0 x1 p) (wfused_01 wgc wbi) (wfused_11 wgc wbi) q

/-- Row `p` of the second stored value is row `p` of the first scaled to unit length. -/
theorem k0_pay2_row (p : Fin 5000) (q : Fin 64) :
    k0_pay2 x0 x1 w b (ix2 p q) = rowUnit (fun k => k0_pay1 x0 x1 w b (ix2 p k)) q := by
  unfold k0_pay2 rowUnit
  refine congrArg (Ideal.div _) ?_
  refine (broadcastTo_a1_ab_apply _ _ p q).trans ?_
  refine congrArg (fun t => max (Ideal.sqrt t) Cert.Layer.floor) ?_
  refine (shapeCast_a_a1_apply _ _ p 0).trans ?_
  exact rowSum_apply _ _ _ _ p

/-! The second and third layers' bodies are the same text. -/

theorem k1_pay1_eq : @k1_pay1 = @k0_pay1 := rfl
theorem k1_pay2_eq : @k1_pay2 = @k0_pay2 := rfl
theorem k2_pay1_eq : @k2_pay1 = @k0_pay1 := rfl
theorem k2_pay2_eq : @k2_pay2 = @k0_pay2 := rfl

theorem k1_pay1_row (hw : w = wfused wgc wbi) (hb : b = bfused bgc bbi) (p : Fin 5000) (q : Fin 64) :
    k1_pay1 x0 x1 w b (ix2 p q)
      = rowEgo (fun k => x0 (ix2 p k)) (fun k => x1 (ix2 p k)) (fun k j => wgc (ix2 j k)) (fun k j => wbi (ix2 j k))
          (fun j => bgc (ix1 j)) (fun j => bbi (ix1 j)) q :=
  k0_pay1_row wgc wbi bgc bbi x0 x1 w b hw hb p q
theorem k1_pay2_row (p : Fin 5000) (q : Fin 64) :
    k1_pay2 x0 x1 w b (ix2 p q) = rowUnit (fun k => k1_pay1 x0 x1 w b (ix2 p k)) q :=
  k0_pay2_row x0 x1 w b p q
theorem k2_pay1_row (hw : w = wfused wgc wbi) (hb : b = bfused bgc bbi) (p : Fin 5000) (q : Fin 64) :
    k2_pay1 x0 x1 w b (ix2 p q)
      = rowEgo (fun k => x0 (ix2 p k)) (fun k => x1 (ix2 p k)) (fun k j => wgc (ix2 j k)) (fun k j => wbi (ix2 j k))
          (fun j => bgc (ix1 j)) (fun j => bbi (ix1 j)) q :=
  k0_pay1_row wgc wbi bgc bbi x0 x1 w b hw hb p q
theorem k2_pay2_row (p : Fin 5000) (q : Fin 64) :
    k2_pay2 x0 x1 w b (ix2 p q) = rowUnit (fun k => k2_pay1 x0 x1 w b (ix2 p k)) q :=
  k0_pay2_row x0 x1 w b p q

end Fused

end Cert.KernelIdeal.LayerKer

end
-- ==== Proof.LayerRef.lean ====
/-
  One row of the reference's layer, as the row formulas of `Cert.Layer`.

  The reference computes `x · wᵀ + b` by a matrix product with the transposed weight and a bias broadcast over the rows,
  applies the leaky rectifier, and adds the two branches; it scales a row to unit length by dividing by the square root of
  the row's sum of squares, floored. Read at an index `(r, q)`, the first is `Cert.Layer.rowEgo` of row `r` of the two
  inputs and the second is `Cert.Layer.rowUnit` of row `r`. Nothing is computed.
-/
import proofs.«182127_j4269197492536_2_alg».proof.Proof.RefSpec
import proofs.«182127_j4269197492536_2_alg».proof.Proof.LayerRow
import Idealize.ShloMosaic.Lib.ValueLayout
import Idealize.ShloMosaic.Lib.StackMember

noncomputable section

open scoped BigOperators

namespace Cert.ReferenceIdeal.LayerRef

open Idealize.ShloMosaic Idealize.ShloMosaic.ValueIdx Cert.ReferenceIdeal Cert.ReferenceIdeal.Spec Cert.Layer

variable [Facts]
open Facts₀ Facts

/-! ## Broadcasts at an index -/

/-- A bias vector made a row and repeated over all rows reads, at `(r, q)`, the vector at `q`. -/
theorem bias_apply (b : Arr Ideal S64 .f32) (r : Fin 150000) (q : Fin 64) :
    (broadcastInDim S150000x64 ![0, 1] bcast_S1x64_S150000x64_0_1
      (broadcastInDim S1x64 ![1] bcast_S64_S1x64_1 b : Arr Ideal S1x64 .f32) : Arr Ideal S150000x64 .f32) (ix2 r q) = b (ix1 q) :=
  (broadcastInDim_apply _ _ _ (ix2 r q) (ix2 (0 : Fin 1) q) fun ax => match ax with | ⟨0, _⟩ => rfl | ⟨1, _⟩ => rfl).trans
    (broadcastInDim_apply _ _ b (ix2 (0 : Fin 1) q) (ix1 q) fun ax => match ax with | ⟨0, _⟩ => rfl)

/-- A column repeated over 64 columns reads, at `(r, q)`, the column at `r`. -/
theorem col_bcast_apply (v : Arr Ideal S150000x1 .f32) (r : Fin 150000) (q : Fin 64) :
    (broadcastInDim S150000x64 ![0, 1] bcast_S150000x1_S150000x64_0_1 v : Arr Ideal S150000x64 .f32) (ix2 r q)
      = v (ix2 r (0 : Fin 1)) :=
  broadcastInDim_apply _ _ v (ix2 r q) (ix2 r (0 : Fin 1)) fun ax => match ax with | ⟨0, _⟩ => rfl | ⟨1, _⟩ => rfl

/-- A vector made a column reads, at `(r, u)`, the vector at `r`. -/
theorem vec_col_apply (v : Arr Ideal S150000 .f32) (r : Fin 150000) (u : Fin 1) :
    (broadcastInDim S150000x1 ![0] bcast_S150000_S150000x1_0 v : Arr Ideal S150000x1 .f32) (ix2 r u) = v (ix1 r) :=
  broadcastInDim_apply _ _ v (ix2 r u) (ix1 r) fun ax => match ax with | ⟨0, _⟩ => rfl

/-! ## The layer at an index -/

/-- The rectifier as the reference writes it, at an index. -/
theorem lrelu_apply (x : Arr Ideal S150000x64 .f32) (i : S150000x64.Idx) : lrelu x i = lr (x i) :=
  select_oge_eq_lr (x i)

/-- `x · wᵀ + b` at `(r, q)`. -/
theorem proj_apply (x : Arr Ideal S150000x64 .f32) (w : Arr Ideal S64x64 .f32) (b : Arr Ideal S64 .f32) (r : Fin 150000) (q : Fin 64) :
    proj x w b (ix2 r q) = (∑ k : Fin 64, x (ix2 r k) * w (ix2 q k)) + b (ix1 q) := by
  unfold proj
  refine congrArg₂ (· + ·) ?_ (bias_apply b r q)
  refine (StackMember.dotGeneral_plain_apply (m := 150000) (n := 64) (k := 64) none x _ r q).trans ?_
  exact Finset.sum_congr rfl fun k _ => congrArg (x (ix2 r k) * ·) (transpose_ix2_apply w _ k q)

/-- The host's pointwise operations at an index, on extended reals. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-- The floor constant repeated over a column. -/
theorem floor_col_apply (i : S150000x1.Idx) :
    (broadcastInDim S150000x1 ![] bcast_S_S150000x1 (constant (F := Ideal) S_ .f32 0x2B8CBCCC#32) : Arr Ideal S150000x1 .f32) i
      = Cert.Layer.floor := rfl

/-- The second branch's input row: the product of the two rows. -/
theorem proj_mul_apply (ego side : Arr Ideal S150000x64 .f32) (w : Arr Ideal S64x64 .f32) (b : Arr Ideal S64 .f32)
    (r : Fin 150000) (q : Fin 64) :
    proj (mulf (F := Ideal) (φ := .f32) ego side) w b (ix2 r q) = (∑ k : Fin 64, (ego (ix2 r k) * side (ix2 r k)) * w (ix2 q k)) + b (ix1 q) :=
  proj_apply (mulf (F := Ideal) (φ := .f32) ego side) w b r q

/-- Row `r` of the layer's next embeddings is the next-embedding row of rows `r` of the two inputs. -/
theorem egoNext_row (ego side : Arr Ideal S150000x64 .f32) (wgc wbi : Arr Ideal S64x64 .f32) (bgc bbi : Arr Ideal S64 .f32)
    (r : Fin 150000) (q : Fin 64) :
    egoNext ego side wgc wbi bgc bbi (ix2 r q)
      = rowEgo (fun k => ego (ix2 r k)) (fun k => side (ix2 r k)) (fun k j => wgc (ix2 j k)) (fun k j => wbi (ix2 j k))
          (fun j => bgc (ix1 j)) (fun j => bbi (ix1 j)) q := by
  unfold egoNext rowEgo
  refine (addf_apply _ _ _).trans ?_
  refine congrArg₂ (· + ·) ((lrelu_apply _ _).trans (congrArg lr ?_)) ((lrelu_apply _ _).trans (congrArg lr ?_))
  · exact proj_apply side wgc bgc r q
  · exact proj_mul_apply ego side wbi bbi r q

/-- The sum of squares along row `r`. -/
theorem sumsq_apply (e : Arr Ideal S150000x64 .f32) (r : Fin 150000) :
    (Host.reduceAdd (mulf (F := Ideal) (φ := .f32) e e) (constant (F := Ideal) S_ .f32 0x00000000#32) reducesTo_S150000x64_S150000_d1 h_S_ : Arr Ideal S150000 .f32) (ix1 r)
      = ∑ k : Fin 64, e (ix2 r k) * e (ix2 r k) := by
  have hred : S150000x64.Reduces [1] S150000 := by decide
  refine (Ideal.hostReduceAdd_single reducesTo_S150000x64_S150000_d1 hred (mulf (F := Ideal) (φ := .f32) e e) _ (ix1 r)).trans ?_
  refine (congrArg (· + _) Ideal.ofBits_zero_f32).trans ((zero_add _).trans ?_)
  exact Finset.sum_congr rfl fun k _ => congrArg (mulf (F := Ideal) (φ := .f32) e e) (funext fun a => Fin.ext (by
    match a with
    | ⟨0, _⟩ => rfl
    | ⟨1, _⟩ => rfl))

/-- Row `r` of the unit-length scaling is row `r` scaled. -/
theorem unitRows_row (e : Arr Ideal S150000x64 .f32) (r : Fin 150000) (q : Fin 64) :
    unitRows e (ix2 r q) = rowUnit (fun k => e (ix2 r k)) q := by
  unfold unitRows rowUnit
  refine (hostDivf_apply _ _ _).trans ?_
  refine congrArg (Ideal.div (e (ix2 r q))) ?_
  refine (col_bcast_apply _ r q).trans ?_
  refine (maximumf_apply _ _ _).trans ?_
  refine congrArg₂ max ?_ (floor_col_apply _)
  refine (hostSqrt_apply _ _).trans (congrArg Ideal.sqrt ?_)
  exact (vec_col_apply _ r 0).trans (sumsq_apply e r)

end Cert.ReferenceIdeal.LayerRef

end
-- ==== Proof.KILayers.lean ====
/-
  The kernel's three layers against the reference's, array by array.

  At a block `t` and an entry (p, q) the body's first stored value is the next-embedding row formula of rows p of the two
  input blocks; those are rows 5000·t + p of the embeddings and of the neighbourhood sums the layer was entered with, and the
  fused weight and bias are the reference's two weights and two biases side by side. The reference's layer at row
  5000·t + p is the same row formula of the same rows. So each launch leaves its first output array at the reference's next
  embeddings and its second at their row-normalised copy; by induction over the three layers the arrays agree, because
  the neighbourhood sums are the same function of equal embeddings.
-/
import proofs.«182127_j4269197492536_2_alg».proof.Proof.KIBlocks
import proofs.«182127_j4269197492536_2_alg».proof.Proof.KIHost
import proofs.«182127_j4269197492536_2_alg».proof.Proof.LayerKer
import proofs.«182127_j4269197492536_2_alg».proof.Proof.LayerRef

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Rg Cert.Layer
open Cert.ReferenceIdeal (Spec.Arr Spec.ego0 Spec.ego1 Spec.ego2 Spec.ego3 Spec.egoNext Spec.unitRows Spec.spmm Spec.mat0 Spec.mat1 Spec.mat2 Spec.vec0 Spec.vec1 Spec.vec2
  Spec.net Spec.allEmb Spec.userOut Spec.itemOut)

variable (m : (ℓ : Loc nD τ sig) → Buf (Elt Ideal) ℓ) (c : Dev nD)

theorem fusedW_eq (wgc wbi : FVec Ideal S64x64 .f32) : fusedW (F := Ideal) wgc wbi = LayerKer.wfused wgc wbi := rfl
theorem fusedB_eq (bgc bbi : FVec Ideal S64 .f32) : fusedB (F := Ideal) bgc bbi = LayerKer.bfused bgc bbi := rfl

/-- The reference network's embeddings after one, two and three layers, of core `c`'s argument arrays. -/
abbrev E1 : Spec.Arr Ideal Cert.ReferenceIdeal.S150000x64 .f32 := Spec.ego1 (a0 m c) (a1 m c) (a2 m c) (a3 m c) (a4 m c) (a5 m c) (a6 m c) (a7 m c) (a8 m c)
abbrev E2 : Spec.Arr Ideal Cert.ReferenceIdeal.S150000x64 .f32 := Spec.ego2 (a0 m c) (a1 m c) (a2 m c) (a3 m c) (a4 m c) (a5 m c) (a6 m c) (a7 m c) (a8 m c)
abbrev E3 : Spec.Arr Ideal Cert.ReferenceIdeal.S150000x64 .f32 := Spec.ego3 (a0 m c) (a1 m c) (a2 m c) (a3 m c) (a4 m c) (a5 m c) (a6 m c) (a7 m c) (a8 m c)

/-! # Layer 1 -/

/-- The body's first stored value at block `t`, entry (p, q), is the reference's next embeddings at row 5000·t + p. -/
theorem pay_ego_1 (t : Fin cfg0.N) (p : Fin 5000) (q : Fin 64) :
    k0_pay1 (iblk0 (Vb1 m) c 0 t) (iblk0 (Vb1 m) c 1 t) (iblk0 (Vb1 m) c 2 t) (iblk0 (Vb1 m) c 3 t) (ix2 p q) = E1 m c (ix2 (rowOf (blkNo0 t) p) q) := by
  have hw : iblk0 (Vb1 m) c 2 t = LayerKer.wfused (Spec.mat0 (a5 m c)) (Spec.mat0 (a7 m c)) :=
    (wtBlk0 (Vb1 m) c t).trans ((wt_1 m c).trans (fusedW_eq _ _))
  have hb : iblk0 (Vb1 m) c 3 t = LayerKer.bfused (Spec.vec0 (a6 m c)) (Spec.vec0 (a8 m c)) :=
    (biasBlk0 (Vb1 m) c t).trans ((bias_1 m c).trans (fusedB_eq _ _))
  refine (LayerKer.k0_pay1_row _ _ _ _ _ _ _ _ hw hb p q).trans ?_
  simp only [rowBlk0_0, rowBlk0_1]
  have e0 : Vb1 m c (Pipeline.arrRef spec0 0) = Spec.ego0 (a3 m c) (a4 m c) := ego_1 m c
  have e1 : Vb1 m c (Pipeline.arrRef spec0 1) = Spec.spmm (a0 m c) (a1 m c) (a2 m c) (Spec.ego0 (a3 m c) (a4 m c)) := side_1 m c
  rw [e0, e1]
  exact (Cert.ReferenceIdeal.LayerRef.egoNext_row _ _ _ _ _ _ (rowOf (blkNo0 t) p) q).symm

/-- The launch leaves its first output array at the reference's next embeddings, -/
theorem ego_final_1 : (dat0 (Vb1 m) c).arrAt 4 cfg0.N = E1 m c := by
  refine final0_4 (Vb1 m) c (E1 m c) (fun t p q => ?_)
  unfold out0_4
  rw [View.canon_unit_zero hz]
  simp only [View.ld_unit_zero (S := S5000x64) hz, View.ld_unit_zero (S := S128x128) hz, View.ld_unit_zero (S := S1x128) hz]
  exact pay_ego_1 m c t p q

/-- and its second at their row-normalised copy. -/
theorem emb_final_1 : (dat0 (Vb1 m) c).arrAt 5 cfg0.N = Spec.unitRows (E1 m c) := by
  refine final0_5 (Vb1 m) c (Spec.unitRows (E1 m c)) (fun t p q => ?_)
  unfold out0_5
  rw [View.canon_unit_zero hz]
  simp only [View.ld_unit_zero (S := S5000x64) hz, View.ld_unit_zero (S := S128x128) hz, View.ld_unit_zero (S := S1x128) hz]
  refine (LayerKer.k0_pay2_row _ _ _ _ p q).trans ?_
  simp only [pay_ego_1 m c t p]
  exact (Cert.ReferenceIdeal.LayerRef.unitRows_row _ (rowOf (blkNo0 t) p) q).symm

/-! # Layer 2 -/

/-- Layer 2 is entered with the embeddings layer 1 left, which are the reference's, and with their neighbourhood sums. -/
theorem egoIn_2 : Bd3 m c (Proc.devRef .tc main_v31_0) = E1 m c :=
  (ego_2 m c).trans ((Bd2_arr m c 4).trans (ego_final_1 m c))
theorem sideIn_2 : Bd3 m c (Proc.devRef .tc main_v44) = Spec.spmm (a0 m c) (a1 m c) (a2 m c) (E1 m c) :=
  (side_2 m c).trans (congrArg (Spec.spmm (a0 m c) (a1 m c) (a2 m c)) ((Bd2_arr m c 4).trans (ego_final_1 m c)))

/-- The body's first stored value at block `t`, entry (p, q), is the reference's next embeddings at row 5000·t + p. -/
theorem pay_ego_2 (t : Fin cfg1.N) (p : Fin 5000) (q : Fin 64) :
    k1_pay1 (iblk1 (Vb3 m) c 0 t) (iblk1 (Vb3 m) c 1 t) (iblk1 (Vb3 m) c 2 t) (iblk1 (Vb3 m) c 3 t) (ix2 p q) = E2 m c (ix2 (rowOf (blkNo1 t) p) q) := by
  have hw : iblk1 (Vb3 m) c 2 t = LayerKer.wfused (Spec.mat1 (a5 m c)) (Spec.mat1 (a7 m c)) :=
    (wtBlk1 (Vb3 m) c t).trans ((wt_2 m c).trans (fusedW_eq _ _))
  have hb : iblk1 (Vb3 m) c 3 t = LayerKer.bfused (Spec.vec1 (a6 m c)) (Spec.vec1 (a8 m c)) :=
    (biasBlk1 (Vb3 m) c t).trans ((bias_2 m c).trans (fusedB_eq _ _))
  refine (LayerKer.k1_pay1_row _ _ _ _ _ _ _ _ hw hb p q).trans ?_
  simp only [rowBlk1_0, rowBlk1_1]
  have e0 : Vb3 m c (Pipeline.arrRef spec1 0) = E1 m c := egoIn_2 m c
  have e1 : Vb3 m c (Pipeline.arrRef spec1 1) = Spec.spmm (a0 m c) (a1 m c) (a2 m c) (E1 m c) := sideIn_2 m c
  rw [e0, e1]
  exact (Cert.ReferenceIdeal.LayerRef.egoNext_row _ _ _ _ _ _ (rowOf (blkNo1 t) p) q).symm

/-- The launch leaves its first output array at the reference's next embeddings, -/
theorem ego_final_2 : (dat1 (Vb3 m) c).arrAt 4 cfg1.N = E2 m c := by
  refine final1_4 (Vb3 m) c (E2 m c) (fun t p q => ?_)
  unfold out1_4
  rw [View.canon_unit_zero hz]
  simp only [View.ld_unit_zero (S := S5000x64) hz, View.ld_unit_zero (S := S128x128) hz, View.ld_unit_zero (S := S1x128) hz]
  exact pay_ego_2 m c t p q

/-- and its second at their row-normalised copy. -/
theorem emb_final_2 : (dat1 (Vb3 m) c).arrAt 5 cfg1.N = Spec.unitRows (E2 m c) := by
  refine final1_5 (Vb3 m) c (Spec.unitRows (E2 m c)) (fun t p q => ?_)
  unfold out1_5
  rw [View.canon_unit_zero hz]
  simp only [View.ld_unit_zero (S := S5000x64) hz, View.ld_unit_zero (S := S128x128) hz, View.ld_unit_zero (S := S1x128) hz]
  refine (LayerKer.k1_pay2_row _ _ _ _ p q).trans ?_
  simp only [pay_ego_2 m c t p]
  exact (Cert.ReferenceIdeal.LayerRef.unitRows_row _ (rowOf (blkNo1 t) p) q).symm

/-! # Layer 3 -/

/-- Layer 3 is entered with the embeddings layer 2 left, which are the reference's, and with their neighbourhood sums. -/
theorem egoIn_3 : Bd5 m c (Proc.devRef .tc main_v62_0) = E2 m c :=
  (ego_3 m c).trans ((Bd4_arr m c 4).trans (ego_final_2 m c))
theorem sideIn_3 : Bd5 m c (Proc.devRef .tc main_v75) = Spec.spmm (a0 m c) (a1 m c) (a2 m c) (E2 m c) :=
  (side_3 m c).trans (congrArg (Spec.spmm (a0 m c) (a1 m c) (a2 m c)) ((Bd4_arr m c 4).trans (ego_final_2 m c)))

/-- The body's first stored value at block `t`, entry (p, q), is the reference's next embeddings at row 5000·t + p. -/
theorem pay_ego_3 (t : Fin cfg2.N) (p : Fin 5000) (q : Fin 64) :
    k2_pay1 (iblk2 (Vb5 m) c 0 t) (iblk2 (Vb5 m) c 1 t) (iblk2 (Vb5 m) c 2 t) (iblk2 (Vb5 m) c 3 t) (ix2 p q) = E3 m c (ix2 (rowOf (blkNo2 t) p) q) := by
  have hw : iblk2 (Vb5 m) c 2 t = LayerKer.wfused (Spec.mat2 (a5 m c)) (Spec.mat2 (a7 m c)) :=
    (wtBlk2 (Vb5 m) c t).trans ((wt_3 m c).trans (fusedW_eq _ _))
  have hb : iblk2 (Vb5 m) c 3 t = LayerKer.bfused (Spec.vec2 (a6 m c)) (Spec.vec2 (a8 m c)) :=
    (biasBlk2 (Vb5 m) c t).trans ((bias_3 m c).trans (fusedB_eq _ _))
  refine (LayerKer.k2_pay1_row _ _ _ _ _ _ _ _ hw hb p q).trans ?_
  simp only [rowBlk2_0, rowBlk2_1]
  have e0 : Vb5 m c (Pipeline.arrRef spec2 0) = E2 m c := egoIn_3 m c
  have e1 : Vb5 m c (Pipeline.arrRef spec2 1) = Spec.spmm (a0 m c) (a1 m c) (a2 m c) (E2 m c) := sideIn_3 m c
  rw [e0, e1]
  exact (Cert.ReferenceIdeal.LayerRef.egoNext_row _ _ _ _ _ _ (rowOf (blkNo2 t) p) q).symm

/-- The launch leaves its first output array at the reference's next embeddings, -/
theorem ego_final_3 : (dat2 (Vb5 m) c).arrAt 4 cfg2.N = E3 m c := by
  refine final2_4 (Vb5 m) c (E3 m c) (fun t p q => ?_)
  unfold out2_4
  rw [View.canon_unit_zero hz]
  simp only [View.ld_unit_zero (S := S5000x64) hz, View.ld_unit_zero (S := S128x128) hz, View.ld_unit_zero (S := S1x128) hz]
  exact pay_ego_3 m c t p q

/-- and its second at their row-normalised copy. -/
theorem emb_final_3 : (dat2 (Vb5 m) c).arrAt 5 cfg2.N = Spec.unitRows (E3 m c) := by
  refine final2_5 (Vb5 m) c (Spec.unitRows (E3 m c)) (fun t p q => ?_)
  unfold out2_5
  rw [View.canon_unit_zero hz]
  simp only [View.ld_unit_zero (S := S5000x64) hz, View.ld_unit_zero (S := S128x128) hz, View.ld_unit_zero (S := S1x128) hz]
  refine (LayerKer.k2_pay2_row _ _ _ _ p q).trans ?_
  simp only [pay_ego_3 m c t p]
  exact (Cert.ReferenceIdeal.LayerRef.unitRows_row _ (rowOf (blkNo2 t) p) q).symm

/-! # The results -/

/-- The four arrays the closing stretch concatenates. -/
theorem tab_6 : Bd6 m c (Proc.devRef .tc main_v0) = Spec.ego0 (a3 m c) (a4 m c) := (tab_at6 m c).trans (ego_1 m c)
theorem emb1_6 : Bd6 m c (Proc.devRef .tc main_v31_1) = Spec.unitRows (E1 m c) := (emb1_at6 m c).trans ((Bd2_arr m c 5).trans (emb_final_1 m c))
theorem emb2_6 : Bd6 m c (Proc.devRef .tc main_v62_1) = Spec.unitRows (E2 m c) := (emb2_at6 m c).trans ((Bd4_arr m c 5).trans (emb_final_2 m c))
theorem emb3_6 : Bd6 m c (Proc.devRef .tc main_v93_1) = Spec.unitRows (E3 m c) := (Bd6_arr m c 5).trans (emb_final_3 m c)

/-- The kernel's two results are the reference network's. -/
theorem users_eq : Bd7 m c (Proc.devRef .tc main_v95) = Spec.userOut (a0 m c) (a1 m c) (a2 m c) (a3 m c) (a4 m c) (a5 m c) (a6 m c) (a7 m c) (a8 m c) := by
  rw [users_7, tab_6, emb1_6, emb2_6, emb3_6]
  rfl
theorem items_eq : Bd7 m c (Proc.devRef .tc main_v96) = Spec.itemOut (a0 m c) (a1 m c) (a2 m c) (a3 m c) (a4 m c) (a5 m c) (a6 m c) (a7 m c) (a8 m c) := by
  rw [items_7, tab_6, emb1_6, emb2_6, emb3_6]
  rfl

end Cert.KernelIdeal.Val

end
-- ==== Proof.RefRunOps.lean ====
/-
  The reference program as one straight line of host operations, and its run.

  The program's three windows are lines of operations once the two helper functions are unfolded at their six calls (a call of the
  leaky rectifier is seven operations, the last the select of its inner helper). The line is cut here by layer: the node embeddings of
  a layer, then their normalisation, for each of the three layers, then the concatenation and the two slices returned. Every weakly fair
  execution of the program terminates with each buffer at the fold of the line over the launch contents; and each stretch of the line
  leaves alone every buffer it does not write.
-/
import proofs.«182127_j4269197492536_2_alg».proof.Proof.RefSpec
import proofs.«182127_j4269197492536_2_alg».proof.Proof.LibFold
import Idealize.ShloMosaic.Lib.StableHlo.Run
import Idealize.ShloMosaic.Lib.Pipeline.Frame

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- The stacked table and the first layer's node embeddings: the operations that write `main_v0` … `main_v35`, the two calls of the leaky rectifier unfolded into their seven operations each. -/
abbrev A1 : List (HloOp τ sig (Elt F)) :=
  [ StableHlo.binary main_arg3 main_arg4 main_v0 ((fun a b => concatenate S150000x64 0 [⟨S50000x64, a⟩, ⟨S100000x64, b⟩] concatenates_S50000x64_S100000x64_S150000x64_d0) : (⟨S50000x64, .f32⟩ : BufTy).Contents (Elt F) → (⟨S100000x64, .f32⟩ : BufTy).Contents (Elt F) → (⟨S150000x64, .f32⟩ : BufTy).Contents (Elt F)),
    StableHlo.unary main_arg2 main_v1 (broadcastInDim S2400000x1 ![0] bcast_S2400000_S2400000x1_0 : (⟨S2400000, .f32⟩ : BufTy).Contents (Elt F) → (⟨S2400000x1, .f32⟩ : BufTy).Contents (Elt F)),
    StableHlo.nullary main_c (constantI S_ 32 0#32),
    StableHlo.unary main_c main_v2 (broadcastInDim S2400000 ![] bcast_S_S2400000 : (⟨S_, .i32⟩ : BufTy).Contents (Elt F) → (⟨S2400000, .i32⟩ : BufTy).Contents (Elt F)),
    StableHlo.binary main_arg0 main_v2 main_v3 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v4 (broadcastInDim S2400000 ![] bcast_S_S2400000 : (⟨S_, .i32⟩ : BufTy).Contents (Elt F) → (⟨S2400000, .i32⟩ : BufTy).Contents (Elt F)),
    StableHlo.binary main_arg0 main_v4 main_v5 (addi : (⟨S2400000, .i32⟩ : BufTy).Contents (Elt F) → (⟨S2400000, .i32⟩ : BufTy).Contents (Elt F) → (⟨S2400000, .i32⟩ : BufTy).Contents (Elt F)),
    StableHlo.ternary main_v3 main_v5 main_arg0 main_v6 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v6 main_v7 (broadcastInDim S2400000x1 ![0] bcast_S2400000_S2400000x1_0 : (⟨S2400000, .i32⟩ : BufTy).Contents (Elt F) → (⟨S2400000x1, .i32⟩ : BufTy).Contents (Elt F)),
    StableHlo.binary main_v0 main_v7 main_v8 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v1 main_v9 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v9 main_v8 main_v10 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v11 (broadcastInDim S150000x64 ![] bcast_S_S150000x64 : (⟨S_, .f32⟩ : BufTy).Contents (Elt F) → (⟨S150000x64, .f32⟩ : BufTy).Contents (Elt F)),
    StableHlo.unary main_arg1 main_v12 (broadcastInDim S2400000x1 ![0] bcast_S2400000_S2400000x1_0 : (⟨S2400000, .i32⟩ : BufTy).Contents (Elt F) → (⟨S2400000x1, .i32⟩ : BufTy).Contents (Elt F)),
    StableHlo.ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.unary main_v15 main_v16 ((transpose S64x64 [1, 0] · transposes_S64x64_S64x64_1_0) : (⟨S64x64, .f32⟩ : BufTy).Contents (Elt F) → (⟨S64x64, .f32⟩ : BufTy).Contents (Elt F)),
    StableHlo.binary main_v13 main_v16 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg6 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S150000x64 ![0, 1] bcast_S1x64_S150000x64_0_1 : (⟨S1x64, .f32⟩ : BufTy).Contents (Elt F) → (⟨S150000x64, .f32⟩ : BufTy).Contents (Elt F)),
    StableHlo.binary main_v17 main_v21 main_v22 (addf : (⟨S150000x64, .f32⟩ : BufTy).Contents (Elt F) → (⟨S150000x64, .f32⟩ : BufTy).Contents (Elt F) → (⟨S150000x64, .f32⟩ : BufTy).Contents (Elt F)),
    StableHlo.TRef.nullary main_call0.cst (constant S_ .f32 0x00000000#32),
    StableHlo.TRef.unary main_call0.cst main_call0.v0 (broadcastInDim S150000x64 ![] bcast_S_S150000x64),
    StableHlo.TRef.binary (.of main_v22 : StableHlo.TRef sig ⟨S150000x64, .f32⟩) main_call0.v0 main_call0.v1 (cmpf .oge),
    StableHlo.TRef.nullary main_call0.cst_0 (constant S_ .f32 0x3C23D70A#32),
    StableHlo.TRef.unary main_call0.cst_0 main_call0.v2 (broadcastInDim S150000x64 ![] bcast_S_S150000x64),
    StableHlo.TRef.binary main_call0.v2 (.of main_v22 : StableHlo.TRef sig ⟨S150000x64, .f32⟩) main_call0.v3 mulf,
    StableHlo.TRef.ternary main_call0.v1 (.of main_v22 : StableHlo.TRef sig ⟨S150000x64, .f32⟩) main_call0.v3 main_call0.call0.v0 select,
    StableHlo.binary main_v0 main_v13 main_v24 (mulf : (⟨S150000x64, .f32⟩ : BufTy).Contents (Elt F) → (⟨S150000x64, .f32⟩ : BufTy).Contents (Elt F) → (⟨S150000x64, .f32⟩ : BufTy).Contents (Elt F)),
    StableHlo.unary main_arg7 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.unary main_v26 main_v27 ((transpose S64x64 [1, 0] · transposes_S64x64_S64x64_1_0) : (⟨S64x64, .f32⟩ : BufTy).Contents (Elt F) → (⟨S64x64, .f32⟩ : BufTy).Contents (Elt F)),
    StableHlo.binary main_v24 main_v27 main_v28 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S150000x64 ![0, 1] bcast_S1x64_S150000x64_0_1 : (⟨S1x64, .f32⟩ : BufTy).Contents (Elt F) → (⟨S150000x64, .f32⟩ : BufTy).Contents (Elt F)),
    StableHlo.binary main_v28 main_v32 main_v33 (addf : (⟨S150000x64, .f32⟩ : BufTy).Contents (Elt F) → (⟨S150000x64, .f32⟩ : BufTy).Contents (Elt F) → (⟨S150000x64, .f32⟩ : BufTy).Contents (Elt F)),
    StableHlo.TRef.nullary main_call1.cst (constant S_ .f32 0x00000000#32),
    StableHlo.TRef.unary main_call1.cst main_call1.v0 (broadcastInDim S150000x64 ![] bcast_S_S150000x64),
    StableHlo.TRef.binary (.of main_v33 : StableHlo.TRef sig ⟨S150000x64, .f32⟩) main_call1.v0 main_call1.v1 (cmpf .oge),
    StableHlo.TRef.nullary main_call1.cst_0 (constant S_ .f32 0x3C23D70A#32),
    StableHlo.TRef.unary main_call1.cst_0 main_call1.v2 (broadcastInDim S150000x64 ![] bcast_S_S150000x64),
    StableHlo.TRef.binary main_call1.v2 (.of main_v33 : StableHlo.TRef sig ⟨S150000x64, .f32⟩) main_call1.v3 mulf,
    StableHlo.TRef.ternary main_call1.v1 (.of main_v33 : StableHlo.TRef sig ⟨S150000x64, .f32⟩) main_call1.v3 main_call1.call0.v0 select,
    StableHlo.binary main_v23 main_v34 main_v35 (addf : (⟨S150000x64, .f32⟩ : BufTy).Contents (Elt F) → (⟨S150000x64, .f32⟩ : BufTy).Contents (Elt F) → (⟨S150000x64, .f32⟩ : BufTy).Contents (Elt F)) ]

/-- The first layer's rows scaled to unit length: the operations that write `main_v36` … `main_v43`. -/
abbrev N1 : List (HloOp τ sig (Elt F)) :=
  [ StableHlo.binary main_v35 main_v35 main_v36 (mulf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x00000000#32),
    StableHlo.binary main_v36 main_cst_1 main_v37 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v37 main_v38 (broadcastInDim S150000x1 ![0] bcast_S150000_S150000x1_0 : (⟨S150000, .f32⟩ : BufTy).Contents (Elt F) → (⟨S150000x1, .f32⟩ : BufTy).Contents (Elt F)),
    StableHlo.unary main_v38 main_v39 (Host.sqrt : (⟨S150000x1, .f32⟩ : BufTy).Contents (Elt F) → (⟨S150000x1, .f32⟩ : BufTy).Contents (Elt F)),
    StableHlo.nullary main_cst_2 (constant S_ .f32 0x2B8CBCCC#32),
    StableHlo.unary main_cst_2 main_v40 (broadcastInDim S150000x1 ![] bcast_S_S150000x1 : (⟨S_, .f32⟩ : BufTy).Contents (Elt F) → (⟨S150000x1, .f32⟩ : BufTy).Contents (Elt F)),
    StableHlo.binary main_v39 main_v40 main_v41 (maximumf : (⟨S150000x1, .f32⟩ : BufTy).Contents (Elt F) → (⟨S150000x1, .f32⟩ : BufTy).Contents (Elt F) → (⟨S150000x1, .f32⟩ : BufTy).Contents (Elt F)),
    StableHlo.unary main_v41 main_v42 (broadcastInDim S150000x64 ![0, 1] bcast_S150000x1_S150000x64_0_1 : (⟨S150000x1, .f32⟩ : BufTy).Contents (Elt F) → (⟨S150000x64, .f32⟩ : BufTy).Contents (Elt F)),
    StableHlo.binary main_v35 main_v42 main_v43 (Host.divf : (⟨S150000x64, .f32⟩ : BufTy).Contents (Elt F) → (⟨S150000x64, .f32⟩ : BufTy).Contents (Elt F) → (⟨S150000x64, .f32⟩ : BufTy).Contents (Elt F)) ]

/-- The second layer's edge indices and edge weights: the operations that write `main_v44` … `main_v52`. -/
abbrev C2a : List (HloOp τ sig (Elt F)) :=
  [ StableHlo.unary main_arg2 main_v44 (broadcastInDim S2400000x1 ![0] bcast_S2400000_S2400000x1_0 : (⟨S2400000, .f32⟩ : BufTy).Contents (Elt F) → (⟨S2400000x1, .f32⟩ : BufTy).Contents (Elt F)),
    StableHlo.nullary main_c_3 (constantI S_ 32 0#32),
    StableHlo.unary main_c_3 main_v45 (broadcastInDim S2400000 ![] bcast_S_S2400000 : (⟨S_, .i32⟩ : BufTy).Contents (Elt F) → (⟨S2400000, .i32⟩ : BufTy).Contents (Elt F)),
    StableHlo.binary main_arg0 main_v45 main_v46 (cmpi .slt : (⟨S2400000, .i32⟩ : BufTy).Contents (Elt F) → (⟨S2400000, .i32⟩ : BufTy).Contents (Elt F) → (⟨S2400000, .i1⟩ : BufTy).Contents (Elt F)),
    StableHlo.nullary main_c_4 (constantI S_ 32 150000#32),
    StableHlo.unary main_c_4 main_v47 (broadcastInDim S2400000 ![] bcast_S_S2400000 : (⟨S_, .i32⟩ : BufTy).Contents (Elt F) → (⟨S2400000, .i32⟩ : BufTy).Contents (Elt F)),
    StableHlo.binary main_arg0 main_v47 main_v48 (addi : (⟨S2400000, .i32⟩ : BufTy).Contents (Elt F) → (⟨S2400000, .i32⟩ : BufTy).Contents (Elt F) → (⟨S2400000, .i32⟩ : BufTy).Contents (Elt F)),
    StableHlo.ternary main_v46 main_v48 main_arg0 main_v49 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v49 main_v50 (broadcastInDim S2400000x1 ![0] bcast_S2400000_S2400000x1_0 : (⟨S2400000, .i32⟩ : BufTy).Contents (Elt F) → (⟨S2400000x1, .i32⟩ : BufTy).Contents (Elt F)),
    StableHlo.binary main_v35 main_v50 main_v51 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v44 main_v52 (broadcastInDim S2400000x64 ![0, 1] bcast_S2400000x1_S2400000x64_0_1 : (⟨S2400000x1, .f32⟩ : BufTy).Contents (Elt F) → (⟨S2400000x64, .f32⟩ : BufTy).Contents (Elt F)) ]

/-- The rest of the second layer's node embeddings: the operations that write `main_v53` … `main_v78`. -/
abbrev C2b : List (HloOp τ sig (Elt F)) :=
  [ StableHlo.binary main_v52 main_v51 main_v53 (mulf : (⟨S2400000x64, .f32⟩ : BufTy).Contents (Elt F) → (⟨S2400000x64, .f32⟩ : BufTy).Contents (Elt F) → (⟨S2400000x64, .f32⟩ : BufTy).Contents (Elt F)),
    StableHlo.nullary main_cst_5 (constant S_ .f32 0x00000000#32),
    StableHlo.unary main_cst_5 main_v54 (broadcastInDim S150000x64 ![] bcast_S_S150000x64 : (⟨S_, .f32⟩ : BufTy).Contents (Elt F) → (⟨S150000x64, .f32⟩ : BufTy).Contents (Elt F)),
    StableHlo.unary main_arg1 main_v55 (broadcastInDim S2400000x1 ![0] bcast_S2400000_S2400000x1_0 : (⟨S2400000, .i32⟩ : BufTy).Contents (Elt F) → (⟨S2400000x1, .i32⟩ : BufTy).Contents (Elt F)),
    StableHlo.ternary main_v54 main_v55 main_v53 main_v56 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg5 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v57 main_v58 rfl shapeCasts_S1x64x64_S64x64,
    StableHlo.unary main_v58 main_v59 ((transpose S64x64 [1, 0] · transposes_S64x64_S64x64_1_0) : (⟨S64x64, .f32⟩ : BufTy).Contents (Elt F) → (⟨S64x64, .f32⟩ : BufTy).Contents (Elt F)),
    StableHlo.binary main_v56 main_v59 main_v60 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg6 main_v61 ((extractStridedSlice S1x64 ![1, 0] · slices_S3x64_S1x64_1_0) : (⟨S3x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S150000x64 ![0, 1] bcast_S1x64_S150000x64_0_1 : (⟨S1x64, .f32⟩ : BufTy).Contents (Elt F) → (⟨S150000x64, .f32⟩ : BufTy).Contents (Elt F)),
    StableHlo.binary main_v60 main_v64 main_v65 (addf : (⟨S150000x64, .f32⟩ : BufTy).Contents (Elt F) → (⟨S150000x64, .f32⟩ : BufTy).Contents (Elt F) → (⟨S150000x64, .f32⟩ : BufTy).Contents (Elt F)),
    StableHlo.TRef.nullary main_call2.cst (constant S_ .f32 0x00000000#32),
    StableHlo.TRef.unary main_call2.cst main_call2.v0 (broadcastInDim S150000x64 ![] bcast_S_S150000x64),
    StableHlo.TRef.binary (.of main_v65 : StableHlo.TRef sig ⟨S150000x64, .f32⟩) main_call2.v0 main_call2.v1 (cmpf .oge),
    StableHlo.TRef.nullary main_call2.cst_0 (constant S_ .f32 0x3C23D70A#32),
    StableHlo.TRef.unary main_call2.cst_0 main_call2.v2 (broadcastInDim S150000x64 ![] bcast_S_S150000x64),
    StableHlo.TRef.binary main_call2.v2 (.of main_v65 : StableHlo.TRef sig ⟨S150000x64, .f32⟩) main_call2.v3 mulf,
    StableHlo.TRef.ternary main_call2.v1 (.of main_v65 : StableHlo.TRef sig ⟨S150000x64, .f32⟩) main_call2.v3 main_call2.call0.v0 select,
    StableHlo.binary main_v35 main_v56 main_v67 (mulf : (⟨S150000x64, .f32⟩ : BufTy).Contents (Elt F) → (⟨S150000x64, .f32⟩ : BufTy).Contents (Elt F) → (⟨S150000x64, .f32⟩ : BufTy).Contents (Elt F)),
    StableHlo.unary main_arg7 main_v68 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v68 main_v69 rfl shapeCasts_S1x64x64_S64x64,
    StableHlo.unary main_v69 main_v70 ((transpose S64x64 [1, 0] · transposes_S64x64_S64x64_1_0) : (⟨S64x64, .f32⟩ : BufTy).Contents (Elt F) → (⟨S64x64, .f32⟩ : BufTy).Contents (Elt F)),
    StableHlo.binary main_v67 main_v70 main_v71 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v72 ((extractStridedSlice S1x64 ![1, 0] · slices_S3x64_S1x64_1_0) : (⟨S3x64, .f32⟩ : BufTy).Contents (Elt F) → (⟨S1x64, .f32⟩ : BufTy).Contents (Elt F)),
    StableHlo.reshape main_v72 main_v73 rfl shapeCasts_S1x64_S64,
    StableHlo.unary main_v73 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S150000x64 ![0, 1] bcast_S1x64_S150000x64_0_1 : (⟨S1x64, .f32⟩ : BufTy).Contents (Elt F) → (⟨S150000x64, .f32⟩ : BufTy).Contents (Elt F)),
    StableHlo.binary main_v71 main_v75 main_v76 (addf : (⟨S150000x64, .f32⟩ : BufTy).Contents (Elt F) → (⟨S150000x64, .f32⟩ : BufTy).Contents (Elt F) → (⟨S150000x64, .f32⟩ : BufTy).Contents (Elt F)),
    StableHlo.TRef.nullary main_call3.cst (constant S_ .f32 0x00000000#32),
    StableHlo.TRef.unary main_call3.cst main_call3.v0 (broadcastInDim S150000x64 ![] bcast_S_S150000x64),
    StableHlo.TRef.binary (.of main_v76 : StableHlo.TRef sig ⟨S150000x64, .f32⟩) main_call3.v0 main_call3.v1 (cmpf .oge),
    StableHlo.TRef.nullary main_call3.cst_0 (constant S_ .f32 0x3C23D70A#32),
    StableHlo.TRef.unary main_call3.cst_0 main_call3.v2 (broadcastInDim S150000x64 ![] bcast_S_S150000x64),
    StableHlo.TRef.binary main_call3.v2 (.of main_v76 : StableHlo.TRef sig ⟨S150000x64, .f32⟩) main_call3.v3 mulf,
    StableHlo.TRef.ternary main_call3.v1 (.of main_v76 : StableHlo.TRef sig ⟨S150000x64, .f32⟩) main_call3.v3 main_call3.call0.v0 select,
    StableHlo.binary main_v66 main_v77 main_v78 (addf : (⟨S150000x64, .f32⟩ : BufTy).Contents (Elt F) → (⟨S150000x64, .f32⟩ : BufTy).Contents (Elt F) → (⟨S150000x64, .f32⟩ : BufTy).Contents (Elt F)) ]

/-- The second layer's rows scaled to unit length: the operations that write `main_v79` … `main_v86`. -/
abbrev N2 : List (HloOp τ sig (Elt F)) :=
  [ StableHlo.binary main_v78 main_v78 main_v79 (mulf : (⟨S150000x64, .f32⟩ : BufTy).Contents (Elt F) → (⟨S150000x64, .f32⟩ : BufTy).Contents (Elt F) → (⟨S150000x64, .f32⟩ : BufTy).Contents (Elt F)),
    StableHlo.nullary main_cst_6 (constant S_ .f32 0x00000000#32),
    StableHlo.binary main_v79 main_cst_6 main_v80 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v80 main_v81 (broadcastInDim S150000x1 ![0] bcast_S150000_S150000x1_0 : (⟨S150000, .f32⟩ : BufTy).Contents (Elt F) → (⟨S150000x1, .f32⟩ : BufTy).Contents (Elt F)),
    StableHlo.unary main_v81 main_v82 (Host.sqrt : (⟨S150000x1, .f32⟩ : BufTy).Contents (Elt F) → (⟨S150000x1, .f32⟩ : BufTy).Contents (Elt F)),
    StableHlo.nullary main_cst_7 (constant S_ .f32 0x2B8CBCCC#32),
    StableHlo.unary main_cst_7 main_v83 (broadcastInDim S150000x1 ![] bcast_S_S150000x1 : (⟨S_, .f32⟩ : BufTy).Contents (Elt F) → (⟨S150000x1, .f32⟩ : BufTy).Contents (Elt F)),
    StableHlo.binary main_v82 main_v83 main_v84 (maximumf : (⟨S150000x1, .f32⟩ : BufTy).Contents (Elt F) → (⟨S150000x1, .f32⟩ : BufTy).Contents (Elt F) → (⟨S150000x1, .f32⟩ : BufTy).Contents (Elt F)),
    StableHlo.unary main_v84 main_v85 (broadcastInDim S150000x64 ![0, 1] bcast_S150000x1_S150000x64_0_1 : (⟨S150000x1, .f32⟩ : BufTy).Contents (Elt F) → (⟨S150000x64, .f32⟩ : BufTy).Contents (Elt F)),
    StableHlo.binary main_v78 main_v85 main_v86 (Host.divf : (⟨S150000x64, .f32⟩ : BufTy).Contents (Elt F) → (⟨S150000x64, .f32⟩ : BufTy).Contents (Elt F) → (⟨S150000x64, .f32⟩ : BufTy).Contents (Elt F)) ]

/-- The third layer up to its first bias row: the operations that write `main_v87` … `main_v106`. -/
abbrev C3a : List (HloOp τ sig (Elt F)) :=
  [ StableHlo.unary main_arg2 main_v87 (broadcastInDim S2400000x1 ![0] bcast_S2400000_S2400000x1_0 : (⟨S2400000, .f32⟩ : BufTy).Contents (Elt F) → (⟨S2400000x1, .f32⟩ : BufTy).Contents (Elt F)),
    StableHlo.nullary main_c_8 (constantI S_ 32 0#32),
    StableHlo.unary main_c_8 main_v88 (broadcastInDim S2400000 ![] bcast_S_S2400000 : (⟨S_, .i32⟩ : BufTy).Contents (Elt F) → (⟨S2400000, .i32⟩ : BufTy).Contents (Elt F)),
    StableHlo.binary main_arg0 main_v88 main_v89 (cmpi .slt : (⟨S2400000, .i32⟩ : BufTy).Contents (Elt F) → (⟨S2400000, .i32⟩ : BufTy).Contents (Elt F) → (⟨S2400000, .i1⟩ : BufTy).Contents (Elt F)),
    StableHlo.nullary main_c_9 (constantI S_ 32 150000#32),
    StableHlo.unary main_c_9 main_v90 (broadcastInDim S2400000 ![] bcast_S_S2400000 : (⟨S_, .i32⟩ : BufTy).Contents (Elt F) → (⟨S2400000, .i32⟩ : BufTy).Contents (Elt F)),
    StableHlo.binary main_arg0 main_v90 main_v91 (addi : (⟨S2400000, .i32⟩ : BufTy).Contents (Elt F) → (⟨S2400000, .i32⟩ : BufTy).Contents (Elt F) → (⟨S2400000, .i32⟩ : BufTy).Contents (Elt F)),
    StableHlo.ternary main_v89 main_v91 main_arg0 main_v92 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v92 main_v93 (broadcastInDim S2400000x1 ![0] bcast_S2400000_S2400000x1_0 : (⟨S2400000, .i32⟩ : BufTy).Contents (Elt F) → (⟨S2400000x1, .i32⟩ : BufTy).Contents (Elt F)),
    StableHlo.binary main_v78 main_v93 main_v94 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v87 main_v95 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v95 main_v94 main_v96 (mulf : (⟨S2400000x64, .f32⟩ : BufTy).Contents (Elt F) → (⟨S2400000x64, .f32⟩ : BufTy).Contents (Elt F) → (⟨S2400000x64, .f32⟩ : BufTy).Contents (Elt F)),
    StableHlo.nullary main_cst_10 (constant S_ .f32 0x00000000#32),
    StableHlo.unary main_cst_10 main_v97 (broadcastInDim S150000x64 ![] bcast_S_S150000x64 : (⟨S_, .f32⟩ : BufTy).Contents (Elt F) → (⟨S150000x64, .f32⟩ : BufTy).Contents (Elt F)),
    StableHlo.unary main_arg1 main_v98 (broadcastInDim S2400000x1 ![0] bcast_S2400000_S2400000x1_0 : (⟨S2400000, .i32⟩ : BufTy).Contents (Elt F) → (⟨S2400000x1, .i32⟩ : BufTy).Contents (Elt F)),
    StableHlo.ternary main_v97 main_v98 main_v96 main_v99 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg5 main_v100 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v100 main_v101 rfl shapeCasts_S1x64x64_S64x64,
    StableHlo.unary main_v101 main_v102 ((transpose S64x64 [1, 0] · transposes_S64x64_S64x64_1_0) : (⟨S64x64, .f32⟩ : BufTy).Contents (Elt F) → (⟨S64x64, .f32⟩ : BufTy).Contents (Elt F)),
    StableHlo.binary main_v99 main_v102 main_v103 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg6 main_v104 ((extractStridedSlice S1x64 ![2, 0] · slices_S3x64_S1x64_2_0) : (⟨S3x64, .f32⟩ : BufTy).Contents (Elt F) → (⟨S1x64, .f32⟩ : BufTy).Contents (Elt F)),
    StableHlo.reshape main_v104 main_v105 rfl shapeCasts_S1x64_S64,
    StableHlo.unary main_v105 main_v106 (broadcastInDim S1x64 ![1] bcast_S64_S1x64_1 : (⟨S64, .f32⟩ : BufTy).Contents (Elt F) → (⟨S1x64, .f32⟩ : BufTy).Contents (Elt F)) ]

/-- The rest of the third layer's node embeddings: the operations that write `main_v107` … `main_v121`. -/
abbrev C3b : List (HloOp τ sig (Elt F)) :=
  [ StableHlo.unary main_v106 main_v107 (broadcastInDim S150000x64 ![0, 1] bcast_S1x64_S150000x64_0_1 : (⟨S1x64, .f32⟩ : BufTy).Contents (Elt F) → (⟨S150000x64, .f32⟩ : BufTy).Contents (Elt F)),
    StableHlo.binary main_v103 main_v107 main_v108 (addf : (⟨S150000x64, .f32⟩ : BufTy).Contents (Elt F) → (⟨S150000x64, .f32⟩ : BufTy).Contents (Elt F) → (⟨S150000x64, .f32⟩ : BufTy).Contents (Elt F)),
    StableHlo.TRef.nullary main_call4.cst (constant S_ .f32 0x00000000#32),
    StableHlo.TRef.unary main_call4.cst main_call4.v0 (broadcastInDim S150000x64 ![] bcast_S_S150000x64),
    StableHlo.TRef.binary (.of main_v108 : StableHlo.TRef sig ⟨S150000x64, .f32⟩) main_call4.v0 main_call4.v1 (cmpf .oge),
    StableHlo.TRef.nullary main_call4.cst_0 (constant S_ .f32 0x3C23D70A#32),
    StableHlo.TRef.unary main_call4.cst_0 main_call4.v2 (broadcastInDim S150000x64 ![] bcast_S_S150000x64),
    StableHlo.TRef.binary main_call4.v2 (.of main_v108 : StableHlo.TRef sig ⟨S150000x64, .f32⟩) main_call4.v3 mulf,
    StableHlo.TRef.ternary main_call4.v1 (.of main_v108 : StableHlo.TRef sig ⟨S150000x64, .f32⟩) main_call4.v3 main_call4.call0.v0 select,
    StableHlo.binary main_v78 main_v99 main_v110 (mulf : (⟨S150000x64, .f32⟩ : BufTy).Contents (Elt F) → (⟨S150000x64, .f32⟩ : BufTy).Contents (Elt F) → (⟨S150000x64, .f32⟩ : BufTy).Contents (Elt F)),
    StableHlo.unary main_arg7 main_v111 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v111 main_v112 rfl shapeCasts_S1x64x64_S64x64,
    StableHlo.unary main_v112 main_v113 ((transpose S64x64 [1, 0] · transposes_S64x64_S64x64_1_0) : (⟨S64x64, .f32⟩ : BufTy).Contents (Elt F) → (⟨S64x64, .f32⟩ : BufTy).Contents (Elt F)),
    StableHlo.binary main_v110 main_v113 main_v114 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v115 ((extractStridedSlice S1x64 ![2, 0] · slices_S3x64_S1x64_2_0) : (⟨S3x64, .f32⟩ : BufTy).Contents (Elt F) → (⟨S1x64, .f32⟩ : BufTy).Contents (Elt F)),
    StableHlo.reshape main_v115 main_v116 rfl shapeCasts_S1x64_S64,
    StableHlo.unary main_v116 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S150000x64 ![0, 1] bcast_S1x64_S150000x64_0_1 : (⟨S1x64, .f32⟩ : BufTy).Contents (Elt F) → (⟨S150000x64, .f32⟩ : BufTy).Contents (Elt F)),
    StableHlo.binary main_v114 main_v118 main_v119 (addf : (⟨S150000x64, .f32⟩ : BufTy).Contents (Elt F) → (⟨S150000x64, .f32⟩ : BufTy).Contents (Elt F) → (⟨S150000x64, .f32⟩ : BufTy).Contents (Elt F)),
    StableHlo.TRef.nullary main_call5.cst (constant S_ .f32 0x00000000#32),
    StableHlo.TRef.unary main_call5.cst main_call5.v0 (broadcastInDim S150000x64 ![] bcast_S_S150000x64),
    StableHlo.TRef.binary (.of main_v119 : StableHlo.TRef sig ⟨S150000x64, .f32⟩) main_call5.v0 main_call5.v1 (cmpf .oge),
    StableHlo.TRef.nullary main_call5.cst_0 (constant S_ .f32 0x3C23D70A#32),
    StableHlo.TRef.unary main_call5.cst_0 main_call5.v2 (broadcastInDim S150000x64 ![] bcast_S_S150000x64),
    StableHlo.TRef.binary main_call5.v2 (.of main_v119 : StableHlo.TRef sig ⟨S150000x64, .f32⟩) main_call5.v3 mulf,
    StableHlo.TRef.ternary main_call5.v1 (.of main_v119 : StableHlo.TRef sig ⟨S150000x64, .f32⟩) main_call5.v3 main_call5.call0.v0 select,
    StableHlo.binary main_v109 main_v120 main_v121 (addf : (⟨S150000x64, .f32⟩ : BufTy).Contents (Elt F) → (⟨S150000x64, .f32⟩ : BufTy).Contents (Elt F) → (⟨S150000x64, .f32⟩ : BufTy).Contents (Elt F)) ]

/-- The third layer's rows scaled to unit length: the operations that write `main_v122` … `main_v129`. -/
abbrev N3 : List (HloOp τ sig (Elt F)) :=
  [ StableHlo.binary main_v121 main_v121 main_v122 (mulf : (⟨S150000x64, .f32⟩ : BufTy).Contents (Elt F) → (⟨S150000x64, .f32⟩ : BufTy).Contents (Elt F) → (⟨S150000x64, .f32⟩ : BufTy).Contents (Elt F)),
    StableHlo.nullary main_cst_11 (constant S_ .f32 0x00000000#32),
    StableHlo.binary main_v122 main_cst_11 main_v123 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v123 main_v124 (broadcastInDim S150000x1 ![0] bcast_S150000_S150000x1_0 : (⟨S150000, .f32⟩ : BufTy).Contents (Elt F) → (⟨S150000x1, .f32⟩ : BufTy).Contents (Elt F)),
    StableHlo.unary main_v124 main_v125 (Host.sqrt : (⟨S150000x1, .f32⟩ : BufTy).Contents (Elt F) → (⟨S150000x1, .f32⟩ : BufTy).Contents (Elt F)),
    StableHlo.nullary main_cst_12 (constant S_ .f32 0x2B8CBCCC#32),
    StableHlo.unary main_cst_12 main_v126 (broadcastInDim S150000x1 ![] bcast_S_S150000x1 : (⟨S_, .f32⟩ : BufTy).Contents (Elt F) → (⟨S150000x1, .f32⟩ : BufTy).Contents (Elt F)),
    StableHlo.binary main_v125 main_v126 main_v127 (maximumf : (⟨S150000x1, .f32⟩ : BufTy).Contents (Elt F) → (⟨S150000x1, .f32⟩ : BufTy).Contents (Elt F) → (⟨S150000x1, .f32⟩ : BufTy).Contents (Elt F)),
    StableHlo.unary main_v127 main_v128 (broadcastInDim S150000x64 ![0, 1] bcast_S150000x1_S150000x64_0_1 : (⟨S150000x1, .f32⟩ : BufTy).Contents (Elt F) → (⟨S150000x64, .f32⟩ : BufTy).Contents (Elt F)),
    StableHlo.binary main_v121 main_v128 main_v129 (Host.divf : (⟨S150000x64, .f32⟩ : BufTy).Contents (Elt F) → (⟨S150000x64, .f32⟩ : BufTy).Contents (Elt F) → (⟨S150000x64, .f32⟩ : BufTy).Contents (Elt F)) ]

/-- The four tables side by side and the two row ranges returned: the operations that write `main_v130`, `main_v131`, `main_v132`. -/
abbrev C4 : List (HloOp τ sig (Elt F)) :=
  [ StableHlo.nary ![main_v0, main_v43, main_v86, main_v129] main_v130 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v130 main_v131 ((extractStridedSlice S50000x256 ![0, 0] · slices_S150000x256_S50000x256_0_0) : (⟨S150000x256, .f32⟩ : BufTy).Contents (Elt F) → (⟨S50000x256, .f32⟩ : BufTy).Contents (Elt F)),
    StableHlo.unary main_v130 main_v132 ((extractStridedSlice S100000x256 ![50000, 0] · slices_S150000x256_S100000x256_50000_0) : (⟨S150000x256, .f32⟩ : BufTy).Contents (Elt F) → (⟨S100000x256, .f32⟩ : BufTy).Contents (Elt F)) ]

/-! ## The program is the line -/

set_option maxRecDepth 8192 in
set_option maxHeartbeats 4000000 in
theorem main_part0_eq (c : Dev nD) : main_part0 (F := F) c = seq (A1 ++ (N1 ++ C2a)) := rfl

set_option maxRecDepth 8192 in
set_option maxHeartbeats 4000000 in
theorem main_part1_eq (c : Dev nD) : main_part1 (F := F) c = seq (C2b ++ (N2 ++ C3a)) := rfl

set_option maxRecDepth 8192 in
set_option maxHeartbeats 4000000 in
theorem main_part2_eq (c : Dev nD) : main_part2 (F := F) c = seq (C3b ++ (N3 ++ C4)) := rfl

/-- The whole program's operations, layer by layer. -/
abbrev ops : List (HloOp τ sig (Elt F)) := A1 ++ (N1 ++ ((C2a ++ C2b) ++ (N2 ++ ((C3a ++ C3b) ++ (N3 ++ C4)))))

/-- The program is that straight line: its three windows are lines, run one after the other, and lines in a row are their concatenation. -/
theorem main_eq (c : Dev nD) : main (F := F) c = seq ops := by
  have e : (ops : List (HloOp τ sig (Elt F))) = (A1 ++ (N1 ++ C2a)) ++ ((C2b ++ (N2 ++ C3a)) ++ (C3b ++ (N3 ++ C4))) := by
    simp only [ops, List.append_assoc]
  rw [e, seq_append (A1 ++ (N1 ++ C2a)) _, seq_append (C2b ++ (N2 ++ C3a)) (C3b ++ (N3 ++ C4)), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem A1_sub : (A1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
set_option maxRecDepth 8192 in
theorem A1_fresh : (A1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem N1_sub : (N1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem N1_fresh : (N1 : List (HloOp τ sig (Elt F))).Forall fun op => op.fresh = ∅ :=
  ⟨rfl, rfl, rfl, rfl, rfl, rfl, rfl, rfl, rfl, rfl⟩

set_option maxRecDepth 8192 in
theorem C2a_sub : (C2a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
set_option maxRecDepth 8192 in
theorem C2a_fresh : (C2a : List (HloOp τ sig (Elt F))).Forall fun op => op.fresh = ∅ :=
  ⟨rfl, rfl, rfl, rfl, rfl, rfl, rfl, rfl, rfl, rfl, rfl⟩

set_option maxRecDepth 8192 in
theorem C2b_sub : (C2b : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
set_option maxRecDepth 8192 in
theorem C2b_fresh : (C2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem N2_sub : (N2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem N2_fresh : (N2 : List (HloOp τ sig (Elt F))).Forall fun op => op.fresh = ∅ :=
  ⟨rfl, rfl, rfl, rfl, rfl, rfl, rfl, rfl, rfl, rfl⟩

set_option maxRecDepth 8192 in
theorem C3a_sub : (C3a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub ..⟩
set_option maxRecDepth 8192 in
theorem C3a_fresh : (C3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem C3b_sub : (C3b : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
set_option maxRecDepth 8192 in
theorem C3b_fresh : (C3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem N3_sub : (N3 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem N3_fresh : (N3 : List (HloOp τ sig (Elt F))).Forall fun op => op.fresh = ∅ :=
  ⟨rfl, rfl, rfl, rfl, rfl, rfl, rfl, rfl, rfl, rfl⟩

set_option maxRecDepth 8192 in
theorem C4_sub : (C4 : List (HloOp τ sig (Elt F))).Forall fun op => op.bufs ⊆ tcRefs τ sig :=
  ⟨nary_bufs_sub .., unary_bufs_sub .., unary_bufs_sub ..⟩
set_option maxRecDepth 8192 in
theorem C4_fresh : (C4 : List (HloOp τ sig (Elt F))).Forall fun op => op.fresh = ∅ :=
  ⟨rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | (h | h) | h | (h | h) | h | h
    exacts [List.forall_iff_forall_mem.mp A1_sub op h,
      List.forall_iff_forall_mem.mp N1_sub op h,
      List.forall_iff_forall_mem.mp C2a_sub op h,
      List.forall_iff_forall_mem.mp C2b_sub op h,
      List.forall_iff_forall_mem.mp N2_sub op h,
      List.forall_iff_forall_mem.mp C3a_sub op h,
      List.forall_iff_forall_mem.mp C3b_sub op h,
      List.forall_iff_forall_mem.mp N3_sub op h,
      List.forall_iff_forall_mem.mp C4_sub op h]

theorem ops_fresh : ∀ op ∈ (ops : List (HloOp τ sig (Elt F))), op.fresh = ∅ := fun op h => by
    simp only [ops, List.mem_append] at h
    rcases h with h | h | (h | h) | h | (h | h) | h | h
    exacts [List.forall_iff_forall_mem.mp A1_fresh op h,
      List.forall_iff_forall_mem.mp N1_fresh op h,
      List.forall_iff_forall_mem.mp C2a_fresh op h,
      List.forall_iff_forall_mem.mp C2b_fresh op h,
      List.forall_iff_forall_mem.mp N2_fresh op h,
      List.forall_iff_forall_mem.mp C3a_fresh op h,
      List.forall_iff_forall_mem.mp C3b_fresh op h,
      List.forall_iff_forall_mem.mp N3_fresh op h,
      List.forall_iff_forall_mem.mp C4_fresh op h]

/-- From any memory with zero counters every weakly fair execution of the program terminates, each buffer at the fold of the
    operations over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold of the whole line is the folds of its stretches, in order. -/
theorem after_ops (V : Valuation τ sig (Elt F)) :
    after ops V = after C4 (after N3 (after (C3a ++ C3b) (after N2 (after (C2a ++ C2b) (after N1 (after A1 V)))))) := by
  simp only [ops, StableHlo.after_append]

/-! ## What each stretch of the line leaves alone -/

/-- Two lines in a row write what either writes. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op h => by
    rcases List.mem_append.mp h with h | h
    · exact (List.forall_iff_forall_mem.mp h₁ op h).trans (by
        intro x hx; simp only [List.map_append, List.toFinset_append, Finset.mem_union]; exact Or.inl hx)
    · exact (List.forall_iff_forall_mem.mp h₂ op h).trans (by
        intro x hx; simp only [List.map_append, List.toFinset_append, Finset.mem_union]; exact Or.inr hx)

/-- An operation writes its result buffer, which is in the list. -/
local macro "writes_one" : tactic =>
  `(tactic| (simp only [nullary_writes, unary_writes, binary_writes, ternary_writes, reshape_writes, nary_writes,
      Finset.singleton_subset_iff, List.mem_toFinset]; exact List.mem_map_of_mem (by decide)))

/-- The buffers the operations of `A1` write. -/
abbrev A1_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_call0_cst, main_call0_v0, main_call0_v1, main_call0_cst_0, main_call0_v2, main_call0_v3, main_v23, main_v24, main_v25, main_v26, main_v27, main_v28, main_v29, main_v30, main_v31, main_v32, main_v33, main_call1_cst, main_call1_v0, main_call1_v1, main_call1_cst_0, main_call1_v2, main_call1_v3, main_v34, main_v35]
set_option maxRecDepth 8192 in
theorem A1_writes : (A1 : List (HloOp τ sig (Elt F))).Forall fun op => op.writes ⊆ (A1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- The buffers the operations of `N1` write. -/
abbrev N1_W : List (Ref sig .tc) := [main_v36, main_cst_1, main_v37, main_v38, main_v39, main_cst_2, main_v40, main_v41, main_v42, main_v43]
set_option maxRecDepth 8192 in
theorem N1_writes : (N1 : List (HloOp τ sig (Elt F))).Forall fun op => op.writes ⊆ (N1_W.map (Proc.devRef (τ := τ) .tc)).toFinset := by
  simp only [List.Forall]; exact ⟨by writes_one, by writes_one, by writes_one, by writes_one, by writes_one, by writes_one, by writes_one, by writes_one, by writes_one, by writes_one⟩

/-- The buffers the operations of `C2a` write. -/
abbrev C2a_W : List (Ref sig .tc) := [main_v44, main_c_3, main_v45, main_v46, main_c_4, main_v47, main_v48, main_v49, main_v50, main_v51, main_v52]
set_option maxRecDepth 8192 in
theorem C2a_writes : (C2a : List (HloOp τ sig (Elt F))).Forall fun op => op.writes ⊆ (C2a_W.map (Proc.devRef (τ := τ) .tc)).toFinset := by
  simp only [List.Forall]; exact ⟨by writes_one, by writes_one, by writes_one, by writes_one, by writes_one, by writes_one, by writes_one, by writes_one, by writes_one, by writes_one, by writes_one⟩

/-- The buffers the operations of `C2b` write. -/
abbrev C2b_W : List (Ref sig .tc) := [main_v53, main_cst_5, main_v54, main_v55, main_v56, main_v57, main_v58, main_v59, main_v60, main_v61, main_v62, main_v63, main_v64, main_v65, main_call2_cst, main_call2_v0, main_call2_v1, main_call2_cst_0, main_call2_v2, main_call2_v3, main_v66, main_v67, main_v68, main_v69, main_v70, main_v71, main_v72, main_v73, main_v74, main_v75, main_v76, main_call3_cst, main_call3_v0, main_call3_v1, main_call3_cst_0, main_call3_v2, main_call3_v3, main_v77, main_v78]
set_option maxRecDepth 8192 in
theorem C2b_writes : (C2b : List (HloOp τ sig (Elt F))).Forall fun op => op.writes ⊆ (C2b_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- The buffers the operations of `N2` write. -/
abbrev N2_W : List (Ref sig .tc) := [main_v79, main_cst_6, main_v80, main_v81, main_v82, main_cst_7, main_v83, main_v84, main_v85, main_v86]
set_option maxRecDepth 8192 in
theorem N2_writes : (N2 : List (HloOp τ sig (Elt F))).Forall fun op => op.writes ⊆ (N2_W.map (Proc.devRef (τ := τ) .tc)).toFinset := by
  simp only [List.Forall]; exact ⟨by writes_one, by writes_one, by writes_one, by writes_one, by writes_one, by writes_one, by writes_one, by writes_one, by writes_one, by writes_one⟩

/-- The buffers the operations of `C3a` write. -/
abbrev C3a_W : List (Ref sig .tc) := [main_v87, main_c_8, main_v88, main_v89, main_c_9, main_v90, main_v91, main_v92, main_v93, main_v94, main_v95, main_v96, main_cst_10, main_v97, main_v98, main_v99, main_v100, main_v101, main_v102, main_v103, main_v104, main_v105, main_v106]
set_option maxRecDepth 8192 in
theorem C3a_writes : (C3a : List (HloOp τ sig (Elt F))).Forall fun op => op.writes ⊆ (C3a_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- The buffers the operations of `C3b` write. -/
abbrev C3b_W : List (Ref sig .tc) := [main_v107, main_v108, main_call4_cst, main_call4_v0, main_call4_v1, main_call4_cst_0, main_call4_v2, main_call4_v3, main_v109, main_v110, main_v111, main_v112, main_v113, main_v114, main_v115, main_v116, main_v117, main_v118, main_v119, main_call5_cst, main_call5_v0, main_call5_v1, main_call5_cst_0, main_call5_v2, main_call5_v3, main_v120, main_v121]
set_option maxRecDepth 8192 in
theorem C3b_writes : (C3b : List (HloOp τ sig (Elt F))).Forall fun op => op.writes ⊆ (C3b_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- The buffers the operations of `N3` write. -/
abbrev N3_W : List (Ref sig .tc) := [main_v122, main_cst_11, main_v123, main_v124, main_v125, main_cst_12, main_v126, main_v127, main_v128, main_v129]
set_option maxRecDepth 8192 in
theorem N3_writes : (N3 : List (HloOp τ sig (Elt F))).Forall fun op => op.writes ⊆ (N3_W.map (Proc.devRef (τ := τ) .tc)).toFinset := by
  simp only [List.Forall]; exact ⟨by writes_one, by writes_one, by writes_one, by writes_one, by writes_one, by writes_one, by writes_one, by writes_one, by writes_one, by writes_one⟩

/-- The buffers the operations of `C4` write. -/
abbrev C4_W : List (Ref sig .tc) := [main_v130, main_v131, main_v132]
set_option maxRecDepth 8192 in
theorem C4_writes : (C4 : List (HloOp τ sig (Elt F))).Forall fun op => op.writes ⊆ (C4_W.map (Proc.devRef (τ := τ) .tc)).toFinset := by
  simp only [List.Forall]; exact ⟨by writes_one, by writes_one, by writes_one⟩

/-- A buffer a stretch does not write keeps its contents through it. -/
theorem A1_keep (V : Valuation τ sig (Elt F)) (r : Ref sig .tc) (h : r ∉ A1_W) :
    after A1 V (Proc.devRef .tc r) = V (Proc.devRef .tc r) := after_of_writes_sub A1 V A1_writes h
theorem N1_keep (V : Valuation τ sig (Elt F)) (r : Ref sig .tc) (h : r ∉ N1_W) :
    after N1 V (Proc.devRef .tc r) = V (Proc.devRef .tc r) := after_of_writes_sub N1 V N1_writes h
theorem E2_keep (V : Valuation τ sig (Elt F)) (r : Ref sig .tc) (h : r ∉ C2a_W ++ C2b_W) :
    after (C2a ++ C2b) V (Proc.devRef .tc r) = V (Proc.devRef .tc r) := after_of_writes_sub _ V (writes_append C2a_writes C2b_writes) h
theorem N2_keep (V : Valuation τ sig (Elt F)) (r : Ref sig .tc) (h : r ∉ N2_W) :
    after N2 V (Proc.devRef .tc r) = V (Proc.devRef .tc r) := after_of_writes_sub N2 V N2_writes h
theorem E3_keep (V : Valuation τ sig (Elt F)) (r : Ref sig .tc) (h : r ∉ C3a_W ++ C3b_W) :
    after (C3a ++ C3b) V (Proc.devRef .tc r) = V (Proc.devRef .tc r) := after_of_writes_sub _ V (writes_append C3a_writes C3b_writes) h
theorem N3_keep (V : Valuation τ sig (Elt F)) (r : Ref sig .tc) (h : r ∉ N3_W) :
    after N3 V (Proc.devRef .tc r) = V (Proc.devRef .tc r) := after_of_writes_sub N3 V N3_writes h
theorem C4_keep (V : Valuation τ sig (Elt F)) (r : Ref sig .tc) (h : r ∉ C4_W) :
    after C4 V (Proc.devRef .tc r) = V (Proc.devRef .tc r) := after_of_writes_sub C4 V C4_writes h

end Cert.ReferenceIdeal.HandRun

end
-- ==== Proof.RefRunLayers.lean ====
/-
  What each stretch of the reference's line computes, as the network's functions.

  From any contents: the first stretch leaves the stacked table and the first layer's node embeddings; each later layer's stretch
  leaves `Spec.egoNext` of the previous layer's embeddings, of their neighbourhood sums and of that layer's weights and biases; each
  normalisation stretch leaves `Spec.unitRows` of its layer's embeddings; the last stretch leaves the two row ranges of the four
  tables side by side. Each is the fold read off operation by operation, which is the function's own text.
-/
import proofs.«182127_j4269197492536_2_alg».proof.Proof.RefRunOps

noncomputable section

namespace Cert.ReferenceIdeal.HandRun

open Cert.ReferenceIdeal Idealize.ShloMosaic Idealize.ShloMosaic.TcCoe Idealize.SL.Sem Idealize.ShloMosaic.StableHlo Cert.LibFold

variable {F : FTy → Type} [FloatOps F] [Facts]
open Facts₀ Facts

/-! ## The first stretch: the stacked table, and layer 1 from it -/

set_option maxRecDepth 8192 in
/-- The user table stacked on the item table. -/
theorem A1_v0 (V : Valuation τ sig (Elt F)) :
    after A1 V (Proc.devRef .tc main_v0) = Spec.ego0 (V (Proc.devRef .tc main_arg3)) (V (Proc.devRef .tc main_arg4)) := by
  simp only [A1]
  after_all
  rfl

set_option maxRecDepth 8192 in
set_option maxHeartbeats 4000000 in
/-- The node embeddings after the first layer. -/
theorem A1_v35 (V : Valuation τ sig (Elt F)) :
    after A1 V (Proc.devRef .tc main_v35) = Spec.ego1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [A1]
  after_all
  simp only [Spec.ego1, Spec.ego0, Spec.egoNext, Spec.lrelu, Spec.proj, Spec.spmm, Spec.nodeCol]
  rfl

/-! ## Layers 2 and 3 from the previous layer's embeddings -/

set_option maxRecDepth 8192 in
set_option maxHeartbeats 4000000 in
/-- Layer 2's node embeddings are `Spec.egoNext` of the previous layer's, of their neighbourhood sums and of the layer's weights. -/
theorem E2_v78 (W : Valuation τ sig (Elt F)) :
    after (C2a ++ C2b) W (Proc.devRef .tc main_v78)
      = Spec.egoNext (W (Proc.devRef .tc main_v35))
          (Spec.spmm (W (Proc.devRef .tc main_arg0)) (W (Proc.devRef .tc main_arg1)) (W (Proc.devRef .tc main_arg2)) (W (Proc.devRef .tc main_v35)))
          (Spec.mat1 (W (Proc.devRef .tc main_arg5))) (Spec.mat1 (W (Proc.devRef .tc main_arg7)))
          (Spec.vec1 (W (Proc.devRef .tc main_arg6))) (Spec.vec1 (W (Proc.devRef .tc main_arg8))) := by
  simp only [C2a, C2b]
  after_all
  simp only [Spec.egoNext, Spec.lrelu, Spec.proj, Spec.spmm, Spec.nodeCol]
  rfl

set_option maxRecDepth 8192 in
set_option maxHeartbeats 4000000 in
/-- Layer 3's node embeddings are `Spec.egoNext` of the previous layer's, of their neighbourhood sums and of the layer's weights. -/
theorem E3_v121 (W : Valuation τ sig (Elt F)) :
    after (C3a ++ C3b) W (Proc.devRef .tc main_v121)
      = Spec.egoNext (W (Proc.devRef .tc main_v78))
          (Spec.spmm (W (Proc.devRef .tc main_arg0)) (W (Proc.devRef .tc main_arg1)) (W (Proc.devRef .tc main_arg2)) (W (Proc.devRef .tc main_v78)))
          (Spec.mat2 (W (Proc.devRef .tc main_arg5))) (Spec.mat2 (W (Proc.devRef .tc main_arg7)))
          (Spec.vec2 (W (Proc.devRef .tc main_arg6))) (Spec.vec2 (W (Proc.devRef .tc main_arg8))) := by
  simp only [C3a, C3b]
  after_all
  simp only [Spec.egoNext, Spec.lrelu, Spec.proj, Spec.spmm, Spec.nodeCol]
  rfl

/-! ## The normalisations -/

/-- Layer 1's output embedding is its node embeddings with every row scaled to unit length. -/
theorem N1_v43 (W : Valuation τ sig (Elt F)) :
    after N1 W (Proc.devRef .tc main_v43) = Spec.unitRows (W (Proc.devRef .tc main_v35)) := by
  simp only [N1]
  after_all
  rfl

/-- Layer 2's output embedding is its node embeddings with every row scaled to unit length. -/
theorem N2_v86 (W : Valuation τ sig (Elt F)) :
    after N2 W (Proc.devRef .tc main_v86) = Spec.unitRows (W (Proc.devRef .tc main_v78)) := by
  simp only [N2]
  after_all
  rfl

/-- Layer 3's output embedding is its node embeddings with every row scaled to unit length. -/
theorem N3_v129 (W : Valuation τ sig (Elt F)) :
    after N3 W (Proc.devRef .tc main_v129) = Spec.unitRows (W (Proc.devRef .tc main_v121)) := by
  simp only [N3]
  after_all
  rfl

/-! ## The two results -/

/-- The user rows of the four tables side by side. -/
theorem C4_v131 (X : Valuation τ sig (Elt F)) :
    after C4 X (Proc.devRef .tc main_v131)
      = extractStridedSlice S50000x256 ![0, 0]
        (concatenate S150000x256 1 [⟨S150000x64, (X (Proc.devRef .tc main_v0))⟩, ⟨S150000x64, (X (Proc.devRef .tc main_v43))⟩, ⟨S150000x64, (X (Proc.devRef .tc main_v86))⟩, ⟨S150000x64, (X (Proc.devRef .tc main_v129))⟩]
          concatenates_S150000x64_S150000x64_S150000x64_S150000x64_S150000x256_d1 : Spec.Arr F S150000x256 .f32) slices_S150000x256_S50000x256_0_0 := by
  simp only [C4]
  after_all
  rfl

/-- The item rows of the four tables side by side. -/
theorem C4_v132 (X : Valuation τ sig (Elt F)) :
    after C4 X (Proc.devRef .tc main_v132)
      = extractStridedSlice S100000x256 ![50000, 0]
        (concatenate S150000x256 1 [⟨S150000x64, (X (Proc.devRef .tc main_v0))⟩, ⟨S150000x64, (X (Proc.devRef .tc main_v43))⟩, ⟨S150000x64, (X (Proc.devRef .tc main_v86))⟩, ⟨S150000x64, (X (Proc.devRef .tc main_v129))⟩]
          concatenates_S150000x64_S150000x64_S150000x64_S150000x64_S150000x256_d1 : Spec.Arr F S150000x256 .f32) slices_S150000x256_S100000x256_50000_0 := by
  simp only [C4]
  after_all
  rfl

end Cert.ReferenceIdeal.HandRun

end
-- ==== Proof.RefRun.lean ====
/-
  The reference program's run, read as the network's functions.

  Every weakly fair execution of the reference program terminates; its two results are `Spec.userOut` and `Spec.itemOut` of the nine
  arguments' launch contents, and the arguments are unchanged. The run is the fold of the program's line of operations
  (`run_fold`); the fold is read stretch by stretch: after the first layer's stretches the buffers hold the stacked table, the first
  layer's embeddings and their normalisation; each later layer's stretch computes `Spec.egoNext` from the embeddings before it, which
  is `Spec.ego2`, then `Spec.ego3`, by their definitions; every stretch leaves alone what it does not write, the arguments above all;
  the last stretch concatenates the four tables and slices, which is `Spec.userOut` and `Spec.itemOut` by their definitions.
-/
import proofs.«182127_j4269197492536_2_alg».proof.Proof.RefRunLayers

noncomputable section

namespace Cert.ReferenceIdeal.HandRun

open Cert.ReferenceIdeal Idealize.ShloMosaic Idealize.ShloMosaic.TcCoe Idealize.SL.Sem Idealize.ShloMosaic.StableHlo Cert.LibFold

variable {F : FTy → Type} [FloatOps F] [Facts]
open Facts₀ Facts

/-! ## The arguments are written by no operation -/

/-- The buffers the whole line writes. -/
abbrev ops_W : List (Ref sig .tc) :=
  A1_W ++ (N1_W ++ ((C2a_W ++ C2b_W) ++ (N2_W ++ ((C3a_W ++ C3b_W) ++ (N3_W ++ C4_W)))))

theorem ops_writes : (ops : List (HloOp τ sig (Elt F))).Forall fun op => op.writes ⊆ (ops_W.map (Proc.devRef (τ := τ) .tc)).toFinset :=
  writes_append A1_writes (writes_append N1_writes (writes_append (writes_append C2a_writes C2b_writes)
    (writes_append N2_writes (writes_append (writes_append C3a_writes C3b_writes) (writes_append N3_writes C4_writes)))))

/-- A buffer the line does not write keeps its contents through it. -/
theorem ops_keep (V : Valuation τ sig (Elt F)) (r : Ref sig .tc) (h : r ∉ ops_W) :
    after ops V (Proc.devRef .tc r) = V (Proc.devRef .tc r) := after_of_writes_sub ops V ops_writes h

/-- A buffer the line does not write is written by none of its stretches. -/
theorem parts {r : Ref sig .tc} (h : r ∉ ops_W) :
    r ∉ A1_W ∧ r ∉ N1_W ∧ r ∉ C2a_W ++ C2b_W ∧ r ∉ N2_W ∧ r ∉ C3a_W ++ C3b_W ∧ r ∉ N3_W ∧ r ∉ C4_W := by
  simpa only [ops_W, List.mem_append, not_or] using h

/-! ## The contents stretch by stretch -/

section Stages
variable (V : Valuation τ sig (Elt F))

/-- The contents after layer 1 and its normalisation. -/
def V1n : Valuation τ sig (Elt F) := after N1 (after A1 V)
/-- The contents after layer 2 and its normalisation. -/
def V2n : Valuation τ sig (Elt F) := after N2 (after (C2a ++ C2b) (V1n V))
/-- The contents after layer 3 and its normalisation. -/
def V3n : Valuation τ sig (Elt F) := after N3 (after (C3a ++ C3b) (V2n V))

theorem after_ops' : after ops V = after C4 (V3n V) := by rw [after_ops]; rfl

theorem V1n_arg (r : Ref sig .tc) (h : r ∉ ops_W) : V1n V (Proc.devRef .tc r) = V (Proc.devRef .tc r) :=
  (N1_keep _ r (parts h).2.1).trans (A1_keep V r (parts h).1)
theorem V1n_v0 : V1n V (Proc.devRef .tc main_v0) = Spec.ego0 (V (Proc.devRef .tc main_arg3)) (V (Proc.devRef .tc main_arg4)) :=
  (N1_keep _ main_v0 (by decide)).trans (A1_v0 V)
theorem V1n_v35 : V1n V (Proc.devRef .tc main_v35) = Spec.ego1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (N1_keep _ main_v35 (by decide)).trans (A1_v35 V)
theorem V1n_v43 : V1n V (Proc.devRef .tc main_v43) = Spec.unitRows (Spec.ego1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N1_v43 _).trans (congrArg Spec.unitRows (A1_v35 V))

/-- Layer 2 from layer 1: `Spec.ego2` by its definition. -/
theorem V2_v78 : after (C2a ++ C2b) (V1n V) (Proc.devRef .tc main_v78) = Spec.ego2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [E2_v78, V1n_v35, V1n_arg V main_arg0 (by decide), V1n_arg V main_arg1 (by decide), V1n_arg V main_arg2 (by decide), V1n_arg V main_arg5 (by decide), V1n_arg V main_arg6 (by decide), V1n_arg V main_arg7 (by decide), V1n_arg V main_arg8 (by decide)]
  rfl

theorem V2n_arg (r : Ref sig .tc) (h : r ∉ ops_W) : V2n V (Proc.devRef .tc r) = V (Proc.devRef .tc r) :=
  (N2_keep _ r (parts h).2.2.2.1).trans ((E2_keep _ r (parts h).2.2.1).trans (V1n_arg V r h))
theorem V2n_v0 : V2n V (Proc.devRef .tc main_v0) = Spec.ego0 (V (Proc.devRef .tc main_arg3)) (V (Proc.devRef .tc main_arg4)) :=
  (N2_keep _ main_v0 (by decide)).trans ((E2_keep _ main_v0 (by decide)).trans (V1n_v0 V))
theorem V2n_v43 : V2n V (Proc.devRef .tc main_v43) = Spec.unitRows (Spec.ego1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N2_keep _ main_v43 (by decide)).trans ((E2_keep _ main_v43 (by decide)).trans (V1n_v43 V))
theorem V2n_v78 : V2n V (Proc.devRef .tc main_v78) = Spec.ego2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (N2_keep _ main_v78 (by decide)).trans (V2_v78 V)
theorem V2n_v86 : V2n V (Proc.devRef .tc main_v86) = Spec.unitRows (Spec.ego2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N2_v86 _).trans (congrArg Spec.unitRows (V2_v78 V))

/-- Layer 3 from layer 2: `Spec.ego3` by its definition. -/
theorem V3_v121 : after (C3a ++ C3b) (V2n V) (Proc.devRef .tc main_v121) = Spec.ego3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [E3_v121, V2n_v78, V2n_arg V main_arg0 (by decide), V2n_arg V main_arg1 (by decide), V2n_arg V main_arg2 (by decide), V2n_arg V main_arg5 (by decide), V2n_arg V main_arg6 (by decide), V2n_arg V main_arg7 (by decide), V2n_arg V main_arg8 (by decide)]
  rfl

theorem V3n_v0 : V3n V (Proc.devRef .tc main_v0) = Spec.ego0 (V (Proc.devRef .tc main_arg3)) (V (Proc.devRef .tc main_arg4)) :=
  (N3_keep _ main_v0 (by decide)).trans ((E3_keep _ main_v0 (by decide)).trans (V2n_v0 V))
theorem V3n_v43 : V3n V (Proc.devRef .tc main_v43) = Spec.unitRows (Spec.ego1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N3_keep _ main_v43 (by decide)).trans ((E3_keep _ main_v43 (by decide)).trans (V2n_v43 V))
theorem V3n_v86 : V3n V (Proc.devRef .tc main_v86) = Spec.unitRows (Spec.ego2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N3_keep _ main_v86 (by decide)).trans ((E3_keep _ main_v86 (by decide)).trans (V2n_v86 V))
theorem V3n_v129 : V3n V (Proc.devRef .tc main_v129) = Spec.unitRows (Spec.ego3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  (N3_v129 _).trans (congrArg Spec.unitRows (V3_v121 V))

/-- The first result: the user rows of the network's table. -/
theorem user_eq : after ops V (Proc.devRef .tc main_v131) = Spec.userOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops', C4_v131, V3n_v0, V3n_v43, V3n_v86, V3n_v129]
  rfl

/-- The second result: the item rows of the network's table. -/
theorem item_eq : after ops V (Proc.devRef .tc main_v132) = Spec.itemOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops', C4_v132, V3n_v0, V3n_v43, V3n_v86, V3n_v129]
  rfl

end Stages

/-! ## The run -/

/-- On every device, for any float values, from any memory with zero counters: every weakly fair execution of the reference
    program terminates with its two results the network's user rows and item rows of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v131) = Spec.userOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v132) = Spec.itemOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c main_v131).trans (user_eq (launchContents m c)), (h c main_v132).trans (item_eq (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide))⟩)
    (run_fold m ρ)

end Cert.ReferenceIdeal.HandRun

end
-- ==== Proof.lean ====
/-
  A three-layer graph network: the kernel against its reference.

  Both programs stack the user and item tables, and three times form the neighbourhood sums A · ego over the same edge list
  (gather, scale, scatter-add: the same host operations in both) and the next embeddings
      ego' = lrelu (side · Wgcᵀ + bgc) + lrelu ((ego ⊙ side) · Wbiᵀ + bbi),
  keeping ego' / max (‖ego'‖ per row, 1e-12) as the layer's output; the results are the initial table and the three outputs
  side by side, split into user rows and item rows. The reference computes a layer with two 64-wide matrix products on the
  host. The kernel computes it block by block (30 blocks of 5000 rows) with ONE 128-wide product of [side | ego ⊙ side]
  against the block-diagonal weight [[Wgcᵀ, 0], [0, Wbiᵀ]], adds [bgc | bbi], applies lrelu and adds the two 64-wide halves.
  On the extended reals the 128-term sum splits into its two 64-term halves, a product with the zero block vanishes
  (x · 0 = 0 for every extended real) and a sum of zeros is zero, so the two are the same function of the same numbers:
  no input needs to be finite. The narrowing of the product's operands to 16 bits is the identity on exact values.

  The three frames: each launch's body is run symbolically once at a generic block (it loads its four input blocks whole
  and stores its two output blocks whole), the launches and the host stretches are chained as segments, and the
  reference, a straight line of host operations, is run as a fold. The idealization rewrote nothing, so it preserves the
  kernel trivially.
-/
import proofs.«182127_j4269197492536_2_alg».proof.Defs
import proofs.«182127_j4269197492536_2_alg».proof.Proof.Gen.Kernel
import proofs.«182127_j4269197492536_2_alg».proof.Proof.Gen.KernelIdeal
import proofs.«182127_j4269197492536_2_alg».proof.Proof.Gen.ReferenceIdeal
import proofs.«182127_j4269197492536_2_alg».proof.Proof.Gen.Pre_finite_inputs
import proofs.«182127_j4269197492536_2_alg».proof.Proof.KBRun
import proofs.«182127_j4269197492536_2_alg».proof.Proof.KIRun
import proofs.«182127_j4269197492536_2_alg».proof.Proof.KILayers
import proofs.«182127_j4269197492536_2_alg».proof.Proof.RefRun
import Idealize.ShloMosaic.Adequacy
import Idealize.ShloMosaic.Init

noncomputable section

namespace Cert.Proof

open Idealize.ShloMosaic Idealize.SL.Sem

/-- The word-level kernel runs to the end without a fault and leaves its nine arguments as launched. -/
theorem frame_kernel : Cert.frame_Kernel (hKernel := Cert.Kernel.Gen.facts) (hPre_finite_inputs := Cert.Pre_finite_inputs.Gen.facts) :=
  fun m ρ _ => Cert.Kernel.Rg.frame (F := Bits) m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Rg.frame (F := Ideal) m ρ

/-- The reference's run with its two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.HandRun.run (F := Ideal) m ρ)

/-- The idealization rewrote no operation. -/
theorem preserves : Cert.preserves_Kernel_KernelIdeal := trivial

/-- From memories agreeing on the nine arguments both programs end with the reference network's user rows and item rows of
    those arguments: the kernel by the layer-by-layer comparison, the reference by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Spec.userOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Spec.itemOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Rg.run_all (F := Ideal) m ρ)
    exact ⟨(h c _ (Cert.KernelIdeal.Rg.mem_uc Cert.KernelIdeal.main_v95 (by decide))).trans (Cert.KernelIdeal.Val.users_eq m c),
      (h c _ (Cert.KernelIdeal.Rg.mem_uc Cert.KernelIdeal.main_v96 (by decide))).trans (Cert.KernelIdeal.Val.items_eq m c),
      (h c _ (Cert.KernelIdeal.Rg.mem_uc Cert.KernelIdeal.main_arg0 (by decide))).trans (Cert.KernelIdeal.Rg.kept_arg0 m c),
      (h c _ (Cert.KernelIdeal.Rg.mem_uc Cert.KernelIdeal.main_arg1 (by decide))).trans (Cert.KernelIdeal.Rg.kept_arg1 m c),
      (h c _ (Cert.KernelIdeal.Rg.mem_uc Cert.KernelIdeal.main_arg2 (by decide))).trans (Cert.KernelIdeal.Rg.kept_arg2 m c),
      (h c _ (Cert.KernelIdeal.Rg.mem_uc Cert.KernelIdeal.main_arg3 (by decide))).trans (Cert.KernelIdeal.Rg.kept_arg3 m c),
      (h c _ (Cert.KernelIdeal.Rg.mem_uc Cert.KernelIdeal.main_arg4 (by decide))).trans (Cert.KernelIdeal.Rg.kept_arg4 m c),
      (h c _ (Cert.KernelIdeal.Rg.mem_uc Cert.KernelIdeal.main_arg5 (by decide))).trans (Cert.KernelIdeal.Rg.kept_arg5 m c),
      (h c _ (Cert.KernelIdeal.Rg.mem_uc Cert.KernelIdeal.main_arg6 (by decide))).trans (Cert.KernelIdeal.Rg.kept_arg6 m c),
      (h c _ (Cert.KernelIdeal.Rg.mem_uc Cert.KernelIdeal.main_arg7 (by decide))).trans (Cert.KernelIdeal.Rg.kept_arg7 m c),
      (h c _ (Cert.KernelIdeal.Rg.mem_uc Cert.KernelIdeal.main_arg8 (by decide))).trans (Cert.KernelIdeal.Rg.kept_arg8 m c)⟩
  · refine (θ_run Cert.ReferenceIdeal.defs _ _).mono (fun r h c => ?_) (Cert.ReferenceIdeal.HandRun.run (F := Ideal) m' ρ')
    obtain ⟨hu, hi, hargs⟩ := h c
    obtain ⟨e0, e1, e2, e3, e4, e5, e6, e7, e8⟩ := hagree c
    refine ⟨hu.trans ?_, hi.trans ?_, hargs⟩
    · rw [e0, e1, e2, e3, e4, e5, e6, e7, e8]
    · rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
